-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.sign_bit.Statement Cert.KernelIdeal.S2048x1024 .f32
  ∧ IdealRules.sign_bit.Statement Cert.KernelIdeal.S2048x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1000x4096 : S_.BroadcastsInDim S1000x4096 (![] : Fin 0 → Fin S1000x4096.rank)
  reducesTo_S1000x4096_S_d0_1 : S1000x4096.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S4096 .f32) (main_arg5 : FVec F S1000x4096 .f32) (main_arg6 : FVec F S1000 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1000x4096 .f32 := Host.absf main_arg5
  let main_cst_8 : FVec F S_ .f32 := constant S_ .f32 0x7F800000#32
  let main_v25 : FVec F S1000x4096 .f32 := broadcastInDim S1000x4096 ![] bcast_S_S1000x4096 main_cst_8
  let main_v26 : IVec S1000x4096 1 := cmpf .olt main_v24 main_v25
  let main_c_9 : IVec S_ 1 := constantI S_ 1 1#1
  let main_v27 : IVec S_ 1 := (fun x v => Host.reduce IntOp.andi x v reducesTo_S1000x4096_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096 .f32) (main_arg3 : FVec F S4096x4096 .f32) (main_arg4 : FVec F S4096 .f32) (main_arg5 : FVec F S1000x4096 .f32) (main_arg6 : FVec F S1000 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩
abbrev S_ : Shape := ⟨0, ![]⟩
abbrev S1024x4096 : Shape := ⟨2, ![1024, 4096]⟩
abbrev S1024 : Shape := ⟨1, ![1024]⟩
abbrev S8192x1024 : Shape := ⟨2, ![8192, 1024]⟩
abbrev S1024x1024 : Shape := ⟨2, ![1024, 1024]⟩
abbrev S8192x1000 : Shape := ⟨2, ![8192, 1000]⟩

abbrev nBuf : Space → Nat
  | .hbm => 27
  | .vmem => 26
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1000x4096, .f32⟩
  | .hbm, ⟨6, _⟩ => ⟨S1000, .f32⟩
  | .hbm, ⟨7, _⟩ => ⟨S8192x4096, .f32⟩
  | .hbm, ⟨8, _⟩ => ⟨S8192x4096, .bf16⟩
  | .hbm, ⟨9, _⟩ => ⟨S4096x4096, .f32⟩
  | .hbm, ⟨10, _⟩ => ⟨S4096x4096, .bf16⟩
  | .hbm, ⟨11, _⟩ => ⟨S4096x4096, .f32⟩
  | .hbm, ⟨12, _⟩ => ⟨S4096x4096, .bf16⟩
  | .hbm, ⟨13, _⟩ => ⟨S1x4096, .f32⟩
  | .hbm, ⟨14, _⟩ => ⟨S8192x4096, .bf16⟩
  | .hbm, ⟨15, _⟩ => ⟨S1x4096, .f32⟩
  | .hbm, ⟨16, _⟩ => ⟨S8192x4096, .bf16⟩
  | .hbm, ⟨17, _⟩ => ⟨S_, .i32⟩
  | .hbm, ⟨18, _⟩ => ⟨S_, .f32⟩
  | .hbm, ⟨19, _⟩ => ⟨S1024x4096, .f32⟩
  | .hbm, ⟨20, _⟩ => ⟨S1024x4096, .bf16⟩
  | .hbm, ⟨21, _⟩ => ⟨S_, .i32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S8192x1024, .f32⟩
  | .hbm, ⟨26, _⟩ => ⟨S8192x1000, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | .local _ .vmem, ⟨9, _⟩ => ⟨S2048x512, .bf16⟩
  | .local _ .vmem, ⟨10, _⟩ => ⟨S2048x512, .bf16⟩
  | .local _ .vmem, ⟨11, _⟩ => ⟨S1024x512, .bf16⟩
  | .local _ .vmem, ⟨12, _⟩ => ⟨S1024x512, .bf16⟩
  | .local _ .vmem, ⟨13, _⟩ => ⟨S1x1024, .f32⟩
  | .local _ .vmem, ⟨14, _⟩ => ⟨S1x1024, .f32⟩
  | .local _ .vmem, ⟨15, _⟩ => ⟨S2048x1024, .bf16⟩
  | .local _ .vmem, ⟨16, _⟩ => ⟨S2048x1024, .bf16⟩
  | .local _ .vmem, ⟨17, _⟩ => ⟨S2048x1024, .f32⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [BitOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  pads_S1000x4096_S1024x4096_0240_000 : S1000x4096.Pads (![0, 0] : Fin 2 → Nat) ![24, 0] ![0, 0] S1024x4096
  h_S_ : 0 < S_.numel
  pads_S1000_S1024_0240 : S1000.Pads (![0] : Fin 1 → Nat) ![24] ![0] S1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1024x1024 : S1x1024.Broadcasts S1024x1024
  slices_S8192x1024_S8192x1000_0_0 : S8192x1024.Slices ![0, 0] S8192x1000
  dot_S2048x512_S1024x512_S2048x1024_1_1_0_0_n_n_wf : DotDims.WF S2048x512 S1024x512 S2048x1024 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .bf16 = 32 ∨ (Rect.block (s := S8192x4096) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .bf16 = 32 ∨ (Rect.block (s := S8192x4096) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .bf16 = 32 ∨ (Rect.block (s := S8192x4096) S2048x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x4096.size a
  hwx2_0 : ∀ i : grid2.Coords, EltTy.bits .bf16 = 32 ∨ (Rect.block (s := S8192x4096) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x4096.size a
  hwx2_1 : ∀ i : grid2.Coords, EltTy.bits .bf16 = 32 ∨ (Rect.block (s := S1024x4096) S1024x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v7) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v9) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S1x4096 : Shape := ⟨2, ![1, 4096]⟩
abbrev S4096x1000 : Shape := ⟨2, ![4096, 1000]⟩
abbrev S8192x1000 : Shape := ⟨2, ![8192, 1000]⟩
abbrev S1x1000 : Shape := ⟨2, ![1, 1000]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1000x4096, .f32⟩
  | .hbm, ⟨6, _⟩ => ⟨S1000, .f32⟩
  | .hbm, ⟨7, _⟩ => ⟨S8192x4096, .f32⟩
  | .hbm, ⟨8, _⟩ => ⟨S4096x4096, .f32⟩
  | .hbm, ⟨9, _⟩ => ⟨S4096x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S4096x4096, .f32⟩
  | .hbm, ⟨17, _⟩ => ⟨S4096x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S4096x1000, .f32⟩
  | .hbm, ⟨24, _⟩ => ⟨S8192x1000, .f32⟩
  | .hbm, ⟨25, _⟩ => ⟨S1x1000, .f32⟩
  | .hbm, ⟨26, _⟩ => ⟨S8192x1000, .f32⟩
  | .hbm, ⟨27, _⟩ => ⟨S8192x1000, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S1000x4096_S4096x1000_1_0 : S1000x4096.Transposes [1, 0] S4096x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  dot_S8192x4096_S4096x4096_S8192x4096_1_0_0_1_n_n_wf : DotDims.WF S8192x4096 S4096x4096 S8192x4096 [1] [0] [0] [1] [] []
  dot_S8192x4096_S4096x1000_S8192x1000_1_0_0_1_n_n_wf : DotDims.WF S8192x4096 S4096x1000 S8192x1000 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1000_S8192x1000_1_0_0_1_n_n : DotDims S8192x4096 S4096x1000 S8192x1000 where
  lhsContracting := [1]
  rhsContracting := [0]
  lhsNonContracting := [0]
  rhsNonContracting := [1]
  lhsBatch := []
  rhsBatch := []
  wf := dot_S8192x4096_S4096x1000_S8192x1000_1_0_0_1_n_n_wf

class Facts : Prop extends Facts₀ where

variable [Facts]
-- ==== Proof.KB.R0Base.lean ====
/-
  Layer 1 of the network (the first binarized matrix product), as the grid of 4 x 4 x 8 points runs it: the
  vocabulary the three runs of its body share.  A point (i, j, k) works on rows 2048 i .. of the activations,
  rows 1024 j .. of the weights and columns 512 k .. of both; the float accumulator lives in a scratch buffer
  that is cleared when k = 0, added to at every k, and read out (bias added, three-valued sign taken) when k = 7.
  Here: the blocks the windows present at a point, the two conditions on k in closed form, where the output
  window is idle, and the region invariant of the class with the accumulator singled out of the scoped buffers.
-/
import proofs.«143552_j60455959658594_2_alg».proof.Proof.Gen.Kernel.Launch
import proofs.«143552_j60455959658594_2_alg».proof.Proof.Gen.Kernel.Skeleton
import proofs.«143552_j60455959658594_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

section
variable (V : (c : Dev nD) → (b : Ref sig .tc) → Buf (Elt F) ((c : Thread nD τ).loc b))

/-- The block window `w` presents at point `t`, read off the window's array as the region finds it. -/
def blkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point, whether the pipeline fetched it there or kept it from the point
    before (the block index did not move then). -/
theorem inR0_0_of {c : Dev nD} (dat : Dat τ (Elt F) Unit ℕ (UR sig nD τ) ℕ cfg0 c) (hA : dat.A 0 = V c (Pipeline.arrRef spec0 0))
    (hafter : ∀ t, dat.after 0 t = blkR0 V c 0 t) (t : Fin cfg0.N) (d) : dat.before 0 t d = blkR0 V c 0 t :=
  (dat.before_in_eq_fetched 0 rfl (fun _ => rfl) (fun _ _ _ => rfl) (fun t => by rw [hafter]; unfold Dat.blockOf blkR0; rw [hA]; try rfl) t d).trans
    (by unfold Dat.fetched Dat.blockOf blkR0; rw [hA]; try rfl)
theorem inR0_1_of {c : Dev nD} (dat : Dat τ (Elt F) Unit ℕ (UR sig nD τ) ℕ cfg0 c) (hA : dat.A 1 = V c (Pipeline.arrRef spec0 1))
    (hafter : ∀ t, dat.after 1 t = blkR0 V c 1 t) (t : Fin cfg0.N) (d) : dat.before 1 t d = blkR0 V c 1 t :=
  (dat.before_in_eq_fetched 1 rfl (fun _ => rfl) (fun _ _ _ => rfl) (fun t => by rw [hafter]; unfold Dat.blockOf blkR0; rw [hA]; try rfl) t d).trans
    (by unfold Dat.fetched Dat.blockOf blkR0; rw [hA]; try rfl)
theorem inR0_2_of {c : Dev nD} (dat : Dat τ (Elt F) Unit ℕ (UR sig nD τ) ℕ cfg0 c) (hA : dat.A 2 = V c (Pipeline.arrRef spec0 2))
    (hafter : ∀ t, dat.after 2 t = blkR0 V c 2 t) (t : Fin cfg0.N) (d) : dat.before 2 t d = blkR0 V c 2 t :=
  (dat.before_in_eq_fetched 2 rfl (fun _ => rfl) (fun _ _ _ => rfl) (fun t => by rw [hafter]; unfold Dat.blockOf blkR0; rw [hA]; try rfl) t d).trans
    (by unfold Dat.fetched Dat.blockOf blkR0; rw [hA]; try rfl)
end

/-! ## The two conditions on the contraction step -/

/-- "k = 0": the accumulator is cleared. -/
abbrev firstR0 (i : grid0.Coords) : Prop := (Scalar.cmpi .ne (Scalar.extui (Scalar.cmpi .eq (BitVec.ofNat 32 (i 2).val) 0#32)) 0#32) = 1#1
theorem firstR0_iff : ∀ t : Fin cfg0.N, firstR0 (grid0.coords t) ↔ t.val % 8 = 0 :=
  (by decide +kernel : ∀ t : Fin grid0.N, firstR0 (grid0.coords t) ↔ t.val % 8 = 0)
/-- "k = 7": the result is written. -/
abbrev lastR0 (i : grid0.Coords) : Prop := k0_cond2 i = 1#1
theorem lastR0_iff : ∀ t : Fin cfg0.N, lastR0 (grid0.coords t) ↔ t.val % 8 = 7 :=
  (by decide +kernel : ∀ t : Fin grid0.N, lastR0 (grid0.coords t) ↔ t.val % 8 = 7)

/-! ## Where the windows are live -/

theorem liveR0_0 : ∀ t : Fin cfg0.N, cfg0.idle 0 (grid0.coords t) = false := by decide +kernel
theorem liveR0_1 : ∀ t : Fin cfg0.N, cfg0.idle 1 (grid0.coords t) = false := by decide +kernel
theorem liveR0_2 : ∀ t : Fin cfg0.N, cfg0.idle 2 (grid0.coords t) = false := by decide +kernel
/-- Away from k = 7 the output window is idle and not written back. -/
theorem idleR0_3 : ∀ t : Fin cfg0.N, ¬lastR0 (grid0.coords t) → cfg0.idle 3 (grid0.coords t) = true := by decide +kernel
theorem noFlushR0_3 : ∀ t : Fin cfg0.N, ¬lastR0 (grid0.coords t) → (cfg0.win 3).flush t = false := by decide +kernel
theorem liveR0_3 : ∀ t : Fin cfg0.N, lastR0 (grid0.coords t) → cfg0.idle 3 (grid0.coords t) = false := by decide +kernel

/-! ## The memrefs the body is called with -/

abbrev outViewR0 : View sig .tc .vmem S2048x1024 .bf16 := (Memref.whole cc0_stg3_0 : Memref sig .tc .vmem S2048x1024 .bf16).view
abbrev mR0_0 (t : Fin cfg0.N) : Memref sig .tc .vmem S2048x512 .bf16 := win0_0.stage (cfg0.slots t 0)
abbrev hR0_0 (t : Fin cfg0.N) : (mR0_0 t).IsWhole := hstage0_0 ((cfg0.slots t 0).cast nbuf0_0)
abbrev mR0_1 (t : Fin cfg0.N) : Memref sig .tc .vmem S1024x512 .bf16 := win0_1.stage (cfg0.slots t 1)
abbrev hR0_1 (t : Fin cfg0.N) : (mR0_1 t).IsWhole := hstage0_1 ((cfg0.slots t 1).cast nbuf0_1)
abbrev mR0_2 (t : Fin cfg0.N) : Memref sig .tc .vmem S1x1024 .f32 := win0_2.stage (cfg0.slots t 2)
abbrev hR0_2 (t : Fin cfg0.N) : (mR0_2 t).IsWhole := hstage0_2 ((cfg0.slots t 2).cast nbuf0_2)
abbrev mR0_3 (t : Fin cfg0.N) : Memref sig .tc .vmem S2048x1024 .bf16 := win0_3.stage (cfg0.slots t 3)
abbrev hR0_3 (t : Fin cfg0.N) : (mR0_3 t).IsWhole := hstage0_3 ((cfg0.slots t 3).cast nbuf0_3)
/-- The accumulator: a whole scoped buffer of the kernel's own. -/
abbrev accR0 : Memref sig .tc .vmem S2048x1024 .f32 := Memref.whole cc0_scratch0
abbrev accViewR0 : View sig .tc .vmem S2048x1024 .f32 := accR0.view

/-- The other scoped buffers of the core (the later layers' staging buffers and accumulators), never opened here. -/
abbrev othersR0 (c : Dev nD) : sProp 𝕄 :=
  Pipeline.scopedRestBut (Ix := Unit) (Name := ℕ) (U := UR sig nD τ) (Lvl := ℕ) (Val := Elt F) spec0 c [cc0_scratch0]

/-- The class's region invariant with the accumulator singled out: the accumulator at some contents, the other scoped
    buffers, the generator register at some state. -/
theorem PhiA_R0 (c : Dev nD) :
    (Pipeline.ΦA spec0 c : sProp 𝕄)
      = iprop(iprop((∃ d, owns (c : Thread nD τ) accR0 fullShare d) ∗ othersR0 c) ∗ (∃ r, prngReg c r)) := by
  unfold Pipeline.ΦA
  rw [Pipeline.scopedRest_split_of_list spec0 c [cc0_scratch0] (by decide) (by decide)]
  simp only [bigSepL, accR0, owns_whole]; try rfl

end Cert.Kernel.Hand

end
-- ==== Proof.KB.R0RunFirst.lean ====
/-
  Layer 1, one point of the grid: the kernel body run when k = 0 (the accumulator is cleared first, then the block product added; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KB.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 4000000 in
noncomputable def runR0_first (c : Dev nD) (i : grid0.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : firstR0 i) (hl : ¬lastR0 i)
    (x0 : Vec F S2048x512 .bf16) (x1 : Vec F S1024x512 .bf16) (x2 : Vec F S1x1024 .f32) :
    { Lacc : List (View.Piece (Elt F) S2048x1024 .f32) //
      ∀ (xo : Vec F S2048x1024 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ (∃ d, owns (c : Thread nD τ) a7 fullShare d)
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc0__binary_layer_kernel i a3 h3 a4 h4 a5 h5 a6 h6 a7 h7) K } := by
  refine ⟨?_, fun xo E K => ?run⟩
  case run =>
    simp only [cc0__binary_layer_kernel_eq_skeleton]; unfold cc0__binary_layer_kernel_skel
    unfold owns
    iintro ⟨⟨%f0, %hf0, H0⟩, ⟨%f1, %hf1, H1⟩, ⟨%f2, %hf2, H2⟩, ⟨%f3, %hf3, H3⟩, ⟨%d, %fa, -, HA⟩, Hk⟩
    obtain rfl := h3.eq_unread hf0; obtain rfl := h4.eq_unread hf1; obtain rfl := h5.eq_unread hf2; obtain rfl := h6.eq_unread hf3
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.Kernel.Hand

end
-- ==== Proof.KB.R0RunMid.lean ====
/-
  Layer 1, one point of the grid: the kernel body run when 0 < k < 7 (the block product is added to the accumulator; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KB.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 4000000 in
noncomputable def runR0_mid (c : Dev nD) (i : grid0.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : ¬firstR0 i) (hl : ¬lastR0 i)
    (x0 : Vec F S2048x512 .bf16) (x1 : Vec F S1024x512 .bf16) (x2 : Vec F S1x1024 .f32) (acc : Vec F S2048x1024 .f32) :
    { Lacc : List (View.Piece (Elt F) S2048x1024 .f32) //
      ∀ (xo : Vec F S2048x1024 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare acc
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc0__binary_layer_kernel i a3 h3 a4 h4 a5 h5 a6 h6 a7 h7) K } := by
  refine ⟨?_, fun xo E K => ?run⟩
  case run =>
    simp only [cc0__binary_layer_kernel_eq_skeleton]; unfold cc0__binary_layer_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := h3.eq_unread hf0; obtain rfl := h4.eq_unread hf1; obtain rfl := h5.eq_unread hf2; obtain rfl := h6.eq_unread hf3; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.Kernel.Hand

end
-- ==== Proof.KB.R0RunLast.lean ====
/-
  Layer 1, one point of the grid: the kernel body run when k = 7 (the last block product is added, then bias and sign: the output block is written).
  The run is symbolic: the body's loads, stores and the two tests on k are stepped through on whole staging
  buffers holding the blocks; what each written buffer ends with is recorded as the list of pieces stored
  into it (last first), found while the run is made.
-/
import proofs.«143552_j60455959658594_2_alg».proof.Proof.KB.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 4000000 in
noncomputable def runR0_last (c : Dev nD) (i : grid0.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : ¬firstR0 i) (hl : lastR0 i)
    (x0 : Vec F S2048x512 .bf16) (x1 : Vec F S1024x512 .bf16) (x2 : Vec F S1x1024 .f32) (acc : Vec F S2048x1024 .f32) :
    Σ' (Lout : List (View.Piece (Elt F) S2048x1024 .bf16)), { Lacc : List (View.Piece (Elt F) S2048x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ owns (c : Thread nD τ) a7 fullShare acc
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f Lout) ∗ (∃ f, a7.view.loc (c : Thread nD τ) ↦[a7.view.set]{fullShare} a7.view.writes (Elt F) f Lacc)) -∗ K ⟨⟩))
          ⊢ wp frame (wpE (defs₀ (F := F)) Variants.none c none) E (cc0__binary_layer_kernel i a3 h3 a4 h4 a5 h5 a6 h6 a7 h7) K } := by
  refine ⟨?_, ?_, fun E K => ?run⟩
  case run =>
    simp only [cc0__binary_layer_kernel_eq_skeleton]; unfold cc0__binary_layer_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := h3.eq_unread hf0; obtain rfl := h4.eq_unread hf1; obtain rfl := h5.eq_unread hf2; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; iexact H3
    iexists _; iexact HA

end Cert.Kernel.Hand

end
-- ==== Proof.KB.R0Data.lean ====
/-
  Layer 1 over its whole grid: what the accumulator and the output window hold after every point, the region's
  proof data, and the body obligation.
  After point t the accumulator holds what the run of the point's case leaves there, computed from the point's
  blocks and (for k > 0) from what the point before left; the output window's buffer is written only when k = 7.
  The invariant carries the accumulator at exactly those contents from one point to the next.
-/
import proofs.«143552_j60455959658594_2_alg».proof.Proof.KB.R0RunFirst
import proofs.«143552_j60455959658594_2_alg».proof.Proof.KB.R0RunMid
import proofs.«143552_j60455959658594_2_alg».proof.Proof.KB.R0RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## What one point leaves, case by case -/

/-- k = 0: the accumulator after the point. -/
def accFirstR0 (c : Dev nD) (t : Fin cfg0.N) (h0 : t.val % 8 = 0) (h7 : ¬t.val % 8 = 7) : Vec F S2048x1024 .f32 :=
  accViewR0.read (Elt F) (accViewR0.writes (Elt F) accViewR0.junk (runR0_first c (grid0.coords t) (mR0_0 t) (hR0_0 t) (mR0_1 t) (hR0_1 t) (mR0_2 t) (hR0_2 t) (mR0_3 t) (hR0_3 t) accR0 (Memref.isWhole_whole _) ((firstR0_iff t).mpr h0) (fun h => h7 ((lastR0_iff t).mp h)) (blkR0 V c 0 t) (blkR0 V c 1 t) (blkR0 V c 2 t)).1)
theorem accFirstR0_cover (c : Dev nD) (t : Fin cfg0.N) (h0 : t.val % 8 = 0) (h7 : ¬t.val % 8 = 7) (y : S2048x1024.Idx) :
    ∃ pc ∈ (runR0_first c (grid0.coords t) (mR0_0 t) (hR0_0 t) (mR0_1 t) (hR0_1 t) (mR0_2 t) (hR0_2 t) (mR0_3 t) (hR0_3 t) accR0 (Memref.isWhole_whole _) ((firstR0_iff t).mpr h0) (fun h => h7 ((lastR0_iff t).mp h)) (blkR0 V c 0 t) (blkR0 V c 1 t) (blkR0 V c 2 t)).1, y ∈ pc.1.set :=
  View.cover_of_tiledL _ S2048x1024.size (by sl_kernel_rfl) y

/-- 0 < k < 7: the accumulator after the point, from what the point before left (`acc`). -/
def accMidR0 (c : Dev nD) (t : Fin cfg0.N) (h0 : ¬t.val % 8 = 0) (h7 : ¬t.val % 8 = 7) (acc : Vec F S2048x1024 .f32) : Vec F S2048x1024 .f32 :=
  accViewR0.read (Elt F) (accViewR0.writes (Elt F) accViewR0.junk (runR0_mid c (grid0.coords t) (mR0_0 t) (hR0_0 t) (mR0_1 t) (hR0_1 t) (mR0_2 t) (hR0_2 t) (mR0_3 t) (hR0_3 t) accR0 (Memref.isWhole_whole _) (fun h => h0 ((firstR0_iff t).mp h)) (fun h => h7 ((lastR0_iff t).mp h)) (blkR0 V c 0 t) (blkR0 V c 1 t) (blkR0 V c 2 t) acc).1)
theorem accMidR0_cover (c : Dev nD) (t : Fin cfg0.N) (h0 : ¬t.val % 8 = 0) (h7 : ¬t.val % 8 = 7) (acc : Vec F S2048x1024 .f32) (y : S2048x1024.Idx) :
    ∃ pc ∈ (runR0_mid c (grid0.coords t) (mR0_0 t) (hR0_0 t) (mR0_1 t) (hR0_1 t) (mR0_2 t) (hR0_2 t) (mR0_3 t) (hR0_3 t) accR0 (Memref.isWhole_whole _) (fun h => h0 ((firstR0_iff t).mp h)) (fun h => h7 ((lastR0_iff t).mp h)) (blkR0 V c 0 t) (blkR0 V c 1 t) (blkR0 V c 2 t) acc).1, y ∈ pc.1.set :=
  View.cover_of_tiledL _ S2048x1024.size (by sl_kernel_rfl) y

/-- k = 7: the accumulator and the output block after the point. -/
def accLastR0 (c : Dev nD) (t : Fin cfg0.N) (h0 : ¬t.val % 8 = 0) (h7 : t.val % 8 = 7) (acc : Vec F S2048x1024 .f32) : Vec F S2048x1024 .f32 :=
  accViewR0.read (Elt F) (accViewR0.writes (Elt F) accViewR0.junk (runR0_last c (grid0.coords t) (mR0_0 t) (hR0_0 t) (mR0_1 t) (hR0_1 t) (mR0_2 t) (hR0_2 t) (mR0_3 t) (hR0_3 t) accR0 (Memref.isWhole_whole _) (fun h => h0 ((firstR0_iff t).mp h)) ((lastR0_iff t).mpr h7) (blkR0 V c 0 t) (blkR0 V c 1 t) (blkR0 V c 2 t) acc).2.1)
theorem accLastR0_cover (c : Dev nD) (t : Fin cfg0.N) (h0 : ¬t.val % 8 = 0) (h7 : t.val % 8 = 7) (acc : Vec F S2048x1024 .f32) (y : S2048x1024.Idx) :
    ∃ pc ∈ (runR0_last c (grid0.coords t) (mR0_0 t) (hR0_0 t) (mR0_1 t) (hR0_1 t) (mR0_2 t) (hR0_2 t) (mR0_3 t) (hR0_3 t) accR0 (Memref.isWhole_whole _) (fun h => h0 ((firstR0_iff t).mp h)) ((lastR0_iff t).mpr h7) (blkR0 V c 0 t) (blkR0 V c 1 t) (blkR0 V c 2 t) acc).2.1, y ∈ pc.1.set :=
  View.cover_of_tiledL _ S2048x1024.size (by sl_kernel_rfl) y
def outLastR0 (c : Dev nD) (t : Fin cfg0.N) (h0 : ¬t.val % 8 = 0) (h7 : t.val % 8 = 7) (acc : Vec F S2048x1024 .f32) : Vec F S2048x1024 .bf16 :=
  outViewR0.read (Elt F) (outViewR0.writes (Elt F) outViewR0.junk (runR0_last c (grid0.coords t) (mR0_0 t) (hR0_0 t) (mR0_1 t) (hR0_1 t) (mR0_2 t) (hR0_2 t) (mR0_3 t) (hR0_3 t) accR0 (Memref.isWhole_whole _) (fun h => h0 ((firstR0_iff t).mp h)) ((lastR0_iff t).mpr h7) (blkR0 V c 0 t) (blkR0 V c 1 t) (blkR0 V c 2 t) acc).1)
theorem outLastR0_cover (c : Dev nD) (t : Fin cfg0.N) (h0 : ¬t.val % 8 = 0) (h7 : t.val % 8 = 7) (acc : Vec F S2048x1024 .f32) (y : S2048x1024.Idx) :
    ∃ pc ∈ (runR0_last c (grid0.coords t) (mR0_0 t) (hR0_0 t) (mR0_1 t) (hR0_1 t) (mR0_2 t) (hR0_2 t) (mR0_3 t) (hR0_3 t) accR0 (Memref.isWhole_whole _) (fun h => h0 ((firstR0_iff t).mp h)) ((lastR0_iff t).mpr h7) (blkR0 V c 0 t) (blkR0 V c 1 t) (blkR0 V c 2 t) acc).1, y ∈ pc.1.set :=
  View.cover_of_tiledL _ S2048x1024.size (by sl_kernel_rfl) y

/-- What stands for the output window's buffer at a point that does not write it (never consulted: the window is
    idle there and not written back). -/
def idleOutR0 : Vec F S2048x1024 .bf16 := outViewR0.read (Elt F) outViewR0.junk

/-! ## Point after point -/

/-- After position `n`: (the output window's buffer, the accumulator). -/
def stateR0 (c : Dev nD) : (n : ℕ) → n < cfg0.N → Vec F S2048x1024 .bf16 × Vec F S2048x1024 .f32
  | 0, hn => (idleOutR0, accFirstR0 V c ⟨0, hn⟩ (Nat.zero_mod _) (by show ¬(0 : ℕ) % 8 = 7; decide))
  | n + 1, hn =>
    if h0 : (n + 1) % 8 = 0 then
      (idleOutR0, accFirstR0 V c ⟨n + 1, hn⟩ h0 (by show ¬(n + 1) % 8 = 7; omega))
    else if h7 : (n + 1) % 8 = 7 then
      (outLastR0 V c ⟨n + 1, hn⟩ h0 h7 (stateR0 c n (Nat.lt_of_succ_lt hn)).2, accLastR0 V c ⟨n + 1, hn⟩ h0 h7 (stateR0 c n (Nat.lt_of_succ_lt hn)).2)
    else
      (idleOutR0, accMidR0 V c ⟨n + 1, hn⟩ h0 h7 (stateR0 c n (Nat.lt_of_succ_lt hn)).2)

theorem stateR0_first (c : Dev nD) (t : Fin cfg0.N) (h0 : t.val % 8 = 0) (h7 : ¬t.val % 8 = 7) :
    stateR0 V c t.val t.isLt = (idleOutR0, accFirstR0 V c t h0 h7) := by
  obtain ⟨n, hn⟩ := t
  cases n with
  | zero => exact rfl
  | succ n => exact (dif_pos h0).trans rfl

theorem stateR0_mid (c : Dev nD) (t : Fin cfg0.N) (h0 : ¬t.val % 8 = 0) (h7 : ¬t.val % 8 = 7) :
    stateR0 V c t.val t.isLt = (idleOutR0, accMidR0 V c t h0 h7 (stateR0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem stateR0_last (c : Dev nD) (t : Fin cfg0.N) (h0 : ¬t.val % 8 = 0) (h7 : t.val % 8 = 7) :
    stateR0 V c t.val t.isLt = (outLastR0 V c t h0 h7 (stateR0 V c (t.val - 1) (Nat.lt_of_le_of_lt (Nat.sub_le _ _) t.isLt)).2, accLastR0 V c t h0 h7 (stateR0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-! ## The invariant -/

/-- Before position `n`: at the start the class's invariant (every scoped buffer at anything); afterwards the accumulator
    at what the point before left, the other scoped buffers at anything, the generator register at some state. -/
def PhiR0 (c : Dev nD) : (n : ℕ) → n ≤ cfg0.N → sProp 𝕄
  | 0, _ => Pipeline.ΦA spec0 c
  | n + 1, hn => iprop(iprop(owns (c : Thread nD τ) accR0 fullShare ((stateR0 V c n hn).2) ∗ othersR0 c) ∗ (∃ r, prngReg c r))

theorem PhiR0_zero (c : Dev nD) (n : ℕ) (h : n ≤ cfg0.N) (hz : n = 0) : PhiR0 V c n h = Pipeline.ΦA spec0 c := by
  subst hz; rfl
theorem PhiR0_succ (c : Dev nD) (n : ℕ) (hn : n < cfg0.N) :
    PhiR0 V c (n + 1) hn = iprop(iprop(owns (c : Thread nD τ) accR0 fullShare ((stateR0 V c n hn).2) ∗ othersR0 c) ∗ (∃ r, prngReg c r)) := rfl
theorem PhiR0_pos (c : Dev nD) (n : ℕ) (h : n ≤ cfg0.N) (hz : n ≠ 0) :
    PhiR0 V c n h = iprop(iprop(owns (c : Thread nD τ) accR0 fullShare ((stateR0 V c (n - 1) (by omega)).2) ∗ othersR0 c) ∗ (∃ r, prngReg c r)) := by
  cases n with
  | zero => exact absurd rfl hz
  | succ n => rfl

/-! ## The proof data -/

def datR0 (c : Dev nD) : Dat τ (Elt F) Unit ℕ (UR sig nD τ) ℕ cfg0 c where
  A w := V c (Pipeline.arrRef spec0 w)
  after w t := match w with
    | ⟨0, _⟩ => blkR0 V c 0 t
    | ⟨1, _⟩ => blkR0 V c 1 t
    | ⟨2, _⟩ => blkR0 V c 2 t
    | ⟨3, _⟩ => (stateR0 V c t.val t.isLt).1
  Φ t := PhiR0 V c t.val (Nat.le_of_lt_succ t.isLt)
  q _ := fullShare
  owed _ := 0

theorem datR0_A (c : Dev nD) (w : Fin cfg0.W) : (datR0 V c).A w = V c (Pipeline.arrRef spec0 w) := by
  dsimp only [datR0]
theorem PhiR0_castSucc (c : Dev nD) (t : Fin cfg0.N) :
    (datR0 V c).Φ t.castSucc = PhiR0 V c t.val (Nat.le_of_lt t.isLt) := by
  dsimp only [datR0]; simp only [Fin.coe_castSucc]
theorem afterR0_0 (c : Dev nD) (t : Fin cfg0.N) : (datR0 V c).after 0 t = blkR0 V c 0 t := by dsimp only [datR0]
theorem afterR0_1 (c : Dev nD) (t : Fin cfg0.N) : (datR0 V c).after 1 t = blkR0 V c 1 t := by dsimp only [datR0]
theorem afterR0_2 (c : Dev nD) (t : Fin cfg0.N) : (datR0 V c).after 2 t = blkR0 V c 2 t := by dsimp only [datR0]
theorem afterR0_3 (c : Dev nD) (t : Fin cfg0.N) : (datR0 V c).after 3 t = (stateR0 V c t.val t.isLt).1 := by dsimp only [datR0]
theorem beforeR0_0 (c : Dev nD) (t : Fin cfg0.N) (d) : (datR0 V c).before 0 t d = blkR0 V c 0 t :=
  inR0_0_of V (datR0 V c) (datR0_A V c 0) (afterR0_0 V c) t d
theorem beforeR0_1 (c : Dev nD) (t : Fin cfg0.N) (d) : (datR0 V c).before 1 t d = blkR0 V c 1 t :=
  inR0_1_of V (datR0 V c) (datR0_A V c 1) (afterR0_1 V c) t d
theorem beforeR0_2 (c : Dev nD) (t : Fin cfg0.N) (d) : (datR0 V c).before 2 t d = blkR0 V c 2 t :=
  inR0_2_of V (datR0 V c) (datR0_A V c 2) (afterR0_2 V c) t d

end Cert.Kernel.Hand

end
-- ==== Proof.KB.R1Base.lean ====
/-
  Layer 2 of the network (the second binarized matrix product), as the grid of 4 x 4 x 8 points runs it: the
  vocabulary the three runs of its body share.  A point (i, j, k) works on rows 2048 i .. of the activations,
  rows 1024 j .. of the weights and columns 512 k .. of both; the float accumulator lives in a scratch buffer
  that is cleared when k = 0, added to at every k, and read out (bias added, three-valued sign taken) when k = 7.
  Here: the blocks the windows present at a point, the two conditions on k in closed form, where the output
  window is idle, and the region invariant of the class with the accumulator singled out of the scoped buffers.
-/
import proofs.«143552_j60455959658594_2_alg».proof.Proof.Gen.Kernel.Launch
import proofs.«143552_j60455959658594_2_alg».proof.Proof.Gen.Kernel.Skeleton
import proofs.«143552_j60455959658594_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

section
variable (V : (c : Dev nD) → (b : Ref sig .tc) → Buf (Elt F) ((c : Thread nD τ).loc b))

/-- The block window `w` presents at point `t`, read off the window's array as the region finds it. -/
def blkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every point, whether the pipeline fetched it there or kept it from the point
    before (the block index did not move then). -/
theorem inR1_0_of {c : Dev nD} (dat : Dat τ (Elt F) Unit ℕ (UR sig nD τ) ℕ cfg1 c) (hA : dat.A 0 = V c (Pipeline.arrRef spec1 0))
    (hafter : ∀ t, dat.after 0 t = blkR1 V c 0 t) (t : Fin cfg1.N) (d) : dat.before 0 t d = blkR1 V c 0 t :=
  (dat.before_in_eq_fetched 0 rfl (fun _ => rfl) (fun _ _ _ => rfl) (fun t => by rw [hafter]; unfold Dat.blockOf blkR1; rw [hA]; try rfl) t d).trans
    (by unfold Dat.fetched Dat.blockOf blkR1; rw [hA]; try rfl)
theorem inR1_1_of {c : Dev nD} (dat : Dat τ (Elt F) Unit ℕ (UR sig nD τ) ℕ cfg1 c) (hA : dat.A 1 = V c (Pipeline.arrRef spec1 1))
    (hafter : ∀ t, dat.after 1 t = blkR1 V c 1 t) (t : Fin cfg1.N) (d) : dat.before 1 t d = blkR1 V c 1 t :=
  (dat.before_in_eq_fetched 1 rfl (fun _ => rfl) (fun _ _ _ => rfl) (fun t => by rw [hafter]; unfold Dat.blockOf blkR1; rw [hA]; try rfl) t d).trans
    (by unfold Dat.fetched Dat.blockOf blkR1; rw [hA]; try rfl)
theorem inR1_2_of {c : Dev nD} (dat : Dat τ (Elt F) Unit ℕ (UR sig nD τ) ℕ cfg1 c) (hA : dat.A 2 = V c (Pipeline.arrRef spec1 2))
    (hafter : ∀ t, dat.after 2 t = blkR1 V c 2 t) (t : Fin cfg1.N) (d) : dat.before 2 t d = blkR1 V c 2 t :=
  (dat.before_in_eq_fetched 2 rfl (fun _ => rfl) (fun _ _ _ => rfl) (fun t => by rw [hafter]; unfold Dat.blockOf blkR1; rw [hA]; try rfl) t d).trans
    (by unfold Dat.fetched Dat.blockOf blkR1; rw [hA]; try rfl)
end

/-! ## The two conditions on the contraction step -/

/-- "k = 0": the accumulator is cleared. -/
abbrev firstR1 (i : grid1.Coords) : Prop := (Scalar.cmpi .ne (Scalar.extui (Scalar.cmpi .eq (BitVec.ofNat 32 (i 2).val) 0#32)) 0#32) = 1#1
theorem firstR1_iff : ∀ t : Fin cfg1.N, firstR1 (grid1.coords t) ↔ t.val % 8 = 0 :=
  (by decide +kernel : ∀ t : Fin grid1.N, firstR1 (grid1.coords t) ↔ t.val % 8 = 0)
/-- "k = 7": the result is written. -/
abbrev lastR1 (i : grid1.Coords) : Prop := k1_cond2 i = 1#1
theorem lastR1_iff : ∀ t : Fin cfg1.N, lastR1 (grid1.coords t) ↔ t.val % 8 = 7 :=
  (by decide +kernel : ∀ t : Fin grid1.N, lastR1 (grid1.coords t) ↔ t.val % 8 = 7)

/-! ## Where the windows are live -/

theorem liveR1_0 : ∀ t : Fin cfg1.N, cfg1.idle 0 (grid1.coords t) = false := by decide +kernel
theorem liveR1_1 : ∀ t : Fin cfg1.N, cfg1.idle 1 (grid1.coords t) = false := by decide +kernel
theorem liveR1_2 : ∀ t : Fin cfg1.N, cfg1.idle 2 (grid1.coords t) = false := by decide +kernel
/-- Away from k = 7 the output window is idle and not written back. -/
theorem idleR1_3 : ∀ t : Fin cfg1.N, ¬lastR1 (grid1.coords t) → cfg1.idle 3 (grid1.coords t) = true := by decide +kernel
theorem noFlushR1_3 : ∀ t : Fin cfg1.N, ¬lastR1 (grid1.coords t) → (cfg1.win 3).flush t = false := by decide +kernel
theorem liveR1_3 : ∀ t : Fin cfg1.N, lastR1 (grid1.coords t) → cfg1.idle 3 (grid1.coords t) = false := by decide +kernel

/-! ## The memrefs the body is called with -/

abbrev outViewR1 : View sig .tc .vmem S2048x1024 .bf16 := (Memref.whole cc1_stg3_0 : Memref sig .tc .vmem S2048x1024 .bf16).view
abbrev mR1_0 (t : Fin cfg1.N) : Memref sig .tc .vmem S2048x512 .bf16 := win1_0.stage (cfg1.slots t 0)
abbrev hR1_0 (t : Fin cfg1.N) : (mR1_0 t).IsWhole := hstage1_0 ((cfg1.slots t 0).cast nbuf1_0)
abbrev mR1_1 (t : Fin cfg1.N) : Memref sig .tc .vmem S1024x512 .bf16 := win1_1.stage (cfg1.slots t 1)
abbrev hR1_1 (t : Fin cfg1.N) : (mR1_1 t).IsWhole := hstage1_1 ((cfg1.slots t 1).cast nbuf1_1)
abbrev mR1_2 (t : Fin cfg1.N) : Memref sig .tc .vmem S1x1024 .f32 := win1_2.stage (cfg1.slots t 2)
abbrev hR1_2 (t : Fin cfg1.N) : (mR1_2 t).IsWhole := hstage1_2 ((cfg1.slots t 2).cast nbuf1_2)
abbrev mR1_3 (t : Fin cfg1.N) : Memref sig .tc .vmem S2048x1024 .bf16 := win1_3.stage (cfg1.slots t 3)
abbrev hR1_3 (t : Fin cfg1.N) : (mR1_3 t).IsWhole := hstage1_3 ((cfg1.slots t 3).cast nbuf1_3)
/-- The accumulator: a whole scoped buffer of the kernel's own. -/
abbrev accR1 : Memref sig .tc .vmem S2048x1024 .f32 := Memref.whole cc1_scratch0
abbrev accViewR1 : View sig .tc .vmem S2048x1024 .f32 := accR1.view

/-- The other scoped buffers of the core (the later layers' staging buffers and accumulators), never opened here. -/
abbrev othersR1 (c : Dev nD) : sProp 𝕄 :=
  Pipeline.scopedRestBut (Ix := Unit) (Name := ℕ) (U := UR sig nD τ) (Lvl := ℕ) (Val := Elt F) spec1 c [cc1_scratch0]

/-- The class's region invariant with the accumulator singled out: the accumulator at some contents, the other scoped
    buffers, the generator register at some state. -/
theorem PhiA_R1 (c : Dev nD) :
    (Pipeline.ΦA spec1 c : sProp 𝕄)
      = iprop(iprop((∃ d, owns (c : Thread nD τ) accR1 fullShare d) ∗ othersR1 c) ∗ (∃ r, prngReg c r)) := by
  unfold Pipeline.ΦA
  rw [Pipeline.scopedRest_split_of_list spec1 c [cc1_scratch0] (by decide) (by decide)]
  simp only [bigSepL, accR1, owns_whole]; try rfl

end Cert.Kernel.Hand

end
-- ==== Proof.KB.R1RunFirst.lean ====
/-
  Layer 2, one point of the grid: the kernel body run when k = 0 (the accumulator is cleared first, then the block product added; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KB.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 4000000 in
noncomputable def runR1_first (c : Dev nD) (i : grid1.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : firstR1 i) (hl : ¬lastR1 i)
    (x0 : Vec F S2048x512 .bf16) (x1 : Vec F S1024x512 .bf16) (x2 : Vec F S1x1024 .f32) :
    { Lacc : List (View.Piece (Elt F) S2048x1024 .f32) //
      ∀ (xo : Vec F S2048x1024 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ (∃ d, owns (c : Thread nD τ) a7 fullShare d)
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc1__binary_layer_kernel i a3 h3 a4 h4 a5 h5 a6 h6 a7 h7) K } := by
  refine ⟨?_, fun xo E K => ?run⟩
  case run =>
    simp only [cc1__binary_layer_kernel_eq_skeleton]; unfold cc1__binary_layer_kernel_skel
    unfold owns
    iintro ⟨⟨%f0, %hf0, H0⟩, ⟨%f1, %hf1, H1⟩, ⟨%f2, %hf2, H2⟩, ⟨%f3, %hf3, H3⟩, ⟨%d, %fa, -, HA⟩, Hk⟩
    obtain rfl := h3.eq_unread hf0; obtain rfl := h4.eq_unread hf1; obtain rfl := h5.eq_unread hf2; obtain rfl := h6.eq_unread hf3
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.Kernel.Hand

end
-- ==== Proof.KB.R1RunMid.lean ====
/-
  Layer 2, one point of the grid: the kernel body run when 0 < k < 7 (the block product is added to the accumulator; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KB.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 4000000 in
noncomputable def runR1_mid (c : Dev nD) (i : grid1.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : ¬firstR1 i) (hl : ¬lastR1 i)
    (x0 : Vec F S2048x512 .bf16) (x1 : Vec F S1024x512 .bf16) (x2 : Vec F S1x1024 .f32) (acc : Vec F S2048x1024 .f32) :
    { Lacc : List (View.Piece (Elt F) S2048x1024 .f32) //
      ∀ (xo : Vec F S2048x1024 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare acc
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc1__binary_layer_kernel i a3 h3 a4 h4 a5 h5 a6 h6 a7 h7) K } := by
  refine ⟨?_, fun xo E K => ?run⟩
  case run =>
    simp only [cc1__binary_layer_kernel_eq_skeleton]; unfold cc1__binary_layer_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := h3.eq_unread hf0; obtain rfl := h4.eq_unread hf1; obtain rfl := h5.eq_unread hf2; obtain rfl := h6.eq_unread hf3; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.Kernel.Hand

end
-- ==== Proof.KB.R1RunLast.lean ====
/-
  Layer 2, one point of the grid: the kernel body run when k = 7 (the last block product is added, then bias and sign: the output block is written).
  The run is symbolic: the body's loads, stores and the two tests on k are stepped through on whole staging
  buffers holding the blocks; what each written buffer ends with is recorded as the list of pieces stored
  into it (last first), found while the run is made.
-/
import proofs.«143552_j60455959658594_2_alg».proof.Proof.KB.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 4000000 in
noncomputable def runR1_last (c : Dev nD) (i : grid1.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : ¬firstR1 i) (hl : lastR1 i)
    (x0 : Vec F S2048x512 .bf16) (x1 : Vec F S1024x512 .bf16) (x2 : Vec F S1x1024 .f32) (acc : Vec F S2048x1024 .f32) :
    Σ' (Lout : List (View.Piece (Elt F) S2048x1024 .bf16)), { Lacc : List (View.Piece (Elt F) S2048x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ owns (c : Thread nD τ) a7 fullShare acc
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f Lout) ∗ (∃ f, a7.view.loc (c : Thread nD τ) ↦[a7.view.set]{fullShare} a7.view.writes (Elt F) f Lacc)) -∗ K ⟨⟩))
          ⊢ wp frame (wpE (defs₀ (F := F)) Variants.none c none) E (cc1__binary_layer_kernel i a3 h3 a4 h4 a5 h5 a6 h6 a7 h7) K } := by
  refine ⟨?_, ?_, fun E K => ?run⟩
  case run =>
    simp only [cc1__binary_layer_kernel_eq_skeleton]; unfold cc1__binary_layer_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := h3.eq_unread hf0; obtain rfl := h4.eq_unread hf1; obtain rfl := h5.eq_unread hf2; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; iexact H3
    iexists _; iexact HA

end Cert.Kernel.Hand

end
-- ==== Proof.KB.R1Data.lean ====
/-
  Layer 2 over its whole grid: what the accumulator and the output window hold after every point, the region's
  proof data, and the body obligation.
  After point t the accumulator holds what the run of the point's case leaves there, computed from the point's
  blocks and (for k > 0) from what the point before left; the output window's buffer is written only when k = 7.
  The invariant carries the accumulator at exactly those contents from one point to the next.
-/
import proofs.«143552_j60455959658594_2_alg».proof.Proof.KB.R1RunFirst
import proofs.«143552_j60455959658594_2_alg».proof.Proof.KB.R1RunMid
import proofs.«143552_j60455959658594_2_alg».proof.Proof.KB.R1RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## What one point leaves, case by case -/

/-- k = 0: the accumulator after the point. -/
def accFirstR1 (c : Dev nD) (t : Fin cfg1.N) (h0 : t.val % 8 = 0) (h7 : ¬t.val % 8 = 7) : Vec F S2048x1024 .f32 :=
  accViewR1.read (Elt F) (accViewR1.writes (Elt F) accViewR1.junk (runR1_first c (grid1.coords t) (mR1_0 t) (hR1_0 t) (mR1_1 t) (hR1_1 t) (mR1_2 t) (hR1_2 t) (mR1_3 t) (hR1_3 t) accR1 (Memref.isWhole_whole _) ((firstR1_iff t).mpr h0) (fun h => h7 ((lastR1_iff t).mp h)) (blkR1 V c 0 t) (blkR1 V c 1 t) (blkR1 V c 2 t)).1)
theorem accFirstR1_cover (c : Dev nD) (t : Fin cfg1.N) (h0 : t.val % 8 = 0) (h7 : ¬t.val % 8 = 7) (y : S2048x1024.Idx) :
    ∃ pc ∈ (runR1_first c (grid1.coords t) (mR1_0 t) (hR1_0 t) (mR1_1 t) (hR1_1 t) (mR1_2 t) (hR1_2 t) (mR1_3 t) (hR1_3 t) accR1 (Memref.isWhole_whole _) ((firstR1_iff t).mpr h0) (fun h => h7 ((lastR1_iff t).mp h)) (blkR1 V c 0 t) (blkR1 V c 1 t) (blkR1 V c 2 t)).1, y ∈ pc.1.set :=
  View.cover_of_tiledL _ S2048x1024.size (by sl_kernel_rfl) y

/-- 0 < k < 7: the accumulator after the point, from what the point before left (`acc`). -/
def accMidR1 (c : Dev nD) (t : Fin cfg1.N) (h0 : ¬t.val % 8 = 0) (h7 : ¬t.val % 8 = 7) (acc : Vec F S2048x1024 .f32) : Vec F S2048x1024 .f32 :=
  accViewR1.read (Elt F) (accViewR1.writes (Elt F) accViewR1.junk (runR1_mid c (grid1.coords t) (mR1_0 t) (hR1_0 t) (mR1_1 t) (hR1_1 t) (mR1_2 t) (hR1_2 t) (mR1_3 t) (hR1_3 t) accR1 (Memref.isWhole_whole _) (fun h => h0 ((firstR1_iff t).mp h)) (fun h => h7 ((lastR1_iff t).mp h)) (blkR1 V c 0 t) (blkR1 V c 1 t) (blkR1 V c 2 t) acc).1)
theorem accMidR1_cover (c : Dev nD) (t : Fin cfg1.N) (h0 : ¬t.val % 8 = 0) (h7 : ¬t.val % 8 = 7) (acc : Vec F S2048x1024 .f32) (y : S2048x1024.Idx) :
    ∃ pc ∈ (runR1_mid c (grid1.coords t) (mR1_0 t) (hR1_0 t) (mR1_1 t) (hR1_1 t) (mR1_2 t) (hR1_2 t) (mR1_3 t) (hR1_3 t) accR1 (Memref.isWhole_whole _) (fun h => h0 ((firstR1_iff t).mp h)) (fun h => h7 ((lastR1_iff t).mp h)) (blkR1 V c 0 t) (blkR1 V c 1 t) (blkR1 V c 2 t) acc).1, y ∈ pc.1.set :=
  View.cover_of_tiledL _ S2048x1024.size (by sl_kernel_rfl) y

/-- k = 7: the accumulator and the output block after the point. -/
def accLastR1 (c : Dev nD) (t : Fin cfg1.N) (h0 : ¬t.val % 8 = 0) (h7 : t.val % 8 = 7) (acc : Vec F S2048x1024 .f32) : Vec F S2048x1024 .f32 :=
  accViewR1.read (Elt F) (accViewR1.writes (Elt F) accViewR1.junk (runR1_last c (grid1.coords t) (mR1_0 t) (hR1_0 t) (mR1_1 t) (hR1_1 t) (mR1_2 t) (hR1_2 t) (mR1_3 t) (hR1_3 t) accR1 (Memref.isWhole_whole _) (fun h => h0 ((firstR1_iff t).mp h)) ((lastR1_iff t).mpr h7) (blkR1 V c 0 t) (blkR1 V c 1 t) (blkR1 V c 2 t) acc).2.1)
theorem accLastR1_cover (c : Dev nD) (t : Fin cfg1.N) (h0 : ¬t.val % 8 = 0) (h7 : t.val % 8 = 7) (acc : Vec F S2048x1024 .f32) (y : S2048x1024.Idx) :
    ∃ pc ∈ (runR1_last c (grid1.coords t) (mR1_0 t) (hR1_0 t) (mR1_1 t) (hR1_1 t) (mR1_2 t) (hR1_2 t) (mR1_3 t) (hR1_3 t) accR1 (Memref.isWhole_whole _) (fun h => h0 ((firstR1_iff t).mp h)) ((lastR1_iff t).mpr h7) (blkR1 V c 0 t) (blkR1 V c 1 t) (blkR1 V c 2 t) acc).2.1, y ∈ pc.1.set :=
  View.cover_of_tiledL _ S2048x1024.size (by sl_kernel_rfl) y
def outLastR1 (c : Dev nD) (t : Fin cfg1.N) (h0 : ¬t.val % 8 = 0) (h7 : t.val % 8 = 7) (acc : Vec F S2048x1024 .f32) : Vec F S2048x1024 .bf16 :=
  outViewR1.read (Elt F) (outViewR1.writes (Elt F) outViewR1.junk (runR1_last c (grid1.coords t) (mR1_0 t) (hR1_0 t) (mR1_1 t) (hR1_1 t) (mR1_2 t) (hR1_2 t) (mR1_3 t) (hR1_3 t) accR1 (Memref.isWhole_whole _) (fun h => h0 ((firstR1_iff t).mp h)) ((lastR1_iff t).mpr h7) (blkR1 V c 0 t) (blkR1 V c 1 t) (blkR1 V c 2 t) acc).1)
theorem outLastR1_cover (c : Dev nD) (t : Fin cfg1.N) (h0 : ¬t.val % 8 = 0) (h7 : t.val % 8 = 7) (acc : Vec F S2048x1024 .f32) (y : S2048x1024.Idx) :
    ∃ pc ∈ (runR1_last c (grid1.coords t) (mR1_0 t) (hR1_0 t) (mR1_1 t) (hR1_1 t) (mR1_2 t) (hR1_2 t) (mR1_3 t) (hR1_3 t) accR1 (Memref.isWhole_whole _) (fun h => h0 ((firstR1_iff t).mp h)) ((lastR1_iff t).mpr h7) (blkR1 V c 0 t) (blkR1 V c 1 t) (blkR1 V c 2 t) acc).1, y ∈ pc.1.set :=
  View.cover_of_tiledL _ S2048x1024.size (by sl_kernel_rfl) y

/-- What stands for the output window's buffer at a point that does not write it (never consulted: the window is
    idle there and not written back). -/
def idleOutR1 : Vec F S2048x1024 .bf16 := outViewR1.read (Elt F) outViewR1.junk

/-! ## Point after point -/

/-- After position `n`: (the output window's buffer, the accumulator). -/
def stateR1 (c : Dev nD) : (n : ℕ) → n < cfg1.N → Vec F S2048x1024 .bf16 × Vec F S2048x1024 .f32
  | 0, hn => (idleOutR1, accFirstR1 V c ⟨0, hn⟩ (Nat.zero_mod _) (by show ¬(0 : ℕ) % 8 = 7; decide))
  | n + 1, hn =>
    if h0 : (n + 1) % 8 = 0 then
      (idleOutR1, accFirstR1 V c ⟨n + 1, hn⟩ h0 (by show ¬(n + 1) % 8 = 7; omega))
    else if h7 : (n + 1) % 8 = 7 then
      (outLastR1 V c ⟨n + 1, hn⟩ h0 h7 (stateR1 c n (Nat.lt_of_succ_lt hn)).2, accLastR1 V c ⟨n + 1, hn⟩ h0 h7 (stateR1 c n (Nat.lt_of_succ_lt hn)).2)
    else
      (idleOutR1, accMidR1 V c ⟨n + 1, hn⟩ h0 h7 (stateR1 c n (Nat.lt_of_succ_lt hn)).2)

theorem stateR1_first (c : Dev nD) (t : Fin cfg1.N) (h0 : t.val % 8 = 0) (h7 : ¬t.val % 8 = 7) :
    stateR1 V c t.val t.isLt = (idleOutR1, accFirstR1 V c t h0 h7) := by
  obtain ⟨n, hn⟩ := t
  cases n with
  | zero => exact rfl
  | succ n => exact (dif_pos h0).trans rfl

theorem stateR1_mid (c : Dev nD) (t : Fin cfg1.N) (h0 : ¬t.val % 8 = 0) (h7 : ¬t.val % 8 = 7) :
    stateR1 V c t.val t.isLt = (idleOutR1, accMidR1 V c t h0 h7 (stateR1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem stateR1_last (c : Dev nD) (t : Fin cfg1.N) (h0 : ¬t.val % 8 = 0) (h7 : t.val % 8 = 7) :
    stateR1 V c t.val t.isLt = (outLastR1 V c t h0 h7 (stateR1 V c (t.val - 1) (Nat.lt_of_le_of_lt (Nat.sub_le _ _) t.isLt)).2, accLastR1 V c t h0 h7 (stateR1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-! ## The invariant -/

/-- Before position `n`: at the start the class's invariant (every scoped buffer at anything); afterwards the accumulator
    at what the point before left, the other scoped buffers at anything, the generator register at some state. -/
def PhiR1 (c : Dev nD) : (n : ℕ) → n ≤ cfg1.N → sProp 𝕄
  | 0, _ => Pipeline.ΦA spec1 c
  | n + 1, hn => iprop(iprop(owns (c : Thread nD τ) accR1 fullShare ((stateR1 V c n hn).2) ∗ othersR1 c) ∗ (∃ r, prngReg c r))

theorem PhiR1_zero (c : Dev nD) (n : ℕ) (h : n ≤ cfg1.N) (hz : n = 0) : PhiR1 V c n h = Pipeline.ΦA spec1 c := by
  subst hz; rfl
theorem PhiR1_succ (c : Dev nD) (n : ℕ) (hn : n < cfg1.N) :
    PhiR1 V c (n + 1) hn = iprop(iprop(owns (c : Thread nD τ) accR1 fullShare ((stateR1 V c n hn).2) ∗ othersR1 c) ∗ (∃ r, prngReg c r)) := rfl
theorem PhiR1_pos (c : Dev nD) (n : ℕ) (h : n ≤ cfg1.N) (hz : n ≠ 0) :
    PhiR1 V c n h = iprop(iprop(owns (c : Thread nD τ) accR1 fullShare ((stateR1 V c (n - 1) (by omega)).2) ∗ othersR1 c) ∗ (∃ r, prngReg c r)) := by
  cases n with
  | zero => exact absurd rfl hz
  | succ n => rfl

/-! ## The proof data -/

def datR1 (c : Dev nD) : Dat τ (Elt F) Unit ℕ (UR sig nD τ) ℕ cfg1 c where
  A w := V c (Pipeline.arrRef spec1 w)
  after w t := match w with
    | ⟨0, _⟩ => blkR1 V c 0 t
    | ⟨1, _⟩ => blkR1 V c 1 t
    | ⟨2, _⟩ => blkR1 V c 2 t
    | ⟨3, _⟩ => (stateR1 V c t.val t.isLt).1
  Φ t := PhiR1 V c t.val (Nat.le_of_lt_succ t.isLt)
  q _ := fullShare
  owed _ := 0

theorem datR1_A (c : Dev nD) (w : Fin cfg1.W) : (datR1 V c).A w = V c (Pipeline.arrRef spec1 w) := by
  dsimp only [datR1]
theorem PhiR1_castSucc (c : Dev nD) (t : Fin cfg1.N) :
    (datR1 V c).Φ t.castSucc = PhiR1 V c t.val (Nat.le_of_lt t.isLt) := by
  dsimp only [datR1]; simp only [Fin.coe_castSucc]
theorem afterR1_0 (c : Dev nD) (t : Fin cfg1.N) : (datR1 V c).after 0 t = blkR1 V c 0 t := by dsimp only [datR1]
theorem afterR1_1 (c : Dev nD) (t : Fin cfg1.N) : (datR1 V c).after 1 t = blkR1 V c 1 t := by dsimp only [datR1]
theorem afterR1_2 (c : Dev nD) (t : Fin cfg1.N) : (datR1 V c).after 2 t = blkR1 V c 2 t := by dsimp only [datR1]
theorem afterR1_3 (c : Dev nD) (t : Fin cfg1.N) : (datR1 V c).after 3 t = (stateR1 V c t.val t.isLt).1 := by dsimp only [datR1]
theorem beforeR1_0 (c : Dev nD) (t : Fin cfg1.N) (d) : (datR1 V c).before 0 t d = blkR1 V c 0 t :=
  inR1_0_of V (datR1 V c) (datR1_A V c 0) (afterR1_0 V c) t d
theorem beforeR1_1 (c : Dev nD) (t : Fin cfg1.N) (d) : (datR1 V c).before 1 t d = blkR1 V c 1 t :=
  inR1_1_of V (datR1 V c) (datR1_A V c 1) (afterR1_1 V c) t d
theorem beforeR1_2 (c : Dev nD) (t : Fin cfg1.N) (d) : (datR1 V c).before 2 t d = blkR1 V c 2 t :=
  inR1_2_of V (datR1 V c) (datR1_A V c 2) (afterR1_2 V c) t d

end Cert.Kernel.Hand

end
-- ==== Proof.KB.R2Base.lean ====
/-
  Layer 3 of the network (the last, plain matrix product), as the grid of 8 x 8 points runs it: the
  vocabulary the three runs of its body share.  A point (i, k) works on rows 1024 i .. of the activations,
  all 1024 rows of the padded weights and columns 512 k .. of both; the float accumulator lives in a scratch buffer
  that is cleared when k = 0, added to at every k, and read out (bias added) when k = 7.
  Here: the blocks the windows present at a point, the two conditions on k in closed form, where the output
  window is idle, and the region invariant of the class with the accumulator singled out of the scoped buffers.
-/
import proofs.«143552_j60455959658594_2_alg».proof.Proof.Gen.Kernel.Launch
import proofs.«143552_j60455959658594_2_alg».proof.Proof.Gen.Kernel.Skeleton
import proofs.«143552_j60455959658594_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

section
variable (V : (c : Dev nD) → (b : Ref sig .tc) → Buf (Elt F) ((c : Thread nD τ).loc b))

/-- The block window `w` presents at point `t`, read off the window's array as the region finds it. -/
def blkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window holds its block at every point, whether the pipeline fetched it there or kept it from the point
    before (the block index did not move then). -/
theorem inR2_0_of {c : Dev nD} (dat : Dat τ (Elt F) Unit ℕ (UR sig nD τ) ℕ cfg2 c) (hA : dat.A 0 = V c (Pipeline.arrRef spec2 0))
    (hafter : ∀ t, dat.after 0 t = blkR2 V c 0 t) (t : Fin cfg2.N) (d) : dat.before 0 t d = blkR2 V c 0 t :=
  (dat.before_in_eq_fetched 0 rfl (fun _ => rfl) (fun _ _ _ => rfl) (fun t => by rw [hafter]; unfold Dat.blockOf blkR2; rw [hA]; try rfl) t d).trans
    (by unfold Dat.fetched Dat.blockOf blkR2; rw [hA]; try rfl)
theorem inR2_1_of {c : Dev nD} (dat : Dat τ (Elt F) Unit ℕ (UR sig nD τ) ℕ cfg2 c) (hA : dat.A 1 = V c (Pipeline.arrRef spec2 1))
    (hafter : ∀ t, dat.after 1 t = blkR2 V c 1 t) (t : Fin cfg2.N) (d) : dat.before 1 t d = blkR2 V c 1 t :=
  (dat.before_in_eq_fetched 1 rfl (fun _ => rfl) (fun _ _ _ => rfl) (fun t => by rw [hafter]; unfold Dat.blockOf blkR2; rw [hA]; try rfl) t d).trans
    (by unfold Dat.fetched Dat.blockOf blkR2; rw [hA]; try rfl)
theorem inR2_2_of {c : Dev nD} (dat : Dat τ (Elt F) Unit ℕ (UR sig nD τ) ℕ cfg2 c) (hA : dat.A 2 = V c (Pipeline.arrRef spec2 2))
    (hafter : ∀ t, dat.after 2 t = blkR2 V c 2 t) (t : Fin cfg2.N) (d) : dat.before 2 t d = blkR2 V c 2 t :=
  (dat.before_in_eq_fetched 2 rfl (fun _ => rfl) (fun _ _ _ => rfl) (fun t => by rw [hafter]; unfold Dat.blockOf blkR2; rw [hA]; try rfl) t d).trans
    (by unfold Dat.fetched Dat.blockOf blkR2; rw [hA]; try rfl)
end

/-! ## The two conditions on the contraction step -/

/-- "k = 0": the accumulator is cleared. -/
abbrev firstR2 (i : grid2.Coords) : Prop := (Scalar.cmpi .ne (Scalar.extui (Scalar.cmpi .eq (BitVec.ofNat 32 (i 1).val) 0#32)) 0#32) = 1#1
theorem firstR2_iff : ∀ t : Fin cfg2.N, firstR2 (grid2.coords t) ↔ t.val % 8 = 0 :=
  (by decide +kernel : ∀ t : Fin grid2.N, firstR2 (grid2.coords t) ↔ t.val % 8 = 0)
/-- "k = 7": the result is written. -/
abbrev lastR2 (i : grid2.Coords) : Prop := k2_cond2 i = 1#1
theorem lastR2_iff : ∀ t : Fin cfg2.N, lastR2 (grid2.coords t) ↔ t.val % 8 = 7 :=
  (by decide +kernel : ∀ t : Fin grid2.N, lastR2 (grid2.coords t) ↔ t.val % 8 = 7)

/-! ## Where the windows are live -/

theorem liveR2_0 : ∀ t : Fin cfg2.N, cfg2.idle 0 (grid2.coords t) = false := by decide +kernel
theorem liveR2_1 : ∀ t : Fin cfg2.N, cfg2.idle 1 (grid2.coords t) = false := by decide +kernel
theorem liveR2_2 : ∀ t : Fin cfg2.N, cfg2.idle 2 (grid2.coords t) = false := by decide +kernel
/-- Away from k = 7 the output window is idle and not written back. -/
theorem idleR2_3 : ∀ t : Fin cfg2.N, ¬lastR2 (grid2.coords t) → cfg2.idle 3 (grid2.coords t) = true := by decide +kernel
theorem noFlushR2_3 : ∀ t : Fin cfg2.N, ¬lastR2 (grid2.coords t) → (cfg2.win 3).flush t = false := by decide +kernel
theorem liveR2_3 : ∀ t : Fin cfg2.N, lastR2 (grid2.coords t) → cfg2.idle 3 (grid2.coords t) = false := by decide +kernel

/-! ## The memrefs the body is called with -/

abbrev outViewR2 : View sig .tc .vmem S1024x1024 .f32 := (Memref.whole cc2_stg3_0 : Memref sig .tc .vmem S1024x1024 .f32).view
abbrev mR2_0 (t : Fin cfg2.N) : Memref sig .tc .vmem S1024x512 .bf16 := win2_0.stage (cfg2.slots t 0)
abbrev hR2_0 (t : Fin cfg2.N) : (mR2_0 t).IsWhole := hstage2_0 ((cfg2.slots t 0).cast nbuf2_0)
abbrev mR2_1 (t : Fin cfg2.N) : Memref sig .tc .vmem S1024x512 .bf16 := win2_1.stage (cfg2.slots t 1)
abbrev hR2_1 (t : Fin cfg2.N) : (mR2_1 t).IsWhole := hstage2_1 ((cfg2.slots t 1).cast nbuf2_1)
abbrev mR2_2 (t : Fin cfg2.N) : Memref sig .tc .vmem S1x1024 .f32 := win2_2.stage (cfg2.slots t 2)
abbrev hR2_2 (t : Fin cfg2.N) : (mR2_2 t).IsWhole := hstage2_2 ((cfg2.slots t 2).cast nbuf2_2)
abbrev mR2_3 (t : Fin cfg2.N) : Memref sig .tc .vmem S1024x1024 .f32 := win2_3.stage (cfg2.slots t 3)
abbrev hR2_3 (t : Fin cfg2.N) : (mR2_3 t).IsWhole := hstage2_3 ((cfg2.slots t 3).cast nbuf2_3)
/-- The accumulator: a whole scoped buffer of the kernel's own. -/
abbrev accR2 : Memref sig .tc .vmem S1024x1024 .f32 := Memref.whole cc2_scratch0
abbrev accViewR2 : View sig .tc .vmem S1024x1024 .f32 := accR2.view

/-- The other scoped buffers of the core (the later layers' staging buffers and accumulators), never opened here. -/
abbrev othersR2 (c : Dev nD) : sProp 𝕄 :=
  Pipeline.scopedRestBut (Ix := Unit) (Name := ℕ) (U := UR sig nD τ) (Lvl := ℕ) (Val := Elt F) spec2 c [cc2_scratch0]

/-- The class's region invariant with the accumulator singled out: the accumulator at some contents, the other scoped
    buffers, the generator register at some state. -/
theorem PhiA_R2 (c : Dev nD) :
    (Pipeline.ΦA spec2 c : sProp 𝕄)
      = iprop(iprop((∃ d, owns (c : Thread nD τ) accR2 fullShare d) ∗ othersR2 c) ∗ (∃ r, prngReg c r)) := by
  unfold Pipeline.ΦA
  rw [Pipeline.scopedRest_split_of_list spec2 c [cc2_scratch0] (by decide) (by decide)]
  simp only [bigSepL, accR2, owns_whole]; try rfl

end Cert.Kernel.Hand

end
-- ==== Proof.KB.R2RunFirst.lean ====
/-
  Layer 3, one point of the grid: the kernel body run when k = 0 (the accumulator is cleared first, then the block product added; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KB.R2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 4000000 in
noncomputable def runR2_first (c : Dev nD) (i : grid2.Coords) (a3 : Memref sig .tc .vmem S1024x512 .bf16) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hf : firstR2 i) (hl : ¬lastR2 i)
    (x0 : Vec F S1024x512 .bf16) (x1 : Vec F S1024x512 .bf16) (x2 : Vec F S1x1024 .f32) :
    { Lacc : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ (∃ d, owns (c : Thread nD τ) a7 fullShare d)
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc2__linear_kernel i a3 h3 a4 h4 a5 h5 a6 h6 a7 h7) K } := by
  refine ⟨?_, fun xo E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%d, %fa, -, HA⟩, Hk⟩
    obtain rfl := h3.eq_unread hf0; obtain rfl := h4.eq_unread hf1; obtain rfl := h5.eq_unread hf2; obtain rfl := h6.eq_unread hf3
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.Kernel.Hand

end
-- ==== Proof.KB.R2RunMid.lean ====
/-
  Layer 3, one point of the grid: the kernel body run when 0 < k < 7 (the block product is added to the accumulator; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KB.R2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 4000000 in
noncomputable def runR2_mid (c : Dev nD) (i : grid2.Coords) (a3 : Memref sig .tc .vmem S1024x512 .bf16) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hf : ¬firstR2 i) (hl : ¬lastR2 i)
    (x0 : Vec F S1024x512 .bf16) (x1 : Vec F S1024x512 .bf16) (x2 : Vec F S1x1024 .f32) (acc : Vec F S1024x1024 .f32) :
    { Lacc : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare acc
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc2__linear_kernel i a3 h3 a4 h4 a5 h5 a6 h6 a7 h7) K } := by
  refine ⟨?_, fun xo E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := h3.eq_unread hf0; obtain rfl := h4.eq_unread hf1; obtain rfl := h5.eq_unread hf2; obtain rfl := h6.eq_unread hf3; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.Kernel.Hand

end
-- ==== Proof.KB.R2RunLast.lean ====
/-
  Layer 3, one point of the grid: the kernel body run when k = 7 (the last block product is added, then the bias: the output block is written).
  The run is symbolic: the body's loads, stores and the two tests on k are stepped through on whole staging
  buffers holding the blocks; what each written buffer ends with is recorded as the list of pieces stored
  into it (last first), found while the run is made.
-/
import proofs.«143552_j60455959658594_2_alg».proof.Proof.KB.R2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 4000000 in
noncomputable def runR2_last (c : Dev nD) (i : grid2.Coords) (a3 : Memref sig .tc .vmem S1024x512 .bf16) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hf : ¬firstR2 i) (hl : lastR2 i)
    (x0 : Vec F S1024x512 .bf16) (x1 : Vec F S1024x512 .bf16) (x2 : Vec F S1x1024 .f32) (acc : Vec F S1024x1024 .f32) :
    Σ' (Lout : List (View.Piece (Elt F) S1024x1024 .f32)), { Lacc : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ owns (c : Thread nD τ) a7 fullShare acc
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f Lout) ∗ (∃ f, a7.view.loc (c : Thread nD τ) ↦[a7.view.set]{fullShare} a7.view.writes (Elt F) f Lacc)) -∗ K ⟨⟩))
          ⊢ wp frame (wpE (defs₀ (F := F)) Variants.none c none) E (cc2__linear_kernel i a3 h3 a4 h4 a5 h5 a6 h6 a7 h7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := h3.eq_unread hf0; obtain rfl := h4.eq_unread hf1; obtain rfl := h5.eq_unread hf2; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; iexact H3
    iexists _; iexact HA

end Cert.Kernel.Hand

end
-- ==== Proof.KB.R2Data.lean ====
/-
  Layer 3 over its whole grid: what the accumulator and the output window hold after every point, the region's
  proof data, and the body obligation.
  After point t the accumulator holds what the run of the point's case leaves there, computed from the point's
  blocks and (for k > 0) from what the point before left; the output window's buffer is written only when k = 7.
  The invariant carries the accumulator at exactly those contents from one point to the next.
-/
import proofs.«143552_j60455959658594_2_alg».proof.Proof.KB.R2RunFirst
import proofs.«143552_j60455959658594_2_alg».proof.Proof.KB.R2RunMid
import proofs.«143552_j60455959658594_2_alg».proof.Proof.KB.R2RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## What one point leaves, case by case -/

/-- k = 0: the accumulator after the point. -/
def accFirstR2 (c : Dev nD) (t : Fin cfg2.N) (h0 : t.val % 8 = 0) (h7 : ¬t.val % 8 = 7) : Vec F S1024x1024 .f32 :=
  accViewR2.read (Elt F) (accViewR2.writes (Elt F) accViewR2.junk (runR2_first c (grid2.coords t) (mR2_0 t) (hR2_0 t) (mR2_1 t) (hR2_1 t) (mR2_2 t) (hR2_2 t) (mR2_3 t) (hR2_3 t) accR2 (Memref.isWhole_whole _) ((firstR2_iff t).mpr h0) (fun h => h7 ((lastR2_iff t).mp h)) (blkR2 V c 0 t) (blkR2 V c 1 t) (blkR2 V c 2 t)).1)
theorem accFirstR2_cover (c : Dev nD) (t : Fin cfg2.N) (h0 : t.val % 8 = 0) (h7 : ¬t.val % 8 = 7) (y : S1024x1024.Idx) :
    ∃ pc ∈ (runR2_first c (grid2.coords t) (mR2_0 t) (hR2_0 t) (mR2_1 t) (hR2_1 t) (mR2_2 t) (hR2_2 t) (mR2_3 t) (hR2_3 t) accR2 (Memref.isWhole_whole _) ((firstR2_iff t).mpr h0) (fun h => h7 ((lastR2_iff t).mp h)) (blkR2 V c 0 t) (blkR2 V c 1 t) (blkR2 V c 2 t)).1, y ∈ pc.1.set :=
  View.cover_of_tiledL _ S1024x1024.size (by sl_kernel_rfl) y

/-- 0 < k < 7: the accumulator after the point, from what the point before left (`acc`). -/
def accMidR2 (c : Dev nD) (t : Fin cfg2.N) (h0 : ¬t.val % 8 = 0) (h7 : ¬t.val % 8 = 7) (acc : Vec F S1024x1024 .f32) : Vec F S1024x1024 .f32 :=
  accViewR2.read (Elt F) (accViewR2.writes (Elt F) accViewR2.junk (runR2_mid c (grid2.coords t) (mR2_0 t) (hR2_0 t) (mR2_1 t) (hR2_1 t) (mR2_2 t) (hR2_2 t) (mR2_3 t) (hR2_3 t) accR2 (Memref.isWhole_whole _) (fun h => h0 ((firstR2_iff t).mp h)) (fun h => h7 ((lastR2_iff t).mp h)) (blkR2 V c 0 t) (blkR2 V c 1 t) (blkR2 V c 2 t) acc).1)
theorem accMidR2_cover (c : Dev nD) (t : Fin cfg2.N) (h0 : ¬t.val % 8 = 0) (h7 : ¬t.val % 8 = 7) (acc : Vec F S1024x1024 .f32) (y : S1024x1024.Idx) :
    ∃ pc ∈ (runR2_mid c (grid2.coords t) (mR2_0 t) (hR2_0 t) (mR2_1 t) (hR2_1 t) (mR2_2 t) (hR2_2 t) (mR2_3 t) (hR2_3 t) accR2 (Memref.isWhole_whole _) (fun h => h0 ((firstR2_iff t).mp h)) (fun h => h7 ((lastR2_iff t).mp h)) (blkR2 V c 0 t) (blkR2 V c 1 t) (blkR2 V c 2 t) acc).1, y ∈ pc.1.set :=
  View.cover_of_tiledL _ S1024x1024.size (by sl_kernel_rfl) y

/-- k = 7: the accumulator and the output block after the point. -/
def accLastR2 (c : Dev nD) (t : Fin cfg2.N) (h0 : ¬t.val % 8 = 0) (h7 : t.val % 8 = 7) (acc : Vec F S1024x1024 .f32) : Vec F S1024x1024 .f32 :=
  accViewR2.read (Elt F) (accViewR2.writes (Elt F) accViewR2.junk (runR2_last c (grid2.coords t) (mR2_0 t) (hR2_0 t) (mR2_1 t) (hR2_1 t) (mR2_2 t) (hR2_2 t) (mR2_3 t) (hR2_3 t) accR2 (Memref.isWhole_whole _) (fun h => h0 ((firstR2_iff t).mp h)) ((lastR2_iff t).mpr h7) (blkR2 V c 0 t) (blkR2 V c 1 t) (blkR2 V c 2 t) acc).2.1)
theorem accLastR2_cover (c : Dev nD) (t : Fin cfg2.N) (h0 : ¬t.val % 8 = 0) (h7 : t.val % 8 = 7) (acc : Vec F S1024x1024 .f32) (y : S1024x1024.Idx) :
    ∃ pc ∈ (runR2_last c (grid2.coords t) (mR2_0 t) (hR2_0 t) (mR2_1 t) (hR2_1 t) (mR2_2 t) (hR2_2 t) (mR2_3 t) (hR2_3 t) accR2 (Memref.isWhole_whole _) (fun h => h0 ((firstR2_iff t).mp h)) ((lastR2_iff t).mpr h7) (blkR2 V c 0 t) (blkR2 V c 1 t) (blkR2 V c 2 t) acc).2.1, y ∈ pc.1.set :=
  View.cover_of_tiledL _ S1024x1024.size (by sl_kernel_rfl) y
def outLastR2 (c : Dev nD) (t : Fin cfg2.N) (h0 : ¬t.val % 8 = 0) (h7 : t.val % 8 = 7) (acc : Vec F S1024x1024 .f32) : Vec F S1024x1024 .f32 :=
  outViewR2.read (Elt F) (outViewR2.writes (Elt F) outViewR2.junk (runR2_last c (grid2.coords t) (mR2_0 t) (hR2_0 t) (mR2_1 t) (hR2_1 t) (mR2_2 t) (hR2_2 t) (mR2_3 t) (hR2_3 t) accR2 (Memref.isWhole_whole _) (fun h => h0 ((firstR2_iff t).mp h)) ((lastR2_iff t).mpr h7) (blkR2 V c 0 t) (blkR2 V c 1 t) (blkR2 V c 2 t) acc).1)
theorem outLastR2_cover (c : Dev nD) (t : Fin cfg2.N) (h0 : ¬t.val % 8 = 0) (h7 : t.val % 8 = 7) (acc : Vec F S1024x1024 .f32) (y : S1024x1024.Idx) :
    ∃ pc ∈ (runR2_last c (grid2.coords t) (mR2_0 t) (hR2_0 t) (mR2_1 t) (hR2_1 t) (mR2_2 t) (hR2_2 t) (mR2_3 t) (hR2_3 t) accR2 (Memref.isWhole_whole _) (fun h => h0 ((firstR2_iff t).mp h)) ((lastR2_iff t).mpr h7) (blkR2 V c 0 t) (blkR2 V c 1 t) (blkR2 V c 2 t) acc).1, y ∈ pc.1.set :=
  View.cover_of_tiledL _ S1024x1024.size (by sl_kernel_rfl) y

/-- What stands for the output window's buffer at a point that does not write it (never consulted: the window is
    idle there and not written back). -/
def idleOutR2 : Vec F S1024x1024 .f32 := outViewR2.read (Elt F) outViewR2.junk

/-! ## Point after point -/

/-- After position `n`: (the output window's buffer, the accumulator). -/
def stateR2 (c : Dev nD) : (n : ℕ) → n < cfg2.N → Vec F S1024x1024 .f32 × Vec F S1024x1024 .f32
  | 0, hn => (idleOutR2, accFirstR2 V c ⟨0, hn⟩ (Nat.zero_mod _) (by show ¬(0 : ℕ) % 8 = 7; decide))
  | n + 1, hn =>
    if h0 : (n + 1) % 8 = 0 then
      (idleOutR2, accFirstR2 V c ⟨n + 1, hn⟩ h0 (by show ¬(n + 1) % 8 = 7; omega))
    else if h7 : (n + 1) % 8 = 7 then
      (outLastR2 V c ⟨n + 1, hn⟩ h0 h7 (stateR2 c n (Nat.lt_of_succ_lt hn)).2, accLastR2 V c ⟨n + 1, hn⟩ h0 h7 (stateR2 c n (Nat.lt_of_succ_lt hn)).2)
    else
      (idleOutR2, accMidR2 V c ⟨n + 1, hn⟩ h0 h7 (stateR2 c n (Nat.lt_of_succ_lt hn)).2)

theorem stateR2_first (c : Dev nD) (t : Fin cfg2.N) (h0 : t.val % 8 = 0) (h7 : ¬t.val % 8 = 7) :
    stateR2 V c t.val t.isLt = (idleOutR2, accFirstR2 V c t h0 h7) := by
  obtain ⟨n, hn⟩ := t
  cases n with
  | zero => exact rfl
  | succ n => exact (dif_pos h0).trans rfl

theorem stateR2_mid (c : Dev nD) (t : Fin cfg2.N) (h0 : ¬t.val % 8 = 0) (h7 : ¬t.val % 8 = 7) :
    stateR2 V c t.val t.isLt = (idleOutR2, accMidR2 V c t h0 h7 (stateR2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem stateR2_last (c : Dev nD) (t : Fin cfg2.N) (h0 : ¬t.val % 8 = 0) (h7 : t.val % 8 = 7) :
    stateR2 V c t.val t.isLt = (outLastR2 V c t h0 h7 (stateR2 V c (t.val - 1) (Nat.lt_of_le_of_lt (Nat.sub_le _ _) t.isLt)).2, accLastR2 V c t h0 h7 (stateR2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-! ## The invariant -/

/-- Before position `n`: at the start the class's invariant (every scoped buffer at anything); afterwards the accumulator
    at what the point before left, the other scoped buffers at anything, the generator register at some state. -/
def PhiR2 (c : Dev nD) : (n : ℕ) → n ≤ cfg2.N → sProp 𝕄
  | 0, _ => Pipeline.ΦA spec2 c
  | n + 1, hn => iprop(iprop(owns (c : Thread nD τ) accR2 fullShare ((stateR2 V c n hn).2) ∗ othersR2 c) ∗ (∃ r, prngReg c r))

theorem PhiR2_zero (c : Dev nD) (n : ℕ) (h : n ≤ cfg2.N) (hz : n = 0) : PhiR2 V c n h = Pipeline.ΦA spec2 c := by
  subst hz; rfl
theorem PhiR2_succ (c : Dev nD) (n : ℕ) (hn : n < cfg2.N) :
    PhiR2 V c (n + 1) hn = iprop(iprop(owns (c : Thread nD τ) accR2 fullShare ((stateR2 V c n hn).2) ∗ othersR2 c) ∗ (∃ r, prngReg c r)) := rfl
theorem PhiR2_pos (c : Dev nD) (n : ℕ) (h : n ≤ cfg2.N) (hz : n ≠ 0) :
    PhiR2 V c n h = iprop(iprop(owns (c : Thread nD τ) accR2 fullShare ((stateR2 V c (n - 1) (by omega)).2) ∗ othersR2 c) ∗ (∃ r, prngReg c r)) := by
  cases n with
  | zero => exact absurd rfl hz
  | succ n => rfl

/-! ## The proof data -/

def datR2 (c : Dev nD) : Dat τ (Elt F) Unit ℕ (UR sig nD τ) ℕ cfg2 c where
  A w := V c (Pipeline.arrRef spec2 w)
  after w t := match w with
    | ⟨0, _⟩ => blkR2 V c 0 t
    | ⟨1, _⟩ => blkR2 V c 1 t
    | ⟨2, _⟩ => blkR2 V c 2 t
    | ⟨3, _⟩ => (stateR2 V c t.val t.isLt).1
  Φ t := PhiR2 V c t.val (Nat.le_of_lt_succ t.isLt)
  q _ := fullShare
  owed _ := 0

theorem datR2_A (c : Dev nD) (w : Fin cfg2.W) : (datR2 V c).A w = V c (Pipeline.arrRef spec2 w) := by
  dsimp only [datR2]
theorem PhiR2_castSucc (c : Dev nD) (t : Fin cfg2.N) :
    (datR2 V c).Φ t.castSucc = PhiR2 V c t.val (Nat.le_of_lt t.isLt) := by
  dsimp only [datR2]; simp only [Fin.coe_castSucc]
theorem afterR2_0 (c : Dev nD) (t : Fin cfg2.N) : (datR2 V c).after 0 t = blkR2 V c 0 t := by dsimp only [datR2]
theorem afterR2_1 (c : Dev nD) (t : Fin cfg2.N) : (datR2 V c).after 1 t = blkR2 V c 1 t := by dsimp only [datR2]
theorem afterR2_2 (c : Dev nD) (t : Fin cfg2.N) : (datR2 V c).after 2 t = blkR2 V c 2 t := by dsimp only [datR2]
theorem afterR2_3 (c : Dev nD) (t : Fin cfg2.N) : (datR2 V c).after 3 t = (stateR2 V c t.val t.isLt).1 := by dsimp only [datR2]
theorem beforeR2_0 (c : Dev nD) (t : Fin cfg2.N) (d) : (datR2 V c).before 0 t d = blkR2 V c 0 t :=
  inR2_0_of V (datR2 V c) (datR2_A V c 0) (afterR2_0 V c) t d
theorem beforeR2_1 (c : Dev nD) (t : Fin cfg2.N) (d) : (datR2 V c).before 1 t d = blkR2 V c 1 t :=
  inR2_1_of V (datR2 V c) (datR2_A V c 1) (afterR2_1 V c) t d
theorem beforeR2_2 (c : Dev nD) (t : Fin cfg2.N) (d) : (datR2 V c).before 2 t d = blkR2 V c 2 t :=
  inR2_2_of V (datR2 V c) (datR2_A V c 2) (afterR2_2 V c) t d

end Cert.Kernel.Hand

end
-- ==== Proof.KB.Vals.lean ====
/-
  The contents of every unscoped buffer between the items of the program: a stretch of host operations applies its
  operations' functions to the contents before it; a layer's region leaves its output array at what its write-backs
  folded in and every other buffer as it found it.
-/
import proofs.«143552_j60455959658594_2_alg».proof.Proof.KB.R0Data
import proofs.«143552_j60455959658594_2_alg».proof.Proof.KB.R1Data
import proofs.«143552_j60455959658594_2_alg».proof.Proof.KB.R2Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ)

/-! ## The buffer contents between items -/

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- After layer 1's region: its arrays at what the pipeline leaves (the inputs as entered, the output's write-backs
    folded in), every other buffer as entered. -/
def W2 (c : Dev nD) : Valuation τ sig (Elt F) :=
  Pipeline.withArrays spec0 c (W1 m c) fun w => (datR0 (U1 m) c).arrAt w cfg0.N
theorem W2_arr (c : Dev nD) (w : Fin cfg0.W) :
    W2 m c (Proc.devRef .tc (Pipeline.arrRef spec0 w)) = (datR0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem arrAt_R0 (c : Dev nD) (w : Fin cfg0.W) : (datR0 (U1 m) c).arrAt w cfg0.N = W2 m c (Proc.devRef .tc (Pipeline.arrRef spec0 w)) :=
  (W2_arr m c w).symm
theorem rest_R0 (c : Dev nD) : ∀ b, b ∉ Finset.univ.image (Pipeline.arrRef spec0) → W2 m c (Proc.devRef .tc b) = U1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- After layer 2's region: its arrays at what the pipeline leaves (the inputs as entered, the output's write-backs
    folded in), every other buffer as entered. -/
def W4 (c : Dev nD) : Valuation τ sig (Elt F) :=
  Pipeline.withArrays spec1 c (W3 m c) fun w => (datR1 (U3 m) c).arrAt w cfg1.N
theorem W4_arr (c : Dev nD) (w : Fin cfg1.W) :
    W4 m c (Proc.devRef .tc (Pipeline.arrRef spec1 w)) = (datR1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem arrAt_R1 (c : Dev nD) (w : Fin cfg1.W) : (datR1 (U3 m) c).arrAt w cfg1.N = W4 m c (Proc.devRef .tc (Pipeline.arrRef spec1 w)) :=
  (W4_arr m c w).symm
theorem rest_R1 (c : Dev nD) : ∀ b, b ∉ Finset.univ.image (Pipeline.arrRef spec1) → W4 m c (Proc.devRef .tc b) = U3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)
abbrev W9 : Dev nD → Valuation τ sig (Elt F) := fun c => StableHlo.after hostOps2_4 (W8 m c)
abbrev U9 : (c : Dev nD) → (b : Ref sig .tc) → Buf (Elt F) ((c : Thread nD τ).loc b) := fun c b => W9 m c b

/-- After layer 3's region: its arrays at what the pipeline leaves (the inputs as entered, the output's write-backs
    folded in), every other buffer as entered. -/
def W10 (c : Dev nD) : Valuation τ sig (Elt F) :=
  Pipeline.withArrays spec2 c (W9 m c) fun w => (datR2 (U9 m) c).arrAt w cfg2.N
theorem W10_arr (c : Dev nD) (w : Fin cfg2.W) :
    W10 m c (Proc.devRef .tc (Pipeline.arrRef spec2 w)) = (datR2 (U9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
theorem arrAt_R2 (c : Dev nD) (w : Fin cfg2.W) : (datR2 (U9 m) c).arrAt w cfg2.N = W10 m c (Proc.devRef .tc (Pipeline.arrRef spec2 w)) :=
  (W10_arr m c w).symm
theorem rest_R2 (c : Dev nD) : ∀ b, b ∉ Finset.univ.image (Pipeline.arrRef spec2) → W10 m c (Proc.devRef .tc b) = U9 m c b :=
  fun b hb => W10_of_ne m c b fun w e => hb (Finset.mem_image.mpr ⟨w, Finset.mem_univ _, e⟩)

abbrev W11 : Dev nD → Valuation τ sig (Elt F) := fun c => StableHlo.after hostOps3 (W10 m c)

end Cert.Kernel.Hand

end
-- ==== Proof.KB.R0Body.lean ====
/-
  Layer 1: the body obligation of its region.  At every point the three input windows hold their blocks; the two
  conditions on k select the case; the invariant hands the body the accumulator at what the point before left (at
  anything before the first point) and takes it back at what this point leaves.
-/
import proofs.«143552_j60455959658594_2_alg».proof.Proof.KB.R0Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

def bodyPreR0 (c : Dev nD) (t : Fin cfg0.N) : sProp 𝕄 :=
  iprop((datR0 V c).Φ t.castSucc ∗ (datR0 V c).owesAt () t.castSucc
    ∗ (∃ d, owns (c : Thread nD τ) (mR0_0 t) fullShare ((datR0 V c).before 0 t d))
    ∗ (∃ d, owns (c : Thread nD τ) (mR0_1 t) fullShare ((datR0 V c).before 1 t d))
    ∗ (∃ d, owns (c : Thread nD τ) (mR0_2 t) fullShare ((datR0 V c).before 2 t d))
    ∗ (∃ d, owns (c : Thread nD τ) (mR0_3 t) fullShare ((datR0 V c).before 3 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t
    ∗ (datR0 V c).leavesExact 3 t)

set_option maxHeartbeats 4800000 in
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2]
  rw [show (datR0 V c).owesAt () t.succ = (datR0 V c).owesAt () t.castSucc from rfl]
  rw [show (datR0 V c).Φ t.succ = PhiR0 V c (t.val + 1) t.isLt from rfl, PhiR0_succ]
  have hN : t.val < 128 := lt_of_lt_of_eq t.isLt (show cfg0.N = 128 from N_0)
  rw [show (datR0 V c).leavesExact 0 t = owns (c : Thread nD τ) (mR0_0 t) fullShare ((datR0 V c).after 0 t) from by
    unfold Dat.leavesExact; rw [liveR0_0 t], afterR0_0]
  rw [show (datR0 V c).leavesExact 1 t = owns (c : Thread nD τ) (mR0_1 t) fullShare ((datR0 V c).after 1 t) from by
    unfold Dat.leavesExact; rw [liveR0_1 t], afterR0_1]
  rw [show (datR0 V c).leavesExact 2 t = owns (c : Thread nD τ) (mR0_2 t) fullShare ((datR0 V c).after 2 t) from by
    unfold Dat.leavesExact; rw [liveR0_2 t], afterR0_2]
  by_cases h0 : t.val % 8 = 0
  · have h7 : ¬t.val % 8 = 7 := by omega
    rw [Dat.leavesExact_idle (datR0 V c) 3 t (idleR0_3 t (fun h => h7 ((lastR0_iff t).mp h))) (noFlushR0_3 t (fun h => h7 ((lastR0_iff t).mp h)))]
    rw [stateR0_first V c t h0 h7]
    unfold accFirstR0; (try dsimp only)
    by_cases hz : t.val = 0
    · rw [PhiR0_castSucc V c t, PhiR0_zero V c _ _ hz, PhiA_R0]
      iintro ⟨⟨⟨HA, Hoth⟩, Hg⟩, Ho, ⟨%d0, H0⟩, ⟨%d1, H1⟩, ⟨%d2, H2⟩, ⟨%d3, H3⟩⟩
      iapply ((runR0_first c (grid0.coords t) _ _ _ _ _ _ _ _ _ _ ((firstR0_iff t).mpr h0) (fun h => h7 ((lastR0_iff t).mp h)) (blkR0 V c 0 t) (blkR0 V c 1 t) (blkR0 V c 2 t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR0_cover V c t h0 h7)
          iexact Hoth
        iexact Hg
      isplitl [Ho]; · iexact Ho
      isplitl [H0]; · iexact H0
      isplitl [H1]; · iexact H1
      isplitl [H2]; · iexact H2
      iexists _; iexact H3
    · rw [PhiR0_castSucc V c t, PhiR0_pos V c _ _ hz]
      iintro ⟨⟨⟨HA, Hoth⟩, Hg⟩, Ho, ⟨%d0, H0⟩, ⟨%d1, H1⟩, ⟨%d2, H2⟩, ⟨%d3, H3⟩⟩
      iapply ((runR0_first c (grid0.coords t) _ _ _ _ _ _ _ _ _ _ ((firstR0_iff t).mpr h0) (fun h => h7 ((lastR0_iff t).mp h)) (blkR0 V c 0 t) (blkR0 V c 1 t) (blkR0 V c 2 t)).2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR0_cover V c t h0 h7)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (datR0 V c).leavesExact 3 t = owns (c : Thread nD τ) (mR0_3 t) fullShare ((datR0 V c).after 3 t) from by
        unfold Dat.leavesExact; rw [liveR0_3 t ((lastR0_iff t).mpr h7)], afterR0_3]
      rw [stateR0_last V c t h0 h7]
      unfold outLastR0 accLastR0; (try dsimp only)
      rw [PhiR0_castSucc V c t, PhiR0_pos V c _ _ hz]
      iintro ⟨⟨⟨HA, Hoth⟩, Hg⟩, Ho, ⟨%d0, H0⟩, ⟨%d1, H1⟩, ⟨%d2, H2⟩, ⟨%d3, H3⟩⟩
      iapply ((runR0_last c (grid0.coords t) _ _ _ _ _ _ _ _ _ _ (fun h => h0 ((firstR0_iff t).mp h)) ((lastR0_iff t).mpr h7) (blkR0 V c 0 t) (blkR0 V c 1 t) (blkR0 V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%fo, H3⟩, ⟨%fa, HA⟩⟩
      isplitl [HA Hoth Hg]
      · isplitl [HA Hoth]
        · isplitl [HA]
          · unfold owns; iexists _; isplitr
            swap; · iexact HA
            ipureintro; exact View.read_writes_of_cover _ _ _ _ _ (accLastR0_cover V c t h0 h7 _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLastR0_cover V c t h0 h7 _)
    · rw [Dat.leavesExact_idle (datR0 V c) 3 t (idleR0_3 t (fun h => h7 ((lastR0_iff t).mp h))) (noFlushR0_3 t (fun h => h7 ((lastR0_iff t).mp h)))]
      rw [stateR0_mid V c t h0 h7]
      unfold accMidR0; (try dsimp only)
      rw [PhiR0_castSucc V c t, PhiR0_pos V c _ _ hz]
      iintro ⟨⟨⟨HA, Hoth⟩, Hg⟩, Ho, ⟨%d0, H0⟩, ⟨%d1, H1⟩, ⟨%d2, H2⟩, ⟨%d3, H3⟩⟩
      iapply ((runR0_mid c (grid0.coords t) _ _ _ _ _ _ _ _ _ _ (fun h => h0 ((firstR0_iff t).mp h)) (fun h => h7 ((lastR0_iff t).mp h)) (blkR0 V c 0 t) (blkR0 V c 1 t) (blkR0 V c 2 t) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accMidR0_cover V c t h0 h7 _)
          iexact Hoth
        iexact Hg
      isplitl [Ho]; · iexact Ho
      isplitl [H0]; · iexact H0
      isplitl [H1]; · iexact H1
      isplitl [H2]; · iexact H2
      iexists _; iexact H3

theorem body_obligationR0 (c : Dev nD) : BodyObligation (datR0 (F := F) V c) (defs₀ (F := F)) Variants.none () Set.univ := fun t => by
  rw [bigSep_W0, bigSep_W0]
  exact sound_bodyR0 V c t

/-- The class's invariant is the invariant before the first point. -/
theorem PhiR0_in (c : Dev nD) : Pipeline.ΦA spec0 c ⊢ (datR0 V c).Φ 0 := by
  rw [show (datR0 V c).Φ 0 = PhiR0 V c 0 (Nat.zero_le _) from rfl, PhiR0_zero V c 0 _ rfl]
  try exact Idealize.SL.BI.Entails.refl _

/-- After the last point the invariant gives the class's back: the accumulator's contents are forgotten. -/
theorem PhiR0_out (c : Dev nD) : (datR0 V c).Φ (Fin.last cfg0.N) ⊢ Pipeline.ΦA spec0 c := by
  rw [show (datR0 V c).Φ (Fin.last cfg0.N) = PhiR0 V c (Fin.last cfg0.N).val (Nat.le_of_lt_succ (Fin.last cfg0.N).isLt) from rfl,
    PhiR0_pos V c _ _ (by rw [Fin.val_last]; have : cfg0.N = 128 := N_0; omega), PhiA_R0]
  iintro ⟨⟨HA, Hoth⟩, Hg⟩
  isplitl [HA Hoth]
  · isplitl [HA]; · iexists _; iexact HA
    iexact Hoth
  iexact Hg

end Cert.Kernel.Hand

end
-- ==== Proof.KB.R1Body.lean ====
/-
  Layer 2: the body obligation of its region.  At every point the three input windows hold their blocks; the two
  conditions on k select the case; the invariant hands the body the accumulator at what the point before left (at
  anything before the first point) and takes it back at what this point leaves.
-/
import proofs.«143552_j60455959658594_2_alg».proof.Proof.KB.R1Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

def bodyPreR1 (c : Dev nD) (t : Fin cfg1.N) : sProp 𝕄 :=
  iprop((datR1 V c).Φ t.castSucc ∗ (datR1 V c).owesAt () t.castSucc
    ∗ (∃ d, owns (c : Thread nD τ) (mR1_0 t) fullShare ((datR1 V c).before 0 t d))
    ∗ (∃ d, owns (c : Thread nD τ) (mR1_1 t) fullShare ((datR1 V c).before 1 t d))
    ∗ (∃ d, owns (c : Thread nD τ) (mR1_2 t) fullShare ((datR1 V c).before 2 t d))
    ∗ (∃ d, owns (c : Thread nD τ) (mR1_3 t) fullShare ((datR1 V c).before 3 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t)

set_option maxHeartbeats 4800000 in
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2]
  rw [show (datR1 V c).owesAt () t.succ = (datR1 V c).owesAt () t.castSucc from rfl]
  rw [show (datR1 V c).Φ t.succ = PhiR1 V c (t.val + 1) t.isLt from rfl, PhiR1_succ]
  have hN : t.val < 128 := lt_of_lt_of_eq t.isLt (show cfg1.N = 128 from N_1)
  rw [show (datR1 V c).leavesExact 0 t = owns (c : Thread nD τ) (mR1_0 t) fullShare ((datR1 V c).after 0 t) from by
    unfold Dat.leavesExact; rw [liveR1_0 t], afterR1_0]
  rw [show (datR1 V c).leavesExact 1 t = owns (c : Thread nD τ) (mR1_1 t) fullShare ((datR1 V c).after 1 t) from by
    unfold Dat.leavesExact; rw [liveR1_1 t], afterR1_1]
  rw [show (datR1 V c).leavesExact 2 t = owns (c : Thread nD τ) (mR1_2 t) fullShare ((datR1 V c).after 2 t) from by
    unfold Dat.leavesExact; rw [liveR1_2 t], afterR1_2]
  by_cases h0 : t.val % 8 = 0
  · have h7 : ¬t.val % 8 = 7 := by omega
    rw [Dat.leavesExact_idle (datR1 V c) 3 t (idleR1_3 t (fun h => h7 ((lastR1_iff t).mp h))) (noFlushR1_3 t (fun h => h7 ((lastR1_iff t).mp h)))]
    rw [stateR1_first V c t h0 h7]
    unfold accFirstR1; (try dsimp only)
    by_cases hz : t.val = 0
    · rw [PhiR1_castSucc V c t, PhiR1_zero V c _ _ hz, PhiA_R1]
      iintro ⟨⟨⟨HA, Hoth⟩, Hg⟩, Ho, ⟨%d0, H0⟩, ⟨%d1, H1⟩, ⟨%d2, H2⟩, ⟨%d3, H3⟩⟩
      iapply ((runR1_first c (grid1.coords t) _ _ _ _ _ _ _ _ _ _ ((firstR1_iff t).mpr h0) (fun h => h7 ((lastR1_iff t).mp h)) (blkR1 V c 0 t) (blkR1 V c 1 t) (blkR1 V c 2 t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR1_cover V c t h0 h7)
          iexact Hoth
        iexact Hg
      isplitl [Ho]; · iexact Ho
      isplitl [H0]; · iexact H0
      isplitl [H1]; · iexact H1
      isplitl [H2]; · iexact H2
      iexists _; iexact H3
    · rw [PhiR1_castSucc V c t, PhiR1_pos V c _ _ hz]
      iintro ⟨⟨⟨HA, Hoth⟩, Hg⟩, Ho, ⟨%d0, H0⟩, ⟨%d1, H1⟩, ⟨%d2, H2⟩, ⟨%d3, H3⟩⟩
      iapply ((runR1_first c (grid1.coords t) _ _ _ _ _ _ _ _ _ _ ((firstR1_iff t).mpr h0) (fun h => h7 ((lastR1_iff t).mp h)) (blkR1 V c 0 t) (blkR1 V c 1 t) (blkR1 V c 2 t)).2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR1_cover V c t h0 h7)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (datR1 V c).leavesExact 3 t = owns (c : Thread nD τ) (mR1_3 t) fullShare ((datR1 V c).after 3 t) from by
        unfold Dat.leavesExact; rw [liveR1_3 t ((lastR1_iff t).mpr h7)], afterR1_3]
      rw [stateR1_last V c t h0 h7]
      unfold outLastR1 accLastR1; (try dsimp only)
      rw [PhiR1_castSucc V c t, PhiR1_pos V c _ _ hz]
      iintro ⟨⟨⟨HA, Hoth⟩, Hg⟩, Ho, ⟨%d0, H0⟩, ⟨%d1, H1⟩, ⟨%d2, H2⟩, ⟨%d3, H3⟩⟩
      iapply ((runR1_last c (grid1.coords t) _ _ _ _ _ _ _ _ _ _ (fun h => h0 ((firstR1_iff t).mp h)) ((lastR1_iff t).mpr h7) (blkR1 V c 0 t) (blkR1 V c 1 t) (blkR1 V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%fo, H3⟩, ⟨%fa, HA⟩⟩
      isplitl [HA Hoth Hg]
      · isplitl [HA Hoth]
        · isplitl [HA]
          · unfold owns; iexists _; isplitr
            swap; · iexact HA
            ipureintro; exact View.read_writes_of_cover _ _ _ _ _ (accLastR1_cover V c t h0 h7 _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLastR1_cover V c t h0 h7 _)
    · rw [Dat.leavesExact_idle (datR1 V c) 3 t (idleR1_3 t (fun h => h7 ((lastR1_iff t).mp h))) (noFlushR1_3 t (fun h => h7 ((lastR1_iff t).mp h)))]
      rw [stateR1_mid V c t h0 h7]
      unfold accMidR1; (try dsimp only)
      rw [PhiR1_castSucc V c t, PhiR1_pos V c _ _ hz]
      iintro ⟨⟨⟨HA, Hoth⟩, Hg⟩, Ho, ⟨%d0, H0⟩, ⟨%d1, H1⟩, ⟨%d2, H2⟩, ⟨%d3, H3⟩⟩
      iapply ((runR1_mid c (grid1.coords t) _ _ _ _ _ _ _ _ _ _ (fun h => h0 ((firstR1_iff t).mp h)) (fun h => h7 ((lastR1_iff t).mp h)) (blkR1 V c 0 t) (blkR1 V c 1 t) (blkR1 V c 2 t) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accMidR1_cover V c t h0 h7 _)
          iexact Hoth
        iexact Hg
      isplitl [Ho]; · iexact Ho
      isplitl [H0]; · iexact H0
      isplitl [H1]; · iexact H1
      isplitl [H2]; · iexact H2
      iexists _; iexact H3

theorem body_obligationR1 (c : Dev nD) : BodyObligation (datR1 (F := F) V c) (defs₀ (F := F)) Variants.none () Set.univ := fun t => by
  rw [bigSep_W1, bigSep_W1]
  exact sound_bodyR1 V c t

/-- The class's invariant is the invariant before the first point. -/
theorem PhiR1_in (c : Dev nD) : Pipeline.ΦA spec1 c ⊢ (datR1 V c).Φ 0 := by
  rw [show (datR1 V c).Φ 0 = PhiR1 V c 0 (Nat.zero_le _) from rfl, PhiR1_zero V c 0 _ rfl]
  try exact Idealize.SL.BI.Entails.refl _

/-- After the last point the invariant gives the class's back: the accumulator's contents are forgotten. -/
theorem PhiR1_out (c : Dev nD) : (datR1 V c).Φ (Fin.last cfg1.N) ⊢ Pipeline.ΦA spec1 c := by
  rw [show (datR1 V c).Φ (Fin.last cfg1.N) = PhiR1 V c (Fin.last cfg1.N).val (Nat.le_of_lt_succ (Fin.last cfg1.N).isLt) from rfl,
    PhiR1_pos V c _ _ (by rw [Fin.val_last]; have : cfg1.N = 128 := N_1; omega), PhiA_R1]
  iintro ⟨⟨HA, Hoth⟩, Hg⟩
  isplitl [HA Hoth]
  · isplitl [HA]; · iexists _; iexact HA
    iexact Hoth
  iexact Hg

end Cert.Kernel.Hand

end
-- ==== Proof.KB.R2Body.lean ====
/-
  Layer 3: the body obligation of its region.  At every point the three input windows hold their blocks; the two
  conditions on k select the case; the invariant hands the body the accumulator at what the point before left (at
  anything before the first point) and takes it back at what this point leaves.
-/
import proofs.«143552_j60455959658594_2_alg».proof.Proof.KB.R2Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

def bodyPreR2 (c : Dev nD) (t : Fin cfg2.N) : sProp 𝕄 :=
  iprop((datR2 V c).Φ t.castSucc ∗ (datR2 V c).owesAt () t.castSucc
    ∗ (∃ d, owns (c : Thread nD τ) (mR2_0 t) fullShare ((datR2 V c).before 0 t d))
    ∗ (∃ d, owns (c : Thread nD τ) (mR2_1 t) fullShare ((datR2 V c).before 1 t d))
    ∗ (∃ d, owns (c : Thread nD τ) (mR2_2 t) fullShare ((datR2 V c).before 2 t d))
    ∗ (∃ d, owns (c : Thread nD τ) (mR2_3 t) fullShare ((datR2 V c).before 3 t d)))

def bodyPostR2 (c : Dev nD) (t : Fin cfg2.N) : sProp 𝕄 :=
  iprop((datR2 V c).Φ t.succ ∗ (datR2 V c).owesAt () t.succ
    ∗ (datR2 V c).leavesExact 0 t
    ∗ (datR2 V c).leavesExact 1 t
    ∗ (datR2 V c).leavesExact 2 t
    ∗ (datR2 V c).leavesExact 3 t)

set_option maxHeartbeats 4800000 in
theorem sound_bodyR2 (c : Dev nD) (t : Fin cfg2.N) :
    bodyPreR2 V c t ⊢ wp frame (wpE (defs₀ (F := F)) Variants.none c none) Set.univ (bodyAt2 t) (fun _ => bodyPostR2 V c t) := by
  unfold bodyPreR2 bodyPostR2 bodyAt2
  simp only [beforeR2_0, beforeR2_1, beforeR2_2]
  rw [show (datR2 V c).owesAt () t.succ = (datR2 V c).owesAt () t.castSucc from rfl]
  rw [show (datR2 V c).Φ t.succ = PhiR2 V c (t.val + 1) t.isLt from rfl, PhiR2_succ]
  have hN : t.val < 64 := lt_of_lt_of_eq t.isLt (show cfg2.N = 64 from N_2)
  rw [show (datR2 V c).leavesExact 0 t = owns (c : Thread nD τ) (mR2_0 t) fullShare ((datR2 V c).after 0 t) from by
    unfold Dat.leavesExact; rw [liveR2_0 t], afterR2_0]
  rw [show (datR2 V c).leavesExact 1 t = owns (c : Thread nD τ) (mR2_1 t) fullShare ((datR2 V c).after 1 t) from by
    unfold Dat.leavesExact; rw [liveR2_1 t], afterR2_1]
  rw [show (datR2 V c).leavesExact 2 t = owns (c : Thread nD τ) (mR2_2 t) fullShare ((datR2 V c).after 2 t) from by
    unfold Dat.leavesExact; rw [liveR2_2 t], afterR2_2]
  by_cases h0 : t.val % 8 = 0
  · have h7 : ¬t.val % 8 = 7 := by omega
    rw [Dat.leavesExact_idle (datR2 V c) 3 t (idleR2_3 t (fun h => h7 ((lastR2_iff t).mp h))) (noFlushR2_3 t (fun h => h7 ((lastR2_iff t).mp h)))]
    rw [stateR2_first V c t h0 h7]
    unfold accFirstR2; (try dsimp only)
    by_cases hz : t.val = 0
    · rw [PhiR2_castSucc V c t, PhiR2_zero V c _ _ hz, PhiA_R2]
      iintro ⟨⟨⟨HA, Hoth⟩, Hg⟩, Ho, ⟨%d0, H0⟩, ⟨%d1, H1⟩, ⟨%d2, H2⟩, ⟨%d3, H3⟩⟩
      iapply ((runR2_first c (grid2.coords t) _ _ _ _ _ _ _ _ _ _ ((firstR2_iff t).mpr h0) (fun h => h7 ((lastR2_iff t).mp h)) (blkR2 V c 0 t) (blkR2 V c 1 t) (blkR2 V c 2 t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR2_cover V c t h0 h7)
          iexact Hoth
        iexact Hg
      isplitl [Ho]; · iexact Ho
      isplitl [H0]; · iexact H0
      isplitl [H1]; · iexact H1
      isplitl [H2]; · iexact H2
      iexists _; iexact H3
    · rw [PhiR2_castSucc V c t, PhiR2_pos V c _ _ hz]
      iintro ⟨⟨⟨HA, Hoth⟩, Hg⟩, Ho, ⟨%d0, H0⟩, ⟨%d1, H1⟩, ⟨%d2, H2⟩, ⟨%d3, H3⟩⟩
      iapply ((runR2_first c (grid2.coords t) _ _ _ _ _ _ _ _ _ _ ((firstR2_iff t).mpr h0) (fun h => h7 ((lastR2_iff t).mp h)) (blkR2 V c 0 t) (blkR2 V c 1 t) (blkR2 V c 2 t)).2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR2_cover V c t h0 h7)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (datR2 V c).leavesExact 3 t = owns (c : Thread nD τ) (mR2_3 t) fullShare ((datR2 V c).after 3 t) from by
        unfold Dat.leavesExact; rw [liveR2_3 t ((lastR2_iff t).mpr h7)], afterR2_3]
      rw [stateR2_last V c t h0 h7]
      unfold outLastR2 accLastR2; (try dsimp only)
      rw [PhiR2_castSucc V c t, PhiR2_pos V c _ _ hz]
      iintro ⟨⟨⟨HA, Hoth⟩, Hg⟩, Ho, ⟨%d0, H0⟩, ⟨%d1, H1⟩, ⟨%d2, H2⟩, ⟨%d3, H3⟩⟩
      iapply ((runR2_last c (grid2.coords t) _ _ _ _ _ _ _ _ _ _ (fun h => h0 ((firstR2_iff t).mp h)) ((lastR2_iff t).mpr h7) (blkR2 V c 0 t) (blkR2 V c 1 t) (blkR2 V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%fo, H3⟩, ⟨%fa, HA⟩⟩
      isplitl [HA Hoth Hg]
      · isplitl [HA Hoth]
        · isplitl [HA]
          · unfold owns; iexists _; isplitr
            swap; · iexact HA
            ipureintro; exact View.read_writes_of_cover _ _ _ _ _ (accLastR2_cover V c t h0 h7 _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLastR2_cover V c t h0 h7 _)
    · rw [Dat.leavesExact_idle (datR2 V c) 3 t (idleR2_3 t (fun h => h7 ((lastR2_iff t).mp h))) (noFlushR2_3 t (fun h => h7 ((lastR2_iff t).mp h)))]
      rw [stateR2_mid V c t h0 h7]
      unfold accMidR2; (try dsimp only)
      rw [PhiR2_castSucc V c t, PhiR2_pos V c _ _ hz]
      iintro ⟨⟨⟨HA, Hoth⟩, Hg⟩, Ho, ⟨%d0, H0⟩, ⟨%d1, H1⟩, ⟨%d2, H2⟩, ⟨%d3, H3⟩⟩
      iapply ((runR2_mid c (grid2.coords t) _ _ _ _ _ _ _ _ _ _ (fun h => h0 ((firstR2_iff t).mp h)) (fun h => h7 ((lastR2_iff t).mp h)) (blkR2 V c 0 t) (blkR2 V c 1 t) (blkR2 V c 2 t) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accMidR2_cover V c t h0 h7 _)
          iexact Hoth
        iexact Hg
      isplitl [Ho]; · iexact Ho
      isplitl [H0]; · iexact H0
      isplitl [H1]; · iexact H1
      isplitl [H2]; · iexact H2
      iexists _; iexact H3

theorem body_obligationR2 (c : Dev nD) : BodyObligation (datR2 (F := F) V c) (defs₀ (F := F)) Variants.none () Set.univ := fun t => by
  rw [bigSep_W2, bigSep_W2]
  exact sound_bodyR2 V c t

/-- The class's invariant is the invariant before the first point. -/
theorem PhiR2_in (c : Dev nD) : Pipeline.ΦA spec2 c ⊢ (datR2 V c).Φ 0 := by
  rw [show (datR2 V c).Φ 0 = PhiR2 V c 0 (Nat.zero_le _) from rfl, PhiR2_zero V c 0 _ rfl]
  try exact Idealize.SL.BI.Entails.refl _

/-- After the last point the invariant gives the class's back: the accumulator's contents are forgotten. -/
theorem PhiR2_out (c : Dev nD) : (datR2 V c).Φ (Fin.last cfg2.N) ⊢ Pipeline.ΦA spec2 c := by
  rw [show (datR2 V c).Φ (Fin.last cfg2.N) = PhiR2 V c (Fin.last cfg2.N).val (Nat.le_of_lt_succ (Fin.last cfg2.N).isLt) from rfl,
    PhiR2_pos V c _ _ (by rw [Fin.val_last]; have : cfg2.N = 64 := N_2; omega), PhiA_R2]
  iintro ⟨⟨HA, Hoth⟩, Hg⟩
  isplitl [HA Hoth]
  · isplitl [HA]; · iexists _; iexact HA
    iexact Hoth
  iexact Hg

end Cert.Kernel.Hand

end
-- ==== Proof.KB.Chain.lean ====
/-
  The whole program from launch to return: host operations, layer 1's region, host operations, layer 2's region,
  host operations (the padding of the last layer's weights and bias), layer 3's region, the final slice.
  The contents of every unscoped buffer are followed from one item to the next: a stretch of host operations
  applies its operations' functions; a region leaves its output array at what its write-backs folded and touches
  nothing else.  The run ends with every unscoped buffer at the last of these contents.
-/
import proofs.«143552_j60455959658594_2_alg».proof.Proof.KB.Vals
import proofs.«143552_j60455959658594_2_alg».proof.Proof.KB.R0Body
import proofs.«143552_j60455959658594_2_alg».proof.Proof.KB.R1Body
import proofs.«143552_j60455959658594_2_alg».proof.Proof.KB.R2Body
import proofs.«143552_j60455959658594_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

open Idealize.ShloMosaic.Pipeline (HostSeg RegionSeg Seg)

variable (m : (ℓ : Loc nD τ sig) → Buf (Elt F) ℓ)

/-! ## The proof data of the three regions, and what rides beside the buffers -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => datR0 (U1 m) c
  | ⟨1, _⟩ => fun c => datR1 (U3 m) c
  | ⟨2, _⟩ => fun c => datR2 (U9 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Layer 1's region between the buffer contents before it and after it: its arrays are split out of the unscoped
    buffers on entry and put back, the output's at what the write-backs left, on exit; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationR0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec0 c : sProp 𝕄) from by
      unfold Pipeline.ΦA
      iintro ⟨Hp, -, Hr⟩
      isplitl [Hr]; · iexact Hr
      iexact Hp).trans (PhiR0_in (U1 m) c)
  hout c := by
    rw [Pipeline.ownSems0_none]
    exact (PhiR0_out (U1 m) c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (fun b => W2 m c b) ((pdats m 0 c).arrAt · cfg0.N) (arrAt_R0 m c) (rest_R0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region between the buffer contents before it and after it: its arrays are split out of the unscoped
    buffers on entry and put back, the output's at what the write-backs left, on exit; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationR1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (PhiR1_in (U3 m) c)
  hout c := by
    rw [Pipeline.ownSems0_none]
    exact (PhiR1_out (U3 m) c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (fun b => W4 m c b) ((pdats m 1 c).arrAt · cfg1.N) (arrAt_R1 m c) (rest_R1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's region between the buffer contents before it and after it: its arrays are split out of the unscoped
    buffers on entry and put back, the output's at what the write-backs left, on exit; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligationR2 (U9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (U9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec2 c : sProp 𝕄) from by
      unfold Pipeline.ΦA
      iintro ⟨Hp, -, Hr⟩
      isplitl [Hr]; · iexact Hr
      iexact Hp).trans (PhiR2_in (U9 m) c)
  hout c := by
    rw [Pipeline.ownSems0_none]
    exact (PhiR2_out (U9 m) c).trans (show (Pipeline.ΦA spec2 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U9 m c) (fun b => W10 m c b) ((pdats m 2 c).arrAt · cfg2.N) (arrAt_R2 m c) (rest_R2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .region (reg2 m),
    .host (hseg hostOps3 hostOps3_sub hostOps3_fresh (W10 m)) ]

theorem main_run (c : Dev nD) : main (F := F) c = Pipeline.Seg.run (segs m) := (main_chain c).trans (by chain_rfl)

abbrev Tend (c : Dev nD) : sProp 𝕄 := iprop(StableHlo.held (c : Thread nD τ) (Pipeline.ucRefs τ sig) (W11 m c) ∗ ∃ r, prngReg c r)

set_option backward.isDefEq.respectTransparency.types false in
/-- Every weakly fair execution of the program terminates, nothing faulting, with every unscoped buffer of every core
    at the last contents of the chain above. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ R c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-! ## The arguments are never written -/

/-- A buffer that no stretch of host operations writes and that is no array of any region's windows holds at the end what
    it held at launch. -/
theorem W11_kept (c : Dev nD) (r : Ref sig .tc)
    (h0 : r ∉ hostOps0_W) (h1 : r ∉ hostOps1_W) (h2 : r ∉ hostOps2_W) (h21 : r ∉ hostOps2_1_W) (h22 : r ∉ hostOps2_2_W)
    (h23 : r ∉ hostOps2_3_W) (h24 : r ∉ hostOps2_4_W) (h3 : r ∉ hostOps3_W)
    (a0 : ∀ w, Pipeline.arrRef spec0 w ≠ r) (a1 : ∀ w, Pipeline.arrRef spec1 w ≠ r) (a2 : ∀ w, Pipeline.arrRef spec2 w ≠ r) :
    W11 m c (Proc.devRef .tc r) = m ((c : Thread nD τ).loc r) :=
  calc W11 m c (Proc.devRef .tc r)
    _ = W10 m c (Proc.devRef .tc r) := StableHlo.after_of_writes_sub hostOps3 _ hostOps3_writes h3
    _ = W9 m c (Proc.devRef .tc r) := W10_of_ne m c r a2
    _ = W8 m c (Proc.devRef .tc r) := StableHlo.after_of_writes_sub hostOps2_4 _ hostOps2_4_writes h24
    _ = W7 m c (Proc.devRef .tc r) := StableHlo.after_of_writes_sub hostOps2_3 _ hostOps2_3_writes h23
    _ = W6 m c (Proc.devRef .tc r) := StableHlo.after_of_writes_sub hostOps2_2 _ hostOps2_2_writes h22
    _ = W5 m c (Proc.devRef .tc r) := StableHlo.after_of_writes_sub hostOps2_1 _ hostOps2_1_writes h21
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

theorem W11_arg0 (c : Dev nD) : W11 m c (Proc.devRef .tc main_arg0) = m ((c : Thread nD τ).loc main_arg0) :=
  W11_kept m c main_arg0 (by decide) (by decide) (by decide) (by decide) (by decide) (by decide) (by decide) (by decide) (by decide) (by decide) (by decide)
theorem W11_arg1 (c : Dev nD) : W11 m c (Proc.devRef .tc main_arg1) = m ((c : Thread nD τ).loc main_arg1) :=
  W11_kept m c main_arg1 (by decide) (by decide) (by decide) (by decide) (by decide) (by decide) (by decide) (by decide) (by decide) (by decide) (by decide)
theorem W11_arg2 (c : Dev nD) : W11 m c (Proc.devRef .tc main_arg2) = m ((c : Thread nD τ).loc main_arg2) :=
  W11_kept m c main_arg2 (by decide) (by decide) (by decide) (by decide) (by decide) (by decide) (by decide) (by decide) (by decide) (by decide) (by decide)
theorem W11_arg3 (c : Dev nD) : W11 m c (Proc.devRef .tc main_arg3) = m ((c : Thread nD τ).loc main_arg3) :=
  W11_kept m c main_arg3 (by decide) (by decide) (by decide) (by decide) (by decide) (by decide) (by decide) (by decide) (by decide) (by decide) (by decide)
theorem W11_arg4 (c : Dev nD) : W11 m c (Proc.devRef .tc main_arg4) = m ((c : Thread nD τ).loc main_arg4) :=
  W11_kept m c main_arg4 (by decide) (by decide) (by decide) (by decide) (by decide) (by decide) (by decide) (by decide) (by decide) (by decide) (by decide)
theorem W11_arg5 (c : Dev nD) : W11 m c (Proc.devRef .tc main_arg5) = m ((c : Thread nD τ).loc main_arg5) :=
  W11_kept m c main_arg5 (by decide) (by decide) (by decide) (by decide) (by decide) (by decide) (by decide) (by decide) (by decide) (by decide) (by decide)
theorem W11_arg6 (c : Dev nD) : W11 m c (Proc.devRef .tc main_arg6) = m ((c : Thread nD τ).loc main_arg6) :=
  W11_kept m c main_arg6 (by decide) (by decide) (by decide) (by decide) (by decide) (by decide) (by decide) (by decide) (by decide) (by decide) (by decide)

/-- The run, read at the seven arguments: each ends as launched. -/
theorem run_frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W11_arg0 m c), (h c _ (mem_uc main_arg1 (by decide))).trans (W11_arg1 m c),
      (h c _ (mem_uc main_arg2 (by decide))).trans (W11_arg2 m c), (h c _ (mem_uc main_arg3 (by decide))).trans (W11_arg3 m c),
      (h c _ (mem_uc main_arg4 (by decide))).trans (W11_arg4 m c), (h c _ (mem_uc main_arg5 (by decide))).trans (W11_arg5 m c),
      (h c _ (mem_uc main_arg6 (by decide))).trans (W11_arg6 m c)⟩) (run_all m ρ)

end Cert.Kernel.Hand

end
-- ==== Proof.KI.R0Base.lean ====
/-
  Layer 1 of the network (the first binarized matrix product), as the grid of 4 x 4 x 8 points runs it: the
  vocabulary the three runs of its body share.  A point (i, j, k) works on rows 2048 i .. of the activations,
  rows 1024 j .. of the weights and columns 512 k .. of both; the float accumulator lives in a scratch buffer
  that is cleared when k = 0, added to at every k, and read out (bias added, three-valued sign taken) when k = 7.
  Here: the blocks the windows present at a point, the two conditions on k in closed form, where the output
  window is idle, and the region invariant of the class with the accumulator singled out of the scoped buffers.
-/
import proofs.«143552_j60455959658594_2_alg».proof.Proof.Gen.KernelIdeal.Launch
import proofs.«143552_j60455959658594_2_alg».proof.Proof.Gen.KernelIdeal.Skeleton
import proofs.«143552_j60455959658594_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block window `w` presents at point `t`, read off the window's array as the region finds it. -/
def blkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point, whether the pipeline fetched it there or kept it from the point
    before (the block index did not move then). -/
theorem inR0_0_of {c : Dev nD} (dat : Dat τ (Elt F) Unit ℕ (UR sig nD τ) ℕ cfg0 c) (hA : dat.A 0 = V c (Pipeline.arrRef spec0 0))
    (hafter : ∀ t, dat.after 0 t = blkR0 V c 0 t) (t : Fin cfg0.N) (d) : dat.before 0 t d = blkR0 V c 0 t :=
  (dat.before_in_eq_fetched 0 rfl (fun _ => rfl) (fun _ _ _ => rfl) (fun t => by rw [hafter]; unfold Dat.blockOf blkR0; rw [hA]; try rfl) t d).trans
    (by unfold Dat.fetched Dat.blockOf blkR0; rw [hA]; try rfl)
theorem inR0_1_of {c : Dev nD} (dat : Dat τ (Elt F) Unit ℕ (UR sig nD τ) ℕ cfg0 c) (hA : dat.A 1 = V c (Pipeline.arrRef spec0 1))
    (hafter : ∀ t, dat.after 1 t = blkR0 V c 1 t) (t : Fin cfg0.N) (d) : dat.before 1 t d = blkR0 V c 1 t :=
  (dat.before_in_eq_fetched 1 rfl (fun _ => rfl) (fun _ _ _ => rfl) (fun t => by rw [hafter]; unfold Dat.blockOf blkR0; rw [hA]; try rfl) t d).trans
    (by unfold Dat.fetched Dat.blockOf blkR0; rw [hA]; try rfl)
theorem inR0_2_of {c : Dev nD} (dat : Dat τ (Elt F) Unit ℕ (UR sig nD τ) ℕ cfg0 c) (hA : dat.A 2 = V c (Pipeline.arrRef spec0 2))
    (hafter : ∀ t, dat.after 2 t = blkR0 V c 2 t) (t : Fin cfg0.N) (d) : dat.before 2 t d = blkR0 V c 2 t :=
  (dat.before_in_eq_fetched 2 rfl (fun _ => rfl) (fun _ _ _ => rfl) (fun t => by rw [hafter]; unfold Dat.blockOf blkR0; rw [hA]; try rfl) t d).trans
    (by unfold Dat.fetched Dat.blockOf blkR0; rw [hA]; try rfl)
end

/-! ## The two conditions on the contraction step -/

/-- "k = 0": the accumulator is cleared. -/
abbrev firstR0 (i : grid0.Coords) : Prop := (Scalar.cmpi .ne (Scalar.extui (Scalar.cmpi .eq (BitVec.ofNat 32 (i 2).val) 0#32)) 0#32) = 1#1
theorem firstR0_iff : ∀ t : Fin cfg0.N, firstR0 (grid0.coords t) ↔ t.val % 8 = 0 :=
  (by decide +kernel : ∀ t : Fin grid0.N, firstR0 (grid0.coords t) ↔ t.val % 8 = 0)
/-- "k = 7": the result is written. -/
abbrev lastR0 (i : grid0.Coords) : Prop := k0_cond2 i = 1#1
theorem lastR0_iff : ∀ t : Fin cfg0.N, lastR0 (grid0.coords t) ↔ t.val % 8 = 7 :=
  (by decide +kernel : ∀ t : Fin grid0.N, lastR0 (grid0.coords t) ↔ t.val % 8 = 7)

/-! ## Where the windows are live -/

theorem liveR0_0 : ∀ t : Fin cfg0.N, cfg0.idle 0 (grid0.coords t) = false := by decide +kernel
theorem liveR0_1 : ∀ t : Fin cfg0.N, cfg0.idle 1 (grid0.coords t) = false := by decide +kernel
theorem liveR0_2 : ∀ t : Fin cfg0.N, cfg0.idle 2 (grid0.coords t) = false := by decide +kernel
/-- Away from k = 7 the output window is idle and not written back. -/
theorem idleR0_3 : ∀ t : Fin cfg0.N, ¬lastR0 (grid0.coords t) → cfg0.idle 3 (grid0.coords t) = true := by decide +kernel
theorem noFlushR0_3 : ∀ t : Fin cfg0.N, ¬lastR0 (grid0.coords t) → (cfg0.win 3).flush t = false := by decide +kernel
theorem liveR0_3 : ∀ t : Fin cfg0.N, lastR0 (grid0.coords t) → cfg0.idle 3 (grid0.coords t) = false := by decide +kernel

/-! ## The memrefs the body is called with -/

abbrev outViewR0 : View sig .tc .vmem S2048x1024 .bf16 := (Memref.whole cc0_stg3_0 : Memref sig .tc .vmem S2048x1024 .bf16).view
abbrev mR0_0 (t : Fin cfg0.N) : Memref sig .tc .vmem S2048x512 .bf16 := win0_0.stage (cfg0.slots t 0)
abbrev hR0_0 (t : Fin cfg0.N) : (mR0_0 t).IsWhole := hstage0_0 ((cfg0.slots t 0).cast nbuf0_0)
abbrev mR0_1 (t : Fin cfg0.N) : Memref sig .tc .vmem S1024x512 .bf16 := win0_1.stage (cfg0.slots t 1)
abbrev hR0_1 (t : Fin cfg0.N) : (mR0_1 t).IsWhole := hstage0_1 ((cfg0.slots t 1).cast nbuf0_1)
abbrev mR0_2 (t : Fin cfg0.N) : Memref sig .tc .vmem S1x1024 .f32 := win0_2.stage (cfg0.slots t 2)
abbrev hR0_2 (t : Fin cfg0.N) : (mR0_2 t).IsWhole := hstage0_2 ((cfg0.slots t 2).cast nbuf0_2)
abbrev mR0_3 (t : Fin cfg0.N) : Memref sig .tc .vmem S2048x1024 .bf16 := win0_3.stage (cfg0.slots t 3)
abbrev hR0_3 (t : Fin cfg0.N) : (mR0_3 t).IsWhole := hstage0_3 ((cfg0.slots t 3).cast nbuf0_3)
/-- The accumulator: a whole scoped buffer of the kernel's own. -/
abbrev accR0 : Memref sig .tc .vmem S2048x1024 .f32 := Memref.whole cc0_scratch0
abbrev accViewR0 : View sig .tc .vmem S2048x1024 .f32 := accR0.view

/-- The other scoped buffers of the core (the later layers' staging buffers and accumulators), never opened here. -/
abbrev othersR0 (c : Dev nD) : sProp 𝕄 :=
  Pipeline.scopedRestBut (Ix := Unit) (Name := ℕ) (U := UR sig nD τ) (Lvl := ℕ) (Val := Elt F) spec0 c [cc0_scratch0]

/-- The class's region invariant with the accumulator singled out: the accumulator at some contents, the other scoped
    buffers, the generator register at some state. -/
theorem PhiA_R0 (c : Dev nD) :
    (Pipeline.ΦA spec0 c : sProp 𝕄)
      = iprop(iprop((∃ d, owns (c : Thread nD τ) accR0 fullShare d) ∗ othersR0 c) ∗ (∃ r, prngReg c r)) := by
  unfold Pipeline.ΦA
  rw [Pipeline.scopedRest_split_of_list spec0 c [cc0_scratch0] (by decide) (by decide)]
  simp only [bigSepL, accR0, owns_whole]; try rfl

end Cert.KernelIdeal.Hand

end
-- ==== Proof.KI.R0RunFirst.lean ====
/-
  Layer 1, one point of the grid: the kernel body run when k = 0 (the accumulator is cleared first, then the block product added; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KI.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runR0_first (c : Dev nD) (i : grid0.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : firstR0 i) (hl : ¬lastR0 i)
    (x0 : Vec F S2048x512 .bf16) (x1 : Vec F S1024x512 .bf16) (x2 : Vec F S1x1024 .f32) :
    { Lacc : List (View.Piece (Elt F) S2048x1024 .f32) //
      ∀ (xo : Vec F S2048x1024 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ (∃ d, owns (c : Thread nD τ) a7 fullShare d)
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc0__binary_layer_kernel i a3 h3 a4 h4 a5 h5 a6 h6 a7 h7) K } := by
  refine ⟨?_, fun xo E K => ?run⟩
  case run =>
    simp only [cc0__binary_layer_kernel_eq_skeleton]; unfold cc0__binary_layer_kernel_skel
    unfold owns
    iintro ⟨⟨%f0, %hf0, H0⟩, ⟨%f1, %hf1, H1⟩, ⟨%f2, %hf2, H2⟩, ⟨%f3, %hf3, H3⟩, ⟨%d, %fa, -, HA⟩, Hk⟩
    obtain rfl := h3.eq_unread hf0; obtain rfl := h4.eq_unread hf1; obtain rfl := h5.eq_unread hf2; obtain rfl := h6.eq_unread hf3
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.KernelIdeal.Hand

end
-- ==== Proof.KI.R0RunMid.lean ====
/-
  Layer 1, one point of the grid: the kernel body run when 0 < k < 7 (the block product is added to the accumulator; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KI.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runR0_mid (c : Dev nD) (i : grid0.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : ¬firstR0 i) (hl : ¬lastR0 i)
    (x0 : Vec F S2048x512 .bf16) (x1 : Vec F S1024x512 .bf16) (x2 : Vec F S1x1024 .f32) (acc : Vec F S2048x1024 .f32) :
    { Lacc : List (View.Piece (Elt F) S2048x1024 .f32) //
      ∀ (xo : Vec F S2048x1024 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare acc
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc0__binary_layer_kernel i a3 h3 a4 h4 a5 h5 a6 h6 a7 h7) K } := by
  refine ⟨?_, fun xo E K => ?run⟩
  case run =>
    simp only [cc0__binary_layer_kernel_eq_skeleton]; unfold cc0__binary_layer_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := h3.eq_unread hf0; obtain rfl := h4.eq_unread hf1; obtain rfl := h5.eq_unread hf2; obtain rfl := h6.eq_unread hf3; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.KernelIdeal.Hand

end
-- ==== Proof.KI.R0RunLast.lean ====
/-
  Layer 1, one point of the grid: the kernel body run when k = 7 (the last block product is added, then bias and sign: the output block is written).
  The run is symbolic: the body's loads, stores and the two tests on k are stepped through on whole staging
  buffers holding the blocks; what each written buffer ends with is recorded as the list of pieces stored
  into it (last first), found while the run is made.
-/
import proofs.«143552_j60455959658594_2_alg».proof.Proof.KI.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runR0_last (c : Dev nD) (i : grid0.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : ¬firstR0 i) (hl : lastR0 i)
    (x0 : Vec F S2048x512 .bf16) (x1 : Vec F S1024x512 .bf16) (x2 : Vec F S1x1024 .f32) (acc : Vec F S2048x1024 .f32) :
    Σ' (Lout : List (View.Piece (Elt F) S2048x1024 .bf16)), { Lacc : List (View.Piece (Elt F) S2048x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ owns (c : Thread nD τ) a7 fullShare acc
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f Lout) ∗ (∃ f, a7.view.loc (c : Thread nD τ) ↦[a7.view.set]{fullShare} a7.view.writes (Elt F) f Lacc)) -∗ K ⟨⟩))
          ⊢ wp frame (wpE (defs₀ (F := F)) Variants.none c none) E (cc0__binary_layer_kernel i a3 h3 a4 h4 a5 h5 a6 h6 a7 h7) K } := by
  refine ⟨?_, ?_, fun E K => ?run⟩
  case run =>
    simp only [cc0__binary_layer_kernel_eq_skeleton]; unfold cc0__binary_layer_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := h3.eq_unread hf0; obtain rfl := h4.eq_unread hf1; obtain rfl := h5.eq_unread hf2; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; iexact H3
    iexists _; iexact HA

end Cert.KernelIdeal.Hand

end
-- ==== Proof.KI.R0Data.lean ====
/-
  Layer 1 over its whole grid: what the accumulator and the output window hold after every point, the region's
  proof data, and the body obligation.
  After point t the accumulator holds what the run of the point's case leaves there, computed from the point's
  blocks and (for k > 0) from what the point before left; the output window's buffer is written only when k = 7.
  The invariant carries the accumulator at exactly those contents from one point to the next.
-/
import proofs.«143552_j60455959658594_2_alg».proof.Proof.KI.R0RunFirst
import proofs.«143552_j60455959658594_2_alg».proof.Proof.KI.R0RunMid
import proofs.«143552_j60455959658594_2_alg».proof.Proof.KI.R0RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one point leaves, case by case -/

/-- k = 0: the accumulator after the point. -/
def accFirstR0 (c : Dev nD) (t : Fin cfg0.N) (h0 : t.val % 8 = 0) (h7 : ¬t.val % 8 = 7) : Vec F S2048x1024 .f32 :=
  accViewR0.read (Elt F) (accViewR0.writes (Elt F) accViewR0.junk (runR0_first c (grid0.coords t) (mR0_0 t) (hR0_0 t) (mR0_1 t) (hR0_1 t) (mR0_2 t) (hR0_2 t) (mR0_3 t) (hR0_3 t) accR0 (Memref.isWhole_whole _) ((firstR0_iff t).mpr h0) (fun h => h7 ((lastR0_iff t).mp h)) (blkR0 V c 0 t) (blkR0 V c 1 t) (blkR0 V c 2 t)).1)
theorem accFirstR0_cover (c : Dev nD) (t : Fin cfg0.N) (h0 : t.val % 8 = 0) (h7 : ¬t.val % 8 = 7) (y : S2048x1024.Idx) :
    ∃ pc ∈ (runR0_first c (grid0.coords t) (mR0_0 t) (hR0_0 t) (mR0_1 t) (hR0_1 t) (mR0_2 t) (hR0_2 t) (mR0_3 t) (hR0_3 t) accR0 (Memref.isWhole_whole _) ((firstR0_iff t).mpr h0) (fun h => h7 ((lastR0_iff t).mp h)) (blkR0 V c 0 t) (blkR0 V c 1 t) (blkR0 V c 2 t)).1, y ∈ pc.1.set :=
  View.cover_of_tiledL _ S2048x1024.size (by sl_kernel_rfl) y

/-- 0 < k < 7: the accumulator after the point, from what the point before left (`acc`). -/
def accMidR0 (c : Dev nD) (t : Fin cfg0.N) (h0 : ¬t.val % 8 = 0) (h7 : ¬t.val % 8 = 7) (acc : Vec F S2048x1024 .f32) : Vec F S2048x1024 .f32 :=
  accViewR0.read (Elt F) (accViewR0.writes (Elt F) accViewR0.junk (runR0_mid c (grid0.coords t) (mR0_0 t) (hR0_0 t) (mR0_1 t) (hR0_1 t) (mR0_2 t) (hR0_2 t) (mR0_3 t) (hR0_3 t) accR0 (Memref.isWhole_whole _) (fun h => h0 ((firstR0_iff t).mp h)) (fun h => h7 ((lastR0_iff t).mp h)) (blkR0 V c 0 t) (blkR0 V c 1 t) (blkR0 V c 2 t) acc).1)
theorem accMidR0_cover (c : Dev nD) (t : Fin cfg0.N) (h0 : ¬t.val % 8 = 0) (h7 : ¬t.val % 8 = 7) (acc : Vec F S2048x1024 .f32) (y : S2048x1024.Idx) :
    ∃ pc ∈ (runR0_mid c (grid0.coords t) (mR0_0 t) (hR0_0 t) (mR0_1 t) (hR0_1 t) (mR0_2 t) (hR0_2 t) (mR0_3 t) (hR0_3 t) accR0 (Memref.isWhole_whole _) (fun h => h0 ((firstR0_iff t).mp h)) (fun h => h7 ((lastR0_iff t).mp h)) (blkR0 V c 0 t) (blkR0 V c 1 t) (blkR0 V c 2 t) acc).1, y ∈ pc.1.set :=
  View.cover_of_tiledL _ S2048x1024.size (by sl_kernel_rfl) y

/-- k = 7: the accumulator and the output block after the point. -/
def accLastR0 (c : Dev nD) (t : Fin cfg0.N) (h0 : ¬t.val % 8 = 0) (h7 : t.val % 8 = 7) (acc : Vec F S2048x1024 .f32) : Vec F S2048x1024 .f32 :=
  accViewR0.read (Elt F) (accViewR0.writes (Elt F) accViewR0.junk (runR0_last c (grid0.coords t) (mR0_0 t) (hR0_0 t) (mR0_1 t) (hR0_1 t) (mR0_2 t) (hR0_2 t) (mR0_3 t) (hR0_3 t) accR0 (Memref.isWhole_whole _) (fun h => h0 ((firstR0_iff t).mp h)) ((lastR0_iff t).mpr h7) (blkR0 V c 0 t) (blkR0 V c 1 t) (blkR0 V c 2 t) acc).2.1)
theorem accLastR0_cover (c : Dev nD) (t : Fin cfg0.N) (h0 : ¬t.val % 8 = 0) (h7 : t.val % 8 = 7) (acc : Vec F S2048x1024 .f32) (y : S2048x1024.Idx) :
    ∃ pc ∈ (runR0_last c (grid0.coords t) (mR0_0 t) (hR0_0 t) (mR0_1 t) (hR0_1 t) (mR0_2 t) (hR0_2 t) (mR0_3 t) (hR0_3 t) accR0 (Memref.isWhole_whole _) (fun h => h0 ((firstR0_iff t).mp h)) ((lastR0_iff t).mpr h7) (blkR0 V c 0 t) (blkR0 V c 1 t) (blkR0 V c 2 t) acc).2.1, y ∈ pc.1.set :=
  View.cover_of_tiledL _ S2048x1024.size (by sl_kernel_rfl) y
def outLastR0 (c : Dev nD) (t : Fin cfg0.N) (h0 : ¬t.val % 8 = 0) (h7 : t.val % 8 = 7) (acc : Vec F S2048x1024 .f32) : Vec F S2048x1024 .bf16 :=
  outViewR0.read (Elt F) (outViewR0.writes (Elt F) outViewR0.junk (runR0_last c (grid0.coords t) (mR0_0 t) (hR0_0 t) (mR0_1 t) (hR0_1 t) (mR0_2 t) (hR0_2 t) (mR0_3 t) (hR0_3 t) accR0 (Memref.isWhole_whole _) (fun h => h0 ((firstR0_iff t).mp h)) ((lastR0_iff t).mpr h7) (blkR0 V c 0 t) (blkR0 V c 1 t) (blkR0 V c 2 t) acc).1)
theorem outLastR0_cover (c : Dev nD) (t : Fin cfg0.N) (h0 : ¬t.val % 8 = 0) (h7 : t.val % 8 = 7) (acc : Vec F S2048x1024 .f32) (y : S2048x1024.Idx) :
    ∃ pc ∈ (runR0_last c (grid0.coords t) (mR0_0 t) (hR0_0 t) (mR0_1 t) (hR0_1 t) (mR0_2 t) (hR0_2 t) (mR0_3 t) (hR0_3 t) accR0 (Memref.isWhole_whole _) (fun h => h0 ((firstR0_iff t).mp h)) ((lastR0_iff t).mpr h7) (blkR0 V c 0 t) (blkR0 V c 1 t) (blkR0 V c 2 t) acc).1, y ∈ pc.1.set :=
  View.cover_of_tiledL _ S2048x1024.size (by sl_kernel_rfl) y

/-- What stands for the output window's buffer at a point that does not write it (never consulted: the window is
    idle there and not written back). -/
def idleOutR0 : Vec F S2048x1024 .bf16 := outViewR0.read (Elt F) outViewR0.junk

/-! ## Point after point -/

/-- After position `n`: (the output window's buffer, the accumulator). -/
def stateR0 (c : Dev nD) : (n : ℕ) → n < cfg0.N → Vec F S2048x1024 .bf16 × Vec F S2048x1024 .f32
  | 0, hn => (idleOutR0, accFirstR0 V c ⟨0, hn⟩ (Nat.zero_mod _) (by show ¬(0 : ℕ) % 8 = 7; decide))
  | n + 1, hn =>
    if h0 : (n + 1) % 8 = 0 then
      (idleOutR0, accFirstR0 V c ⟨n + 1, hn⟩ h0 (by show ¬(n + 1) % 8 = 7; omega))
    else if h7 : (n + 1) % 8 = 7 then
      (outLastR0 V c ⟨n + 1, hn⟩ h0 h7 (stateR0 c n (Nat.lt_of_succ_lt hn)).2, accLastR0 V c ⟨n + 1, hn⟩ h0 h7 (stateR0 c n (Nat.lt_of_succ_lt hn)).2)
    else
      (idleOutR0, accMidR0 V c ⟨n + 1, hn⟩ h0 h7 (stateR0 c n (Nat.lt_of_succ_lt hn)).2)

theorem stateR0_first (c : Dev nD) (t : Fin cfg0.N) (h0 : t.val % 8 = 0) (h7 : ¬t.val % 8 = 7) :
    stateR0 V c t.val t.isLt = (idleOutR0, accFirstR0 V c t h0 h7) := by
  obtain ⟨n, hn⟩ := t
  cases n with
  | zero => exact rfl
  | succ n => exact (dif_pos h0).trans rfl

theorem stateR0_mid (c : Dev nD) (t : Fin cfg0.N) (h0 : ¬t.val % 8 = 0) (h7 : ¬t.val % 8 = 7) :
    stateR0 V c t.val t.isLt = (idleOutR0, accMidR0 V c t h0 h7 (stateR0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem stateR0_last (c : Dev nD) (t : Fin cfg0.N) (h0 : ¬t.val % 8 = 0) (h7 : t.val % 8 = 7) :
    stateR0 V c t.val t.isLt = (outLastR0 V c t h0 h7 (stateR0 V c (t.val - 1) (Nat.lt_of_le_of_lt (Nat.sub_le _ _) t.isLt)).2, accLastR0 V c t h0 h7 (stateR0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-! ## The invariant -/

/-- Before position `n`: at the start the class's invariant (every scoped buffer at anything); afterwards the accumulator
    at what the point before left, the other scoped buffers at anything, the generator register at some state. -/
def PhiR0 (c : Dev nD) : (n : ℕ) → n ≤ cfg0.N → sProp 𝕄
  | 0, _ => Pipeline.ΦA spec0 c
  | n + 1, hn => iprop(iprop(owns (c : Thread nD τ) accR0 fullShare ((stateR0 V c n hn).2) ∗ othersR0 c) ∗ (∃ r, prngReg c r))

theorem PhiR0_zero (c : Dev nD) (n : ℕ) (h : n ≤ cfg0.N) (hz : n = 0) : PhiR0 V c n h = Pipeline.ΦA spec0 c := by
  subst hz; rfl
theorem PhiR0_succ (c : Dev nD) (n : ℕ) (hn : n < cfg0.N) :
    PhiR0 V c (n + 1) hn = iprop(iprop(owns (c : Thread nD τ) accR0 fullShare ((stateR0 V c n hn).2) ∗ othersR0 c) ∗ (∃ r, prngReg c r)) := rfl
theorem PhiR0_pos (c : Dev nD) (n : ℕ) (h : n ≤ cfg0.N) (hz : n ≠ 0) :
    PhiR0 V c n h = iprop(iprop(owns (c : Thread nD τ) accR0 fullShare ((stateR0 V c (n - 1) (by omega)).2) ∗ othersR0 c) ∗ (∃ r, prngReg c r)) := by
  cases n with
  | zero => exact absurd rfl hz
  | succ n => rfl

/-! ## The proof data -/

def datR0 (c : Dev nD) : Dat τ (Elt F) Unit ℕ (UR sig nD τ) ℕ cfg0 c where
  A w := V c (Pipeline.arrRef spec0 w)
  after w t := match w with
    | ⟨0, _⟩ => blkR0 V c 0 t
    | ⟨1, _⟩ => blkR0 V c 1 t
    | ⟨2, _⟩ => blkR0 V c 2 t
    | ⟨3, _⟩ => (stateR0 V c t.val t.isLt).1
  Φ t := PhiR0 V c t.val (Nat.le_of_lt_succ t.isLt)
  q _ := fullShare
  owed _ := 0

theorem datR0_A (c : Dev nD) (w : Fin cfg0.W) : (datR0 V c).A w = V c (Pipeline.arrRef spec0 w) := by
  dsimp only [datR0]
theorem PhiR0_castSucc (c : Dev nD) (t : Fin cfg0.N) :
    (datR0 V c).Φ t.castSucc = PhiR0 V c t.val (Nat.le_of_lt t.isLt) := by
  dsimp only [datR0]; simp only [Fin.coe_castSucc]
theorem afterR0_0 (c : Dev nD) (t : Fin cfg0.N) : (datR0 V c).after 0 t = blkR0 V c 0 t := by dsimp only [datR0]
theorem afterR0_1 (c : Dev nD) (t : Fin cfg0.N) : (datR0 V c).after 1 t = blkR0 V c 1 t := by dsimp only [datR0]
theorem afterR0_2 (c : Dev nD) (t : Fin cfg0.N) : (datR0 V c).after 2 t = blkR0 V c 2 t := by dsimp only [datR0]
theorem afterR0_3 (c : Dev nD) (t : Fin cfg0.N) : (datR0 V c).after 3 t = (stateR0 V c t.val t.isLt).1 := by dsimp only [datR0]
theorem beforeR0_0 (c : Dev nD) (t : Fin cfg0.N) (d) : (datR0 V c).before 0 t d = blkR0 V c 0 t :=
  inR0_0_of V (datR0 V c) (datR0_A V c 0) (afterR0_0 V c) t d
theorem beforeR0_1 (c : Dev nD) (t : Fin cfg0.N) (d) : (datR0 V c).before 1 t d = blkR0 V c 1 t :=
  inR0_1_of V (datR0 V c) (datR0_A V c 1) (afterR0_1 V c) t d
theorem beforeR0_2 (c : Dev nD) (t : Fin cfg0.N) (d) : (datR0 V c).before 2 t d = blkR0 V c 2 t :=
  inR0_2_of V (datR0 V c) (datR0_A V c 2) (afterR0_2 V c) t d

end Cert.KernelIdeal.Hand

end
-- ==== Proof.KI.R1Base.lean ====
/-
  Layer 2 of the network (the second binarized matrix product), as the grid of 4 x 4 x 8 points runs it: the
  vocabulary the three runs of its body share.  A point (i, j, k) works on rows 2048 i .. of the activations,
  rows 1024 j .. of the weights and columns 512 k .. of both; the float accumulator lives in a scratch buffer
  that is cleared when k = 0, added to at every k, and read out (bias added, three-valued sign taken) when k = 7.
  Here: the blocks the windows present at a point, the two conditions on k in closed form, where the output
  window is idle, and the region invariant of the class with the accumulator singled out of the scoped buffers.
-/
import proofs.«143552_j60455959658594_2_alg».proof.Proof.Gen.KernelIdeal.Launch
import proofs.«143552_j60455959658594_2_alg».proof.Proof.Gen.KernelIdeal.Skeleton
import proofs.«143552_j60455959658594_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block window `w` presents at point `t`, read off the window's array as the region finds it. -/
def blkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every point, whether the pipeline fetched it there or kept it from the point
    before (the block index did not move then). -/
theorem inR1_0_of {c : Dev nD} (dat : Dat τ (Elt F) Unit ℕ (UR sig nD τ) ℕ cfg1 c) (hA : dat.A 0 = V c (Pipeline.arrRef spec1 0))
    (hafter : ∀ t, dat.after 0 t = blkR1 V c 0 t) (t : Fin cfg1.N) (d) : dat.before 0 t d = blkR1 V c 0 t :=
  (dat.before_in_eq_fetched 0 rfl (fun _ => rfl) (fun _ _ _ => rfl) (fun t => by rw [hafter]; unfold Dat.blockOf blkR1; rw [hA]; try rfl) t d).trans
    (by unfold Dat.fetched Dat.blockOf blkR1; rw [hA]; try rfl)
theorem inR1_1_of {c : Dev nD} (dat : Dat τ (Elt F) Unit ℕ (UR sig nD τ) ℕ cfg1 c) (hA : dat.A 1 = V c (Pipeline.arrRef spec1 1))
    (hafter : ∀ t, dat.after 1 t = blkR1 V c 1 t) (t : Fin cfg1.N) (d) : dat.before 1 t d = blkR1 V c 1 t :=
  (dat.before_in_eq_fetched 1 rfl (fun _ => rfl) (fun _ _ _ => rfl) (fun t => by rw [hafter]; unfold Dat.blockOf blkR1; rw [hA]; try rfl) t d).trans
    (by unfold Dat.fetched Dat.blockOf blkR1; rw [hA]; try rfl)
theorem inR1_2_of {c : Dev nD} (dat : Dat τ (Elt F) Unit ℕ (UR sig nD τ) ℕ cfg1 c) (hA : dat.A 2 = V c (Pipeline.arrRef spec1 2))
    (hafter : ∀ t, dat.after 2 t = blkR1 V c 2 t) (t : Fin cfg1.N) (d) : dat.before 2 t d = blkR1 V c 2 t :=
  (dat.before_in_eq_fetched 2 rfl (fun _ => rfl) (fun _ _ _ => rfl) (fun t => by rw [hafter]; unfold Dat.blockOf blkR1; rw [hA]; try rfl) t d).trans
    (by unfold Dat.fetched Dat.blockOf blkR1; rw [hA]; try rfl)
end

/-! ## The two conditions on the contraction step -/

/-- "k = 0": the accumulator is cleared. -/
abbrev firstR1 (i : grid1.Coords) : Prop := (Scalar.cmpi .ne (Scalar.extui (Scalar.cmpi .eq (BitVec.ofNat 32 (i 2).val) 0#32)) 0#32) = 1#1
theorem firstR1_iff : ∀ t : Fin cfg1.N, firstR1 (grid1.coords t) ↔ t.val % 8 = 0 :=
  (by decide +kernel : ∀ t : Fin grid1.N, firstR1 (grid1.coords t) ↔ t.val % 8 = 0)
/-- "k = 7": the result is written. -/
abbrev lastR1 (i : grid1.Coords) : Prop := k1_cond2 i = 1#1
theorem lastR1_iff : ∀ t : Fin cfg1.N, lastR1 (grid1.coords t) ↔ t.val % 8 = 7 :=
  (by decide +kernel : ∀ t : Fin grid1.N, lastR1 (grid1.coords t) ↔ t.val % 8 = 7)

/-! ## Where the windows are live -/

theorem liveR1_0 : ∀ t : Fin cfg1.N, cfg1.idle 0 (grid1.coords t) = false := by decide +kernel
theorem liveR1_1 : ∀ t : Fin cfg1.N, cfg1.idle 1 (grid1.coords t) = false := by decide +kernel
theorem liveR1_2 : ∀ t : Fin cfg1.N, cfg1.idle 2 (grid1.coords t) = false := by decide +kernel
/-- Away from k = 7 the output window is idle and not written back. -/
theorem idleR1_3 : ∀ t : Fin cfg1.N, ¬lastR1 (grid1.coords t) → cfg1.idle 3 (grid1.coords t) = true := by decide +kernel
theorem noFlushR1_3 : ∀ t : Fin cfg1.N, ¬lastR1 (grid1.coords t) → (cfg1.win 3).flush t = false := by decide +kernel
theorem liveR1_3 : ∀ t : Fin cfg1.N, lastR1 (grid1.coords t) → cfg1.idle 3 (grid1.coords t) = false := by decide +kernel

/-! ## The memrefs the body is called with -/

abbrev outViewR1 : View sig .tc .vmem S2048x1024 .bf16 := (Memref.whole cc1_stg3_0 : Memref sig .tc .vmem S2048x1024 .bf16).view
abbrev mR1_0 (t : Fin cfg1.N) : Memref sig .tc .vmem S2048x512 .bf16 := win1_0.stage (cfg1.slots t 0)
abbrev hR1_0 (t : Fin cfg1.N) : (mR1_0 t).IsWhole := hstage1_0 ((cfg1.slots t 0).cast nbuf1_0)
abbrev mR1_1 (t : Fin cfg1.N) : Memref sig .tc .vmem S1024x512 .bf16 := win1_1.stage (cfg1.slots t 1)
abbrev hR1_1 (t : Fin cfg1.N) : (mR1_1 t).IsWhole := hstage1_1 ((cfg1.slots t 1).cast nbuf1_1)
abbrev mR1_2 (t : Fin cfg1.N) : Memref sig .tc .vmem S1x1024 .f32 := win1_2.stage (cfg1.slots t 2)
abbrev hR1_2 (t : Fin cfg1.N) : (mR1_2 t).IsWhole := hstage1_2 ((cfg1.slots t 2).cast nbuf1_2)
abbrev mR1_3 (t : Fin cfg1.N) : Memref sig .tc .vmem S2048x1024 .bf16 := win1_3.stage (cfg1.slots t 3)
abbrev hR1_3 (t : Fin cfg1.N) : (mR1_3 t).IsWhole := hstage1_3 ((cfg1.slots t 3).cast nbuf1_3)
/-- The accumulator: a whole scoped buffer of the kernel's own. -/
abbrev accR1 : Memref sig .tc .vmem S2048x1024 .f32 := Memref.whole cc1_scratch0
abbrev accViewR1 : View sig .tc .vmem S2048x1024 .f32 := accR1.view

/-- The other scoped buffers of the core (the later layers' staging buffers and accumulators), never opened here. -/
abbrev othersR1 (c : Dev nD) : sProp 𝕄 :=
  Pipeline.scopedRestBut (Ix := Unit) (Name := ℕ) (U := UR sig nD τ) (Lvl := ℕ) (Val := Elt F) spec1 c [cc1_scratch0]

/-- The class's region invariant with the accumulator singled out: the accumulator at some contents, the other scoped
    buffers, the generator register at some state. -/
theorem PhiA_R1 (c : Dev nD) :
    (Pipeline.ΦA spec1 c : sProp 𝕄)
      = iprop(iprop((∃ d, owns (c : Thread nD τ) accR1 fullShare d) ∗ othersR1 c) ∗ (∃ r, prngReg c r)) := by
  unfold Pipeline.ΦA
  rw [Pipeline.scopedRest_split_of_list spec1 c [cc1_scratch0] (by decide) (by decide)]
  simp only [bigSepL, accR1, owns_whole]; try rfl

end Cert.KernelIdeal.Hand

end
-- ==== Proof.KI.R1RunFirst.lean ====
/-
  Layer 2, one point of the grid: the kernel body run when k = 0 (the accumulator is cleared first, then the block product added; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runR1_first (c : Dev nD) (i : grid1.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : firstR1 i) (hl : ¬lastR1 i)
    (x0 : Vec F S2048x512 .bf16) (x1 : Vec F S1024x512 .bf16) (x2 : Vec F S1x1024 .f32) :
    { Lacc : List (View.Piece (Elt F) S2048x1024 .f32) //
      ∀ (xo : Vec F S2048x1024 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ (∃ d, owns (c : Thread nD τ) a7 fullShare d)
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc1__binary_layer_kernel i a3 h3 a4 h4 a5 h5 a6 h6 a7 h7) K } := by
  refine ⟨?_, fun xo E K => ?run⟩
  case run =>
    simp only [cc1__binary_layer_kernel_eq_skeleton]; unfold cc1__binary_layer_kernel_skel
    unfold owns
    iintro ⟨⟨%f0, %hf0, H0⟩, ⟨%f1, %hf1, H1⟩, ⟨%f2, %hf2, H2⟩, ⟨%f3, %hf3, H3⟩, ⟨%d, %fa, -, HA⟩, Hk⟩
    obtain rfl := h3.eq_unread hf0; obtain rfl := h4.eq_unread hf1; obtain rfl := h5.eq_unread hf2; obtain rfl := h6.eq_unread hf3
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.KernelIdeal.Hand

end
-- ==== Proof.KI.R1RunMid.lean ====
/-
  Layer 2, one point of the grid: the kernel body run when 0 < k < 7 (the block product is added to the accumulator; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runR1_mid (c : Dev nD) (i : grid1.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : ¬firstR1 i) (hl : ¬lastR1 i)
    (x0 : Vec F S2048x512 .bf16) (x1 : Vec F S1024x512 .bf16) (x2 : Vec F S1x1024 .f32) (acc : Vec F S2048x1024 .f32) :
    { Lacc : List (View.Piece (Elt F) S2048x1024 .f32) //
      ∀ (xo : Vec F S2048x1024 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare acc
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc1__binary_layer_kernel i a3 h3 a4 h4 a5 h5 a6 h6 a7 h7) K } := by
  refine ⟨?_, fun xo E K => ?run⟩
  case run =>
    simp only [cc1__binary_layer_kernel_eq_skeleton]; unfold cc1__binary_layer_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := h3.eq_unread hf0; obtain rfl := h4.eq_unread hf1; obtain rfl := h5.eq_unread hf2; obtain rfl := h6.eq_unread hf3; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.KernelIdeal.Hand

end
-- ==== Proof.KI.R1RunLast.lean ====
/-
  Layer 2, one point of the grid: the kernel body run when k = 7 (the last block product is added, then bias and sign: the output block is written).
  The run is symbolic: the body's loads, stores and the two tests on k are stepped through on whole staging
  buffers holding the blocks; what each written buffer ends with is recorded as the list of pieces stored
  into it (last first), found while the run is made.
-/
import proofs.«143552_j60455959658594_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runR1_last (c : Dev nD) (i : grid1.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .bf16) (h6 : a6.IsWhole) (a7 : Memref sig .tc .vmem S2048x1024 .f32) (h7 : a7.IsWhole) (hf : ¬firstR1 i) (hl : lastR1 i)
    (x0 : Vec F S2048x512 .bf16) (x1 : Vec F S1024x512 .bf16) (x2 : Vec F S1x1024 .f32) (acc : Vec F S2048x1024 .f32) :
    Σ' (Lout : List (View.Piece (Elt F) S2048x1024 .bf16)), { Lacc : List (View.Piece (Elt F) S2048x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ owns (c : Thread nD τ) a7 fullShare acc
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f Lout) ∗ (∃ f, a7.view.loc (c : Thread nD τ) ↦[a7.view.set]{fullShare} a7.view.writes (Elt F) f Lacc)) -∗ K ⟨⟩))
          ⊢ wp frame (wpE (defs₀ (F := F)) Variants.none c none) E (cc1__binary_layer_kernel i a3 h3 a4 h4 a5 h5 a6 h6 a7 h7) K } := by
  refine ⟨?_, ?_, fun E K => ?run⟩
  case run =>
    simp only [cc1__binary_layer_kernel_eq_skeleton]; unfold cc1__binary_layer_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := h3.eq_unread hf0; obtain rfl := h4.eq_unread hf1; obtain rfl := h5.eq_unread hf2; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; iexact H3
    iexists _; iexact HA

end Cert.KernelIdeal.Hand

end
-- ==== Proof.KI.R1Data.lean ====
/-
  Layer 2 over its whole grid: what the accumulator and the output window hold after every point, the region's
  proof data, and the body obligation.
  After point t the accumulator holds what the run of the point's case leaves there, computed from the point's
  blocks and (for k > 0) from what the point before left; the output window's buffer is written only when k = 7.
  The invariant carries the accumulator at exactly those contents from one point to the next.
-/
import proofs.«143552_j60455959658594_2_alg».proof.Proof.KI.R1RunFirst
import proofs.«143552_j60455959658594_2_alg».proof.Proof.KI.R1RunMid
import proofs.«143552_j60455959658594_2_alg».proof.Proof.KI.R1RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one point leaves, case by case -/

/-- k = 0: the accumulator after the point. -/
def accFirstR1 (c : Dev nD) (t : Fin cfg1.N) (h0 : t.val % 8 = 0) (h7 : ¬t.val % 8 = 7) : Vec F S2048x1024 .f32 :=
  accViewR1.read (Elt F) (accViewR1.writes (Elt F) accViewR1.junk (runR1_first c (grid1.coords t) (mR1_0 t) (hR1_0 t) (mR1_1 t) (hR1_1 t) (mR1_2 t) (hR1_2 t) (mR1_3 t) (hR1_3 t) accR1 (Memref.isWhole_whole _) ((firstR1_iff t).mpr h0) (fun h => h7 ((lastR1_iff t).mp h)) (blkR1 V c 0 t) (blkR1 V c 1 t) (blkR1 V c 2 t)).1)
theorem accFirstR1_cover (c : Dev nD) (t : Fin cfg1.N) (h0 : t.val % 8 = 0) (h7 : ¬t.val % 8 = 7) (y : S2048x1024.Idx) :
    ∃ pc ∈ (runR1_first c (grid1.coords t) (mR1_0 t) (hR1_0 t) (mR1_1 t) (hR1_1 t) (mR1_2 t) (hR1_2 t) (mR1_3 t) (hR1_3 t) accR1 (Memref.isWhole_whole _) ((firstR1_iff t).mpr h0) (fun h => h7 ((lastR1_iff t).mp h)) (blkR1 V c 0 t) (blkR1 V c 1 t) (blkR1 V c 2 t)).1, y ∈ pc.1.set :=
  View.cover_of_tiledL _ S2048x1024.size (by sl_kernel_rfl) y

/-- 0 < k < 7: the accumulator after the point, from what the point before left (`acc`). -/
def accMidR1 (c : Dev nD) (t : Fin cfg1.N) (h0 : ¬t.val % 8 = 0) (h7 : ¬t.val % 8 = 7) (acc : Vec F S2048x1024 .f32) : Vec F S2048x1024 .f32 :=
  accViewR1.read (Elt F) (accViewR1.writes (Elt F) accViewR1.junk (runR1_mid c (grid1.coords t) (mR1_0 t) (hR1_0 t) (mR1_1 t) (hR1_1 t) (mR1_2 t) (hR1_2 t) (mR1_3 t) (hR1_3 t) accR1 (Memref.isWhole_whole _) (fun h => h0 ((firstR1_iff t).mp h)) (fun h => h7 ((lastR1_iff t).mp h)) (blkR1 V c 0 t) (blkR1 V c 1 t) (blkR1 V c 2 t) acc).1)
theorem accMidR1_cover (c : Dev nD) (t : Fin cfg1.N) (h0 : ¬t.val % 8 = 0) (h7 : ¬t.val % 8 = 7) (acc : Vec F S2048x1024 .f32) (y : S2048x1024.Idx) :
    ∃ pc ∈ (runR1_mid c (grid1.coords t) (mR1_0 t) (hR1_0 t) (mR1_1 t) (hR1_1 t) (mR1_2 t) (hR1_2 t) (mR1_3 t) (hR1_3 t) accR1 (Memref.isWhole_whole _) (fun h => h0 ((firstR1_iff t).mp h)) (fun h => h7 ((lastR1_iff t).mp h)) (blkR1 V c 0 t) (blkR1 V c 1 t) (blkR1 V c 2 t) acc).1, y ∈ pc.1.set :=
  View.cover_of_tiledL _ S2048x1024.size (by sl_kernel_rfl) y

/-- k = 7: the accumulator and the output block after the point. -/
def accLastR1 (c : Dev nD) (t : Fin cfg1.N) (h0 : ¬t.val % 8 = 0) (h7 : t.val % 8 = 7) (acc : Vec F S2048x1024 .f32) : Vec F S2048x1024 .f32 :=
  accViewR1.read (Elt F) (accViewR1.writes (Elt F) accViewR1.junk (runR1_last c (grid1.coords t) (mR1_0 t) (hR1_0 t) (mR1_1 t) (hR1_1 t) (mR1_2 t) (hR1_2 t) (mR1_3 t) (hR1_3 t) accR1 (Memref.isWhole_whole _) (fun h => h0 ((firstR1_iff t).mp h)) ((lastR1_iff t).mpr h7) (blkR1 V c 0 t) (blkR1 V c 1 t) (blkR1 V c 2 t) acc).2.1)
theorem accLastR1_cover (c : Dev nD) (t : Fin cfg1.N) (h0 : ¬t.val % 8 = 0) (h7 : t.val % 8 = 7) (acc : Vec F S2048x1024 .f32) (y : S2048x1024.Idx) :
    ∃ pc ∈ (runR1_last c (grid1.coords t) (mR1_0 t) (hR1_0 t) (mR1_1 t) (hR1_1 t) (mR1_2 t) (hR1_2 t) (mR1_3 t) (hR1_3 t) accR1 (Memref.isWhole_whole _) (fun h => h0 ((firstR1_iff t).mp h)) ((lastR1_iff t).mpr h7) (blkR1 V c 0 t) (blkR1 V c 1 t) (blkR1 V c 2 t) acc).2.1, y ∈ pc.1.set :=
  View.cover_of_tiledL _ S2048x1024.size (by sl_kernel_rfl) y
def outLastR1 (c : Dev nD) (t : Fin cfg1.N) (h0 : ¬t.val % 8 = 0) (h7 : t.val % 8 = 7) (acc : Vec F S2048x1024 .f32) : Vec F S2048x1024 .bf16 :=
  outViewR1.read (Elt F) (outViewR1.writes (Elt F) outViewR1.junk (runR1_last c (grid1.coords t) (mR1_0 t) (hR1_0 t) (mR1_1 t) (hR1_1 t) (mR1_2 t) (hR1_2 t) (mR1_3 t) (hR1_3 t) accR1 (Memref.isWhole_whole _) (fun h => h0 ((firstR1_iff t).mp h)) ((lastR1_iff t).mpr h7) (blkR1 V c 0 t) (blkR1 V c 1 t) (blkR1 V c 2 t) acc).1)
theorem outLastR1_cover (c : Dev nD) (t : Fin cfg1.N) (h0 : ¬t.val % 8 = 0) (h7 : t.val % 8 = 7) (acc : Vec F S2048x1024 .f32) (y : S2048x1024.Idx) :
    ∃ pc ∈ (runR1_last c (grid1.coords t) (mR1_0 t) (hR1_0 t) (mR1_1 t) (hR1_1 t) (mR1_2 t) (hR1_2 t) (mR1_3 t) (hR1_3 t) accR1 (Memref.isWhole_whole _) (fun h => h0 ((firstR1_iff t).mp h)) ((lastR1_iff t).mpr h7) (blkR1 V c 0 t) (blkR1 V c 1 t) (blkR1 V c 2 t) acc).1, y ∈ pc.1.set :=
  View.cover_of_tiledL _ S2048x1024.size (by sl_kernel_rfl) y

/-- What stands for the output window's buffer at a point that does not write it (never consulted: the window is
    idle there and not written back). -/
def idleOutR1 : Vec F S2048x1024 .bf16 := outViewR1.read (Elt F) outViewR1.junk

/-! ## Point after point -/

/-- After position `n`: (the output window's buffer, the accumulator). -/
def stateR1 (c : Dev nD) : (n : ℕ) → n < cfg1.N → Vec F S2048x1024 .bf16 × Vec F S2048x1024 .f32
  | 0, hn => (idleOutR1, accFirstR1 V c ⟨0, hn⟩ (Nat.zero_mod _) (by show ¬(0 : ℕ) % 8 = 7; decide))
  | n + 1, hn =>
    if h0 : (n + 1) % 8 = 0 then
      (idleOutR1, accFirstR1 V c ⟨n + 1, hn⟩ h0 (by show ¬(n + 1) % 8 = 7; omega))
    else if h7 : (n + 1) % 8 = 7 then
      (outLastR1 V c ⟨n + 1, hn⟩ h0 h7 (stateR1 c n (Nat.lt_of_succ_lt hn)).2, accLastR1 V c ⟨n + 1, hn⟩ h0 h7 (stateR1 c n (Nat.lt_of_succ_lt hn)).2)
    else
      (idleOutR1, accMidR1 V c ⟨n + 1, hn⟩ h0 h7 (stateR1 c n (Nat.lt_of_succ_lt hn)).2)

theorem stateR1_first (c : Dev nD) (t : Fin cfg1.N) (h0 : t.val % 8 = 0) (h7 : ¬t.val % 8 = 7) :
    stateR1 V c t.val t.isLt = (idleOutR1, accFirstR1 V c t h0 h7) := by
  obtain ⟨n, hn⟩ := t
  cases n with
  | zero => exact rfl
  | succ n => exact (dif_pos h0).trans rfl

theorem stateR1_mid (c : Dev nD) (t : Fin cfg1.N) (h0 : ¬t.val % 8 = 0) (h7 : ¬t.val % 8 = 7) :
    stateR1 V c t.val t.isLt = (idleOutR1, accMidR1 V c t h0 h7 (stateR1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem stateR1_last (c : Dev nD) (t : Fin cfg1.N) (h0 : ¬t.val % 8 = 0) (h7 : t.val % 8 = 7) :
    stateR1 V c t.val t.isLt = (outLastR1 V c t h0 h7 (stateR1 V c (t.val - 1) (Nat.lt_of_le_of_lt (Nat.sub_le _ _) t.isLt)).2, accLastR1 V c t h0 h7 (stateR1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-! ## The invariant -/

/-- Before position `n`: at the start the class's invariant (every scoped buffer at anything); afterwards the accumulator
    at what the point before left, the other scoped buffers at anything, the generator register at some state. -/
def PhiR1 (c : Dev nD) : (n : ℕ) → n ≤ cfg1.N → sProp 𝕄
  | 0, _ => Pipeline.ΦA spec1 c
  | n + 1, hn => iprop(iprop(owns (c : Thread nD τ) accR1 fullShare ((stateR1 V c n hn).2) ∗ othersR1 c) ∗ (∃ r, prngReg c r))

theorem PhiR1_zero (c : Dev nD) (n : ℕ) (h : n ≤ cfg1.N) (hz : n = 0) : PhiR1 V c n h = Pipeline.ΦA spec1 c := by
  subst hz; rfl
theorem PhiR1_succ (c : Dev nD) (n : ℕ) (hn : n < cfg1.N) :
    PhiR1 V c (n + 1) hn = iprop(iprop(owns (c : Thread nD τ) accR1 fullShare ((stateR1 V c n hn).2) ∗ othersR1 c) ∗ (∃ r, prngReg c r)) := rfl
theorem PhiR1_pos (c : Dev nD) (n : ℕ) (h : n ≤ cfg1.N) (hz : n ≠ 0) :
    PhiR1 V c n h = iprop(iprop(owns (c : Thread nD τ) accR1 fullShare ((stateR1 V c (n - 1) (by omega)).2) ∗ othersR1 c) ∗ (∃ r, prngReg c r)) := by
  cases n with
  | zero => exact absurd rfl hz
  | succ n => rfl

/-! ## The proof data -/

def datR1 (c : Dev nD) : Dat τ (Elt F) Unit ℕ (UR sig nD τ) ℕ cfg1 c where
  A w := V c (Pipeline.arrRef spec1 w)
  after w t := match w with
    | ⟨0, _⟩ => blkR1 V c 0 t
    | ⟨1, _⟩ => blkR1 V c 1 t
    | ⟨2, _⟩ => blkR1 V c 2 t
    | ⟨3, _⟩ => (stateR1 V c t.val t.isLt).1
  Φ t := PhiR1 V c t.val (Nat.le_of_lt_succ t.isLt)
  q _ := fullShare
  owed _ := 0

theorem datR1_A (c : Dev nD) (w : Fin cfg1.W) : (datR1 V c).A w = V c (Pipeline.arrRef spec1 w) := by
  dsimp only [datR1]
theorem PhiR1_castSucc (c : Dev nD) (t : Fin cfg1.N) :
    (datR1 V c).Φ t.castSucc = PhiR1 V c t.val (Nat.le_of_lt t.isLt) := by
  dsimp only [datR1]; simp only [Fin.coe_castSucc]
theorem afterR1_0 (c : Dev nD) (t : Fin cfg1.N) : (datR1 V c).after 0 t = blkR1 V c 0 t := by dsimp only [datR1]
theorem afterR1_1 (c : Dev nD) (t : Fin cfg1.N) : (datR1 V c).after 1 t = blkR1 V c 1 t := by dsimp only [datR1]
theorem afterR1_2 (c : Dev nD) (t : Fin cfg1.N) : (datR1 V c).after 2 t = blkR1 V c 2 t := by dsimp only [datR1]
theorem afterR1_3 (c : Dev nD) (t : Fin cfg1.N) : (datR1 V c).after 3 t = (stateR1 V c t.val t.isLt).1 := by dsimp only [datR1]
theorem beforeR1_0 (c : Dev nD) (t : Fin cfg1.N) (d) : (datR1 V c).before 0 t d = blkR1 V c 0 t :=
  inR1_0_of V (datR1 V c) (datR1_A V c 0) (afterR1_0 V c) t d
theorem beforeR1_1 (c : Dev nD) (t : Fin cfg1.N) (d) : (datR1 V c).before 1 t d = blkR1 V c 1 t :=
  inR1_1_of V (datR1 V c) (datR1_A V c 1) (afterR1_1 V c) t d
theorem beforeR1_2 (c : Dev nD) (t : Fin cfg1.N) (d) : (datR1 V c).before 2 t d = blkR1 V c 2 t :=
  inR1_2_of V (datR1 V c) (datR1_A V c 2) (afterR1_2 V c) t d

end Cert.KernelIdeal.Hand

end
-- ==== Proof.KI.R2Base.lean ====
/-
  Layer 3 of the network (the last, plain matrix product), as the grid of 8 x 8 points runs it: the
  vocabulary the three runs of its body share.  A point (i, k) works on rows 1024 i .. of the activations,
  all 1024 rows of the padded weights and columns 512 k .. of both; the float accumulator lives in a scratch buffer
  that is cleared when k = 0, added to at every k, and read out (bias added) when k = 7.
  Here: the blocks the windows present at a point, the two conditions on k in closed form, where the output
  window is idle, and the region invariant of the class with the accumulator singled out of the scoped buffers.
-/
import proofs.«143552_j60455959658594_2_alg».proof.Proof.Gen.KernelIdeal.Launch
import proofs.«143552_j60455959658594_2_alg».proof.Proof.Gen.KernelIdeal.Skeleton
import proofs.«143552_j60455959658594_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block window `w` presents at point `t`, read off the window's array as the region finds it. -/
def blkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window holds its block at every point, whether the pipeline fetched it there or kept it from the point
    before (the block index did not move then). -/
theorem inR2_0_of {c : Dev nD} (dat : Dat τ (Elt F) Unit ℕ (UR sig nD τ) ℕ cfg2 c) (hA : dat.A 0 = V c (Pipeline.arrRef spec2 0))
    (hafter : ∀ t, dat.after 0 t = blkR2 V c 0 t) (t : Fin cfg2.N) (d) : dat.before 0 t d = blkR2 V c 0 t :=
  (dat.before_in_eq_fetched 0 rfl (fun _ => rfl) (fun _ _ _ => rfl) (fun t => by rw [hafter]; unfold Dat.blockOf blkR2; rw [hA]; try rfl) t d).trans
    (by unfold Dat.fetched Dat.blockOf blkR2; rw [hA]; try rfl)
theorem inR2_1_of {c : Dev nD} (dat : Dat τ (Elt F) Unit ℕ (UR sig nD τ) ℕ cfg2 c) (hA : dat.A 1 = V c (Pipeline.arrRef spec2 1))
    (hafter : ∀ t, dat.after 1 t = blkR2 V c 1 t) (t : Fin cfg2.N) (d) : dat.before 1 t d = blkR2 V c 1 t :=
  (dat.before_in_eq_fetched 1 rfl (fun _ => rfl) (fun _ _ _ => rfl) (fun t => by rw [hafter]; unfold Dat.blockOf blkR2; rw [hA]; try rfl) t d).trans
    (by unfold Dat.fetched Dat.blockOf blkR2; rw [hA]; try rfl)
theorem inR2_2_of {c : Dev nD} (dat : Dat τ (Elt F) Unit ℕ (UR sig nD τ) ℕ cfg2 c) (hA : dat.A 2 = V c (Pipeline.arrRef spec2 2))
    (hafter : ∀ t, dat.after 2 t = blkR2 V c 2 t) (t : Fin cfg2.N) (d) : dat.before 2 t d = blkR2 V c 2 t :=
  (dat.before_in_eq_fetched 2 rfl (fun _ => rfl) (fun _ _ _ => rfl) (fun t => by rw [hafter]; unfold Dat.blockOf blkR2; rw [hA]; try rfl) t d).trans
    (by unfold Dat.fetched Dat.blockOf blkR2; rw [hA]; try rfl)
end

/-! ## The two conditions on the contraction step -/

/-- "k = 0": the accumulator is cleared. -/
abbrev firstR2 (i : grid2.Coords) : Prop := (Scalar.cmpi .ne (Scalar.extui (Scalar.cmpi .eq (BitVec.ofNat 32 (i 1).val) 0#32)) 0#32) = 1#1
theorem firstR2_iff : ∀ t : Fin cfg2.N, firstR2 (grid2.coords t) ↔ t.val % 8 = 0 :=
  (by decide +kernel : ∀ t : Fin grid2.N, firstR2 (grid2.coords t) ↔ t.val % 8 = 0)
/-- "k = 7": the result is written. -/
abbrev lastR2 (i : grid2.Coords) : Prop := k2_cond2 i = 1#1
theorem lastR2_iff : ∀ t : Fin cfg2.N, lastR2 (grid2.coords t) ↔ t.val % 8 = 7 :=
  (by decide +kernel : ∀ t : Fin grid2.N, lastR2 (grid2.coords t) ↔ t.val % 8 = 7)

/-! ## Where the windows are live -/

theorem liveR2_0 : ∀ t : Fin cfg2.N, cfg2.idle 0 (grid2.coords t) = false := by decide +kernel
theorem liveR2_1 : ∀ t : Fin cfg2.N, cfg2.idle 1 (grid2.coords t) = false := by decide +kernel
theorem liveR2_2 : ∀ t : Fin cfg2.N, cfg2.idle 2 (grid2.coords t) = false := by decide +kernel
/-- Away from k = 7 the output window is idle and not written back. -/
theorem idleR2_3 : ∀ t : Fin cfg2.N, ¬lastR2 (grid2.coords t) → cfg2.idle 3 (grid2.coords t) = true := by decide +kernel
theorem noFlushR2_3 : ∀ t : Fin cfg2.N, ¬lastR2 (grid2.coords t) → (cfg2.win 3).flush t = false := by decide +kernel
theorem liveR2_3 : ∀ t : Fin cfg2.N, lastR2 (grid2.coords t) → cfg2.idle 3 (grid2.coords t) = false := by decide +kernel

/-! ## The memrefs the body is called with -/

abbrev outViewR2 : View sig .tc .vmem S1024x1024 .f32 := (Memref.whole cc2_stg3_0 : Memref sig .tc .vmem S1024x1024 .f32).view
abbrev mR2_0 (t : Fin cfg2.N) : Memref sig .tc .vmem S1024x512 .bf16 := win2_0.stage (cfg2.slots t 0)
abbrev hR2_0 (t : Fin cfg2.N) : (mR2_0 t).IsWhole := hstage2_0 ((cfg2.slots t 0).cast nbuf2_0)
abbrev mR2_1 (t : Fin cfg2.N) : Memref sig .tc .vmem S1024x512 .bf16 := win2_1.stage (cfg2.slots t 1)
abbrev hR2_1 (t : Fin cfg2.N) : (mR2_1 t).IsWhole := hstage2_1 ((cfg2.slots t 1).cast nbuf2_1)
abbrev mR2_2 (t : Fin cfg2.N) : Memref sig .tc .vmem S1x1024 .f32 := win2_2.stage (cfg2.slots t 2)
abbrev hR2_2 (t : Fin cfg2.N) : (mR2_2 t).IsWhole := hstage2_2 ((cfg2.slots t 2).cast nbuf2_2)
abbrev mR2_3 (t : Fin cfg2.N) : Memref sig .tc .vmem S1024x1024 .f32 := win2_3.stage (cfg2.slots t 3)
abbrev hR2_3 (t : Fin cfg2.N) : (mR2_3 t).IsWhole := hstage2_3 ((cfg2.slots t 3).cast nbuf2_3)
/-- The accumulator: a whole scoped buffer of the kernel's own. -/
abbrev accR2 : Memref sig .tc .vmem S1024x1024 .f32 := Memref.whole cc2_scratch0
abbrev accViewR2 : View sig .tc .vmem S1024x1024 .f32 := accR2.view

/-- The other scoped buffers of the core (the later layers' staging buffers and accumulators), never opened here. -/
abbrev othersR2 (c : Dev nD) : sProp 𝕄 :=
  Pipeline.scopedRestBut (Ix := Unit) (Name := ℕ) (U := UR sig nD τ) (Lvl := ℕ) (Val := Elt F) spec2 c [cc2_scratch0]

/-- The class's region invariant with the accumulator singled out: the accumulator at some contents, the other scoped
    buffers, the generator register at some state. -/
theorem PhiA_R2 (c : Dev nD) :
    (Pipeline.ΦA spec2 c : sProp 𝕄)
      = iprop(iprop((∃ d, owns (c : Thread nD τ) accR2 fullShare d) ∗ othersR2 c) ∗ (∃ r, prngReg c r)) := by
  unfold Pipeline.ΦA
  rw [Pipeline.scopedRest_split_of_list spec2 c [cc2_scratch0] (by decide) (by decide)]
  simp only [bigSepL, accR2, owns_whole]; try rfl

end Cert.KernelIdeal.Hand

end
-- ==== Proof.KI.R2RunFirst.lean ====
/-
  Layer 3, one point of the grid: the kernel body run when k = 0 (the accumulator is cleared first, then the block product added; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KI.R2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runR2_first (c : Dev nD) (i : grid2.Coords) (a3 : Memref sig .tc .vmem S1024x512 .bf16) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hf : firstR2 i) (hl : ¬lastR2 i)
    (x0 : Vec F S1024x512 .bf16) (x1 : Vec F S1024x512 .bf16) (x2 : Vec F S1x1024 .f32) :
    { Lacc : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ (∃ d, owns (c : Thread nD τ) a7 fullShare d)
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc2__linear_kernel i a3 h3 a4 h4 a5 h5 a6 h6 a7 h7) K } := by
  refine ⟨?_, fun xo E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%d, %fa, -, HA⟩, Hk⟩
    obtain rfl := h3.eq_unread hf0; obtain rfl := h4.eq_unread hf1; obtain rfl := h5.eq_unread hf2; obtain rfl := h6.eq_unread hf3
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.KernelIdeal.Hand

end
-- ==== Proof.KI.R2RunMid.lean ====
/-
  Layer 3, one point of the grid: the kernel body run when 0 < k < 7 (the block product is added to the accumulator; nothing is written out).
  The run is symbolic: the body's loads, stores and the two tests on k are stepped through on whole staging
  buffers holding the blocks; what each written buffer ends with is recorded as the list of pieces stored
  into it (last first), found while the run is made.
-/
import proofs.«143552_j60455959658594_2_alg».proof.Proof.KI.R2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runR2_mid (c : Dev nD) (i : grid2.Coords) (a3 : Memref sig .tc .vmem S1024x512 .bf16) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hf : ¬firstR2 i) (hl : ¬lastR2 i)
    (x0 : Vec F S1024x512 .bf16) (x1 : Vec F S1024x512 .bf16) (x2 : Vec F S1x1024 .f32) (acc : Vec F S1024x1024 .f32) :
    { Lacc : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare acc
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f Lacc)) -∗ K ⟨⟩))
          ⊢ wp frame (wpE (defs₀ (F := F)) Variants.none c none) E (cc2__linear_kernel i a3 h3 a4 h4 a5 h5 a6 h6 a7 h7) K } := by
  refine ⟨?_, fun xo E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := h3.eq_unread hf0; obtain rfl := h4.eq_unread hf1; obtain rfl := h5.eq_unread hf2; obtain rfl := h6.eq_unread hf3; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.KernelIdeal.Hand

end
-- ==== Proof.KI.R2RunLast.lean ====
/-
  Layer 3, one point of the grid: the kernel body run when k = 7 (the last block product is added, then the bias: the output block is written).
  The run is symbolic: the body's loads, stores and the two tests on k are stepped through on whole staging
  buffers holding the blocks; what each written buffer ends with is recorded as the list of pieces stored
  into it (last first), found while the run is made.
-/
import proofs.«143552_j60455959658594_2_alg».proof.Proof.KI.R2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runR2_last (c : Dev nD) (i : grid2.Coords) (a3 : Memref sig .tc .vmem S1024x512 .bf16) (h3 : a3.IsWhole) (a4 : Memref sig .tc .vmem S1024x512 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hf : ¬firstR2 i) (hl : lastR2 i)
    (x0 : Vec F S1024x512 .bf16) (x1 : Vec F S1024x512 .bf16) (x2 : Vec F S1x1024 .f32) (acc : Vec F S1024x1024 .f32) :
    Σ' (Lout : List (View.Piece (Elt F) S1024x1024 .f32)), { Lacc : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ owns (c : Thread nD τ) a7 fullShare acc
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f Lout) ∗ (∃ f, a7.view.loc (c : Thread nD τ) ↦[a7.view.set]{fullShare} a7.view.writes (Elt F) f Lacc)) -∗ K ⟨⟩))
          ⊢ wp frame (wpE (defs₀ (F := F)) Variants.none c none) E (cc2__linear_kernel i a3 h3 a4 h4 a5 h5 a6 h6 a7 h7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := h3.eq_unread hf0; obtain rfl := h4.eq_unread hf1; obtain rfl := h5.eq_unread hf2; obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; iexact H3
    iexists _; iexact HA

end Cert.KernelIdeal.Hand

end
-- ==== Proof.KI.R2Data.lean ====
/-
  Layer 3 over its whole grid: what the accumulator and the output window hold after every point, the region's
  proof data, and the body obligation.
  After point t the accumulator holds what the run of the point's case leaves there, computed from the point's
  blocks and (for k > 0) from what the point before left; the output window's buffer is written only when k = 7.
  The invariant carries the accumulator at exactly those contents from one point to the next.
-/
import proofs.«143552_j60455959658594_2_alg».proof.Proof.KI.R2RunFirst
import proofs.«143552_j60455959658594_2_alg».proof.Proof.KI.R2RunMid
import proofs.«143552_j60455959658594_2_alg».proof.Proof.KI.R2RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one point leaves, case by case -/

/-- k = 0: the accumulator after the point. -/
def accFirstR2 (c : Dev nD) (t : Fin cfg2.N) (h0 : t.val % 8 = 0) (h7 : ¬t.val % 8 = 7) : Vec F S1024x1024 .f32 :=
  accViewR2.read (Elt F) (accViewR2.writes (Elt F) accViewR2.junk (runR2_first c (grid2.coords t) (mR2_0 t) (hR2_0 t) (mR2_1 t) (hR2_1 t) (mR2_2 t) (hR2_2 t) (mR2_3 t) (hR2_3 t) accR2 (Memref.isWhole_whole _) ((firstR2_iff t).mpr h0) (fun h => h7 ((lastR2_iff t).mp h)) (blkR2 V c 0 t) (blkR2 V c 1 t) (blkR2 V c 2 t)).1)
theorem accFirstR2_cover (c : Dev nD) (t : Fin cfg2.N) (h0 : t.val % 8 = 0) (h7 : ¬t.val % 8 = 7) (y : S1024x1024.Idx) :
    ∃ pc ∈ (runR2_first c (grid2.coords t) (mR2_0 t) (hR2_0 t) (mR2_1 t) (hR2_1 t) (mR2_2 t) (hR2_2 t) (mR2_3 t) (hR2_3 t) accR2 (Memref.isWhole_whole _) ((firstR2_iff t).mpr h0) (fun h => h7 ((lastR2_iff t).mp h)) (blkR2 V c 0 t) (blkR2 V c 1 t) (blkR2 V c 2 t)).1, y ∈ pc.1.set :=
  View.cover_of_tiledL _ S1024x1024.size (by sl_kernel_rfl) y

/-- 0 < k < 7: the accumulator after the point, from what the point before left (`acc`). -/
def accMidR2 (c : Dev nD) (t : Fin cfg2.N) (h0 : ¬t.val % 8 = 0) (h7 : ¬t.val % 8 = 7) (acc : Vec F S1024x1024 .f32) : Vec F S1024x1024 .f32 :=
  accViewR2.read (Elt F) (accViewR2.writes (Elt F) accViewR2.junk (runR2_mid c (grid2.coords t) (mR2_0 t) (hR2_0 t) (mR2_1 t) (hR2_1 t) (mR2_2 t) (hR2_2 t) (mR2_3 t) (hR2_3 t) accR2 (Memref.isWhole_whole _) (fun h => h0 ((firstR2_iff t).mp h)) (fun h => h7 ((lastR2_iff t).mp h)) (blkR2 V c 0 t) (blkR2 V c 1 t) (blkR2 V c 2 t) acc).1)
theorem accMidR2_cover (c : Dev nD) (t : Fin cfg2.N) (h0 : ¬t.val % 8 = 0) (h7 : ¬t.val % 8 = 7) (acc : Vec F S1024x1024 .f32) (y : S1024x1024.Idx) :
    ∃ pc ∈ (runR2_mid c (grid2.coords t) (mR2_0 t) (hR2_0 t) (mR2_1 t) (hR2_1 t) (mR2_2 t) (hR2_2 t) (mR2_3 t) (hR2_3 t) accR2 (Memref.isWhole_whole _) (fun h => h0 ((firstR2_iff t).mp h)) (fun h => h7 ((lastR2_iff t).mp h)) (blkR2 V c 0 t) (blkR2 V c 1 t) (blkR2 V c 2 t) acc).1, y ∈ pc.1.set :=
  View.cover_of_tiledL _ S1024x1024.size (by sl_kernel_rfl) y

/-- k = 7: the accumulator and the output block after the point. -/
def accLastR2 (c : Dev nD) (t : Fin cfg2.N) (h0 : ¬t.val % 8 = 0) (h7 : t.val % 8 = 7) (acc : Vec F S1024x1024 .f32) : Vec F S1024x1024 .f32 :=
  accViewR2.read (Elt F) (accViewR2.writes (Elt F) accViewR2.junk (runR2_last c (grid2.coords t) (mR2_0 t) (hR2_0 t) (mR2_1 t) (hR2_1 t) (mR2_2 t) (hR2_2 t) (mR2_3 t) (hR2_3 t) accR2 (Memref.isWhole_whole _) (fun h => h0 ((firstR2_iff t).mp h)) ((lastR2_iff t).mpr h7) (blkR2 V c 0 t) (blkR2 V c 1 t) (blkR2 V c 2 t) acc).2.1)
theorem accLastR2_cover (c : Dev nD) (t : Fin cfg2.N) (h0 : ¬t.val % 8 = 0) (h7 : t.val % 8 = 7) (acc : Vec F S1024x1024 .f32) (y : S1024x1024.Idx) :
    ∃ pc ∈ (runR2_last c (grid2.coords t) (mR2_0 t) (hR2_0 t) (mR2_1 t) (hR2_1 t) (mR2_2 t) (hR2_2 t) (mR2_3 t) (hR2_3 t) accR2 (Memref.isWhole_whole _) (fun h => h0 ((firstR2_iff t).mp h)) ((lastR2_iff t).mpr h7) (blkR2 V c 0 t) (blkR2 V c 1 t) (blkR2 V c 2 t) acc).2.1, y ∈ pc.1.set :=
  View.cover_of_tiledL _ S1024x1024.size (by sl_kernel_rfl) y
def outLastR2 (c : Dev nD) (t : Fin cfg2.N) (h0 : ¬t.val % 8 = 0) (h7 : t.val % 8 = 7) (acc : Vec F S1024x1024 .f32) : Vec F S1024x1024 .f32 :=
  outViewR2.read (Elt F) (outViewR2.writes (Elt F) outViewR2.junk (runR2_last c (grid2.coords t) (mR2_0 t) (hR2_0 t) (mR2_1 t) (hR2_1 t) (mR2_2 t) (hR2_2 t) (mR2_3 t) (hR2_3 t) accR2 (Memref.isWhole_whole _) (fun h => h0 ((firstR2_iff t).mp h)) ((lastR2_iff t).mpr h7) (blkR2 V c 0 t) (blkR2 V c 1 t) (blkR2 V c 2 t) acc).1)
theorem outLastR2_cover (c : Dev nD) (t : Fin cfg2.N) (h0 : ¬t.val % 8 = 0) (h7 : t.val % 8 = 7) (acc : Vec F S1024x1024 .f32) (y : S1024x1024.Idx) :
    ∃ pc ∈ (runR2_last c (grid2.coords t) (mR2_0 t) (hR2_0 t) (mR2_1 t) (hR2_1 t) (mR2_2 t) (hR2_2 t) (mR2_3 t) (hR2_3 t) accR2 (Memref.isWhole_whole _) (fun h => h0 ((firstR2_iff t).mp h)) ((lastR2_iff t).mpr h7) (blkR2 V c 0 t) (blkR2 V c 1 t) (blkR2 V c 2 t) acc).1, y ∈ pc.1.set :=
  View.cover_of_tiledL _ S1024x1024.size (by sl_kernel_rfl) y

/-- What stands for the output window's buffer at a point that does not write it (never consulted: the window is
    idle there and not written back). -/
def idleOutR2 : Vec F S1024x1024 .f32 := outViewR2.read (Elt F) outViewR2.junk

/-! ## Point after point -/

/-- After position `n`: (the output window's buffer, the accumulator). -/
def stateR2 (c : Dev nD) : (n : ℕ) → n < cfg2.N → Vec F S1024x1024 .f32 × Vec F S1024x1024 .f32
  | 0, hn => (idleOutR2, accFirstR2 V c ⟨0, hn⟩ (Nat.zero_mod _) (by show ¬(0 : ℕ) % 8 = 7; decide))
  | n + 1, hn =>
    if h0 : (n + 1) % 8 = 0 then
      (idleOutR2, accFirstR2 V c ⟨n + 1, hn⟩ h0 (by show ¬(n + 1) % 8 = 7; omega))
    else if h7 : (n + 1) % 8 = 7 then
      (outLastR2 V c ⟨n + 1, hn⟩ h0 h7 (stateR2 c n (Nat.lt_of_succ_lt hn)).2, accLastR2 V c ⟨n + 1, hn⟩ h0 h7 (stateR2 c n (Nat.lt_of_succ_lt hn)).2)
    else
      (idleOutR2, accMidR2 V c ⟨n + 1, hn⟩ h0 h7 (stateR2 c n (Nat.lt_of_succ_lt hn)).2)

theorem stateR2_first (c : Dev nD) (t : Fin cfg2.N) (h0 : t.val % 8 = 0) (h7 : ¬t.val % 8 = 7) :
    stateR2 V c t.val t.isLt = (idleOutR2, accFirstR2 V c t h0 h7) := by
  obtain ⟨n, hn⟩ := t
  cases n with
  | zero => exact rfl
  | succ n => exact (dif_pos h0).trans rfl

theorem stateR2_mid (c : Dev nD) (t : Fin cfg2.N) (h0 : ¬t.val % 8 = 0) (h7 : ¬t.val % 8 = 7) :
    stateR2 V c t.val t.isLt = (idleOutR2, accMidR2 V c t h0 h7 (stateR2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem stateR2_last (c : Dev nD) (t : Fin cfg2.N) (h0 : ¬t.val % 8 = 0) (h7 : t.val % 8 = 7) :
    stateR2 V c t.val t.isLt = (outLastR2 V c t h0 h7 (stateR2 V c (t.val - 1) (Nat.lt_of_le_of_lt (Nat.sub_le _ _) t.isLt)).2, accLastR2 V c t h0 h7 (stateR2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-! ## The invariant -/

/-- Before position `n`: at the start the class's invariant (every scoped buffer at anything); afterwards the accumulator
    at what the point before left, the other scoped buffers at anything, the generator register at some state. -/
def PhiR2 (c : Dev nD) : (n : ℕ) → n ≤ cfg2.N → sProp 𝕄
  | 0, _ => Pipeline.ΦA spec2 c
  | n + 1, hn => iprop(iprop(owns (c : Thread nD τ) accR2 fullShare ((stateR2 V c n hn).2) ∗ othersR2 c) ∗ (∃ r, prngReg c r))

theorem PhiR2_zero (c : Dev nD) (n : ℕ) (h : n ≤ cfg2.N) (hz : n = 0) : PhiR2 V c n h = Pipeline.ΦA spec2 c := by
  subst hz; rfl
theorem PhiR2_succ (c : Dev nD) (n : ℕ) (hn : n < cfg2.N) :
    PhiR2 V c (n + 1) hn = iprop(iprop(owns (c : Thread nD τ) accR2 fullShare ((stateR2 V c n hn).2) ∗ othersR2 c) ∗ (∃ r, prngReg c r)) := rfl
theorem PhiR2_pos (c : Dev nD) (n : ℕ) (h : n ≤ cfg2.N) (hz : n ≠ 0) :
    PhiR2 V c n h = iprop(iprop(owns (c : Thread nD τ) accR2 fullShare ((stateR2 V c (n - 1) (by omega)).2) ∗ othersR2 c) ∗ (∃ r, prngReg c r)) := by
  cases n with
  | zero => exact absurd rfl hz
  | succ n => rfl

/-! ## The proof data -/

def datR2 (c : Dev nD) : Dat τ (Elt F) Unit ℕ (UR sig nD τ) ℕ cfg2 c where
  A w := V c (Pipeline.arrRef spec2 w)
  after w t := match w with
    | ⟨0, _⟩ => blkR2 V c 0 t
    | ⟨1, _⟩ => blkR2 V c 1 t
    | ⟨2, _⟩ => blkR2 V c 2 t
    | ⟨3, _⟩ => (stateR2 V c t.val t.isLt).1
  Φ t := PhiR2 V c t.val (Nat.le_of_lt_succ t.isLt)
  q _ := fullShare
  owed _ := 0

theorem datR2_A (c : Dev nD) (w : Fin cfg2.W) : (datR2 V c).A w = V c (Pipeline.arrRef spec2 w) := by
  dsimp only [datR2]
theorem PhiR2_castSucc (c : Dev nD) (t : Fin cfg2.N) :
    (datR2 V c).Φ t.castSucc = PhiR2 V c t.val (Nat.le_of_lt t.isLt) := by
  dsimp only [datR2]; simp only [Fin.coe_castSucc]
theorem afterR2_0 (c : Dev nD) (t : Fin cfg2.N) : (datR2 V c).after 0 t = blkR2 V c 0 t := by dsimp only [datR2]
theorem afterR2_1 (c : Dev nD) (t : Fin cfg2.N) : (datR2 V c).after 1 t = blkR2 V c 1 t := by dsimp only [datR2]
theorem afterR2_2 (c : Dev nD) (t : Fin cfg2.N) : (datR2 V c).after 2 t = blkR2 V c 2 t := by dsimp only [datR2]
theorem afterR2_3 (c : Dev nD) (t : Fin cfg2.N) : (datR2 V c).after 3 t = (stateR2 V c t.val t.isLt).1 := by dsimp only [datR2]
theorem beforeR2_0 (c : Dev nD) (t : Fin cfg2.N) (d) : (datR2 V c).before 0 t d = blkR2 V c 0 t :=
  inR2_0_of V (datR2 V c) (datR2_A V c 0) (afterR2_0 V c) t d
theorem beforeR2_1 (c : Dev nD) (t : Fin cfg2.N) (d) : (datR2 V c).before 1 t d = blkR2 V c 1 t :=
  inR2_1_of V (datR2 V c) (datR2_A V c 1) (afterR2_1 V c) t d
theorem beforeR2_2 (c : Dev nD) (t : Fin cfg2.N) (d) : (datR2 V c).before 2 t d = blkR2 V c 2 t :=
  inR2_2_of V (datR2 V c) (datR2_A V c 2) (afterR2_2 V c) t d

end Cert.KernelIdeal.Hand

end
-- ==== Proof.KI.Vals.lean ====
/-
  The contents of every unscoped buffer between the items of the program: a stretch of host operations applies its
  operations' functions to the contents before it; a layer's region leaves its output array at what its write-backs
  folded in and every other buffer as it found it.
-/
import proofs.«143552_j60455959658594_2_alg».proof.Proof.KI.R0Data
import proofs.«143552_j60455959658594_2_alg».proof.Proof.KI.R1Data
import proofs.«143552_j60455959658594_2_alg».proof.Proof.KI.R2Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents between items -/

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- After layer 1's region: its arrays at what the pipeline leaves (the inputs as entered, the output's write-backs
    folded in), every other buffer as entered. -/
def W2 (c : Dev nD) : Valuation τ sig (Elt F) :=
  Pipeline.withArrays spec0 c (W1 m c) fun w => (datR0 (U1 m) c).arrAt w cfg0.N
theorem W2_arr (c : Dev nD) (w : Fin cfg0.W) :
    W2 m c (Proc.devRef .tc (Pipeline.arrRef spec0 w)) = (datR0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem arrAt_R0 (c : Dev nD) (w : Fin cfg0.W) : (datR0 (U1 m) c).arrAt w cfg0.N = W2 m c (Proc.devRef .tc (Pipeline.arrRef spec0 w)) :=
  (W2_arr m c w).symm
theorem rest_R0 (c : Dev nD) : ∀ b, b ∉ Finset.univ.image (Pipeline.arrRef spec0) → W2 m c (Proc.devRef .tc b) = U1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- After layer 2's region: its arrays at what the pipeline leaves (the inputs as entered, the output's write-backs
    folded in), every other buffer as entered. -/
def W4 (c : Dev nD) : Valuation τ sig (Elt F) :=
  Pipeline.withArrays spec1 c (W3 m c) fun w => (datR1 (U3 m) c).arrAt w cfg1.N
theorem W4_arr (c : Dev nD) (w : Fin cfg1.W) :
    W4 m c (Proc.devRef .tc (Pipeline.arrRef spec1 w)) = (datR1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem arrAt_R1 (c : Dev nD) (w : Fin cfg1.W) : (datR1 (U3 m) c).arrAt w cfg1.N = W4 m c (Proc.devRef .tc (Pipeline.arrRef spec1 w)) :=
  (W4_arr m c w).symm
theorem rest_R1 (c : Dev nD) : ∀ b, b ∉ Finset.univ.image (Pipeline.arrRef spec1) → W4 m c (Proc.devRef .tc b) = U3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)
abbrev W9 : Dev nD → Valuation τ sig (Elt F) := fun c => StableHlo.after hostOps2_4 (W8 m c)
abbrev U9 : (c : Dev nD) → (b : Ref sig .tc) → Buf (Elt F) ((c : Thread nD τ).loc b) := fun c b => W9 m c b

/-- After layer 3's region: its arrays at what the pipeline leaves (the inputs as entered, the output's write-backs
    folded in), every other buffer as entered. -/
def W10 (c : Dev nD) : Valuation τ sig (Elt F) :=
  Pipeline.withArrays spec2 c (W9 m c) fun w => (datR2 (U9 m) c).arrAt w cfg2.N
theorem W10_arr (c : Dev nD) (w : Fin cfg2.W) :
    W10 m c (Proc.devRef .tc (Pipeline.arrRef spec2 w)) = (datR2 (U9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
theorem arrAt_R2 (c : Dev nD) (w : Fin cfg2.W) : (datR2 (U9 m) c).arrAt w cfg2.N = W10 m c (Proc.devRef .tc (Pipeline.arrRef spec2 w)) :=
  (W10_arr m c w).symm
theorem rest_R2 (c : Dev nD) : ∀ b, b ∉ Finset.univ.image (Pipeline.arrRef spec2) → W10 m c (Proc.devRef .tc b) = U9 m c b :=
  fun b hb => W10_of_ne m c b fun w e => hb (Finset.mem_image.mpr ⟨w, Finset.mem_univ _, e⟩)

abbrev W11 : Dev nD → Valuation τ sig (Elt F) := fun c => StableHlo.after hostOps3 (W10 m c)

end Cert.KernelIdeal.Hand

end
-- ==== Proof.KI.R0Body.lean ====
/-
  Layer 1: the body obligation of its region.  At every point the three input windows hold their blocks; the two
  conditions on k select the case; the invariant hands the body the accumulator at what the point before left (at
  anything before the first point) and takes it back at what this point leaves.
-/
import proofs.«143552_j60455959658594_2_alg».proof.Proof.KI.R0Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPreR0 (c : Dev nD) (t : Fin cfg0.N) : sProp 𝕄 :=
  iprop((datR0 V c).Φ t.castSucc ∗ (datR0 V c).owesAt () t.castSucc
    ∗ (∃ d, owns (c : Thread nD τ) (mR0_0 t) fullShare ((datR0 V c).before 0 t d))
    ∗ (∃ d, owns (c : Thread nD τ) (mR0_1 t) fullShare ((datR0 V c).before 1 t d))
    ∗ (∃ d, owns (c : Thread nD τ) (mR0_2 t) fullShare ((datR0 V c).before 2 t d))
    ∗ (∃ d, owns (c : Thread nD τ) (mR0_3 t) fullShare ((datR0 V c).before 3 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t
    ∗ (datR0 V c).leavesExact 3 t)

set_option maxHeartbeats 4800000 in
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2]
  rw [show (datR0 V c).owesAt () t.succ = (datR0 V c).owesAt () t.castSucc from rfl]
  rw [show (datR0 V c).Φ t.succ = PhiR0 V c (t.val + 1) t.isLt from rfl, PhiR0_succ]
  have hN : t.val < 128 := lt_of_lt_of_eq t.isLt (show cfg0.N = 128 from N_0)
  rw [show (datR0 V c).leavesExact 0 t = owns (c : Thread nD τ) (mR0_0 t) fullShare ((datR0 V c).after 0 t) from by
    unfold Dat.leavesExact; rw [liveR0_0 t], afterR0_0]
  rw [show (datR0 V c).leavesExact 1 t = owns (c : Thread nD τ) (mR0_1 t) fullShare ((datR0 V c).after 1 t) from by
    unfold Dat.leavesExact; rw [liveR0_1 t], afterR0_1]
  rw [show (datR0 V c).leavesExact 2 t = owns (c : Thread nD τ) (mR0_2 t) fullShare ((datR0 V c).after 2 t) from by
    unfold Dat.leavesExact; rw [liveR0_2 t], afterR0_2]
  by_cases h0 : t.val % 8 = 0
  · have h7 : ¬t.val % 8 = 7 := by omega
    rw [Dat.leavesExact_idle (datR0 V c) 3 t (idleR0_3 t (fun h => h7 ((lastR0_iff t).mp h))) (noFlushR0_3 t (fun h => h7 ((lastR0_iff t).mp h)))]
    rw [stateR0_first V c t h0 h7]
    unfold accFirstR0; (try dsimp only)
    by_cases hz : t.val = 0
    · rw [PhiR0_castSucc V c t, PhiR0_zero V c _ _ hz, PhiA_R0]
      iintro ⟨⟨⟨HA, Hoth⟩, Hg⟩, Ho, ⟨%d0, H0⟩, ⟨%d1, H1⟩, ⟨%d2, H2⟩, ⟨%d3, H3⟩⟩
      iapply ((runR0_first c (grid0.coords t) _ _ _ _ _ _ _ _ _ _ ((firstR0_iff t).mpr h0) (fun h => h7 ((lastR0_iff t).mp h)) (blkR0 V c 0 t) (blkR0 V c 1 t) (blkR0 V c 2 t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR0_cover V c t h0 h7)
          iexact Hoth
        iexact Hg
      isplitl [Ho]; · iexact Ho
      isplitl [H0]; · iexact H0
      isplitl [H1]; · iexact H1
      isplitl [H2]; · iexact H2
      iexists _; iexact H3
    · rw [PhiR0_castSucc V c t, PhiR0_pos V c _ _ hz]
      iintro ⟨⟨⟨HA, Hoth⟩, Hg⟩, Ho, ⟨%d0, H0⟩, ⟨%d1, H1⟩, ⟨%d2, H2⟩, ⟨%d3, H3⟩⟩
      iapply ((runR0_first c (grid0.coords t) _ _ _ _ _ _ _ _ _ _ ((firstR0_iff t).mpr h0) (fun h => h7 ((lastR0_iff t).mp h)) (blkR0 V c 0 t) (blkR0 V c 1 t) (blkR0 V c 2 t)).2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR0_cover V c t h0 h7)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (datR0 V c).leavesExact 3 t = owns (c : Thread nD τ) (mR0_3 t) fullShare ((datR0 V c).after 3 t) from by
        unfold Dat.leavesExact; rw [liveR0_3 t ((lastR0_iff t).mpr h7)], afterR0_3]
      rw [stateR0_last V c t h0 h7]
      unfold outLastR0 accLastR0; (try dsimp only)
      rw [PhiR0_castSucc V c t, PhiR0_pos V c _ _ hz]
      iintro ⟨⟨⟨HA, Hoth⟩, Hg⟩, Ho, ⟨%d0, H0⟩, ⟨%d1, H1⟩, ⟨%d2, H2⟩, ⟨%d3, H3⟩⟩
      iapply ((runR0_last c (grid0.coords t) _ _ _ _ _ _ _ _ _ _ (fun h => h0 ((firstR0_iff t).mp h)) ((lastR0_iff t).mpr h7) (blkR0 V c 0 t) (blkR0 V c 1 t) (blkR0 V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%fo, H3⟩, ⟨%fa, HA⟩⟩
      isplitl [HA Hoth Hg]
      · isplitl [HA Hoth]
        · isplitl [HA]
          · unfold owns; iexists _; isplitr
            swap; · iexact HA
            ipureintro; exact View.read_writes_of_cover _ _ _ _ _ (accLastR0_cover V c t h0 h7 _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLastR0_cover V c t h0 h7 _)
    · rw [Dat.leavesExact_idle (datR0 V c) 3 t (idleR0_3 t (fun h => h7 ((lastR0_iff t).mp h))) (noFlushR0_3 t (fun h => h7 ((lastR0_iff t).mp h)))]
      rw [stateR0_mid V c t h0 h7]
      unfold accMidR0; (try dsimp only)
      rw [PhiR0_castSucc V c t, PhiR0_pos V c _ _ hz]
      iintro ⟨⟨⟨HA, Hoth⟩, Hg⟩, Ho, ⟨%d0, H0⟩, ⟨%d1, H1⟩, ⟨%d2, H2⟩, ⟨%d3, H3⟩⟩
      iapply ((runR0_mid c (grid0.coords t) _ _ _ _ _ _ _ _ _ _ (fun h => h0 ((firstR0_iff t).mp h)) (fun h => h7 ((lastR0_iff t).mp h)) (blkR0 V c 0 t) (blkR0 V c 1 t) (blkR0 V c 2 t) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accMidR0_cover V c t h0 h7 _)
          iexact Hoth
        iexact Hg
      isplitl [Ho]; · iexact Ho
      isplitl [H0]; · iexact H0
      isplitl [H1]; · iexact H1
      isplitl [H2]; · iexact H2
      iexists _; iexact H3

theorem body_obligationR0 (c : Dev nD) : BodyObligation (datR0 (F := F) V c) (defs₀ (F := F)) Variants.none () Set.univ := fun t => by
  rw [bigSep_W0, bigSep_W0]
  exact sound_bodyR0 V c t

/-- The class's invariant is the invariant before the first point. -/
theorem PhiR0_in (c : Dev nD) : Pipeline.ΦA spec0 c ⊢ (datR0 V c).Φ 0 := by
  rw [show (datR0 V c).Φ 0 = PhiR0 V c 0 (Nat.zero_le _) from rfl, PhiR0_zero V c 0 _ rfl]
  try exact Idealize.SL.BI.Entails.refl _

/-- After the last point the invariant gives the class's back: the accumulator's contents are forgotten. -/
theorem PhiR0_out (c : Dev nD) : (datR0 V c).Φ (Fin.last cfg0.N) ⊢ Pipeline.ΦA spec0 c := by
  rw [show (datR0 V c).Φ (Fin.last cfg0.N) = PhiR0 V c (Fin.last cfg0.N).val (Nat.le_of_lt_succ (Fin.last cfg0.N).isLt) from rfl,
    PhiR0_pos V c _ _ (by rw [Fin.val_last]; have : cfg0.N = 128 := N_0; omega), PhiA_R0]
  iintro ⟨⟨HA, Hoth⟩, Hg⟩
  isplitl [HA Hoth]
  · isplitl [HA]; · iexists _; iexact HA
    iexact Hoth
  iexact Hg

end Cert.KernelIdeal.Hand

end
-- ==== Proof.KI.R1Body.lean ====
/-
  Layer 2: the body obligation of its region.  At every point the three input windows hold their blocks; the two
  conditions on k select the case; the invariant hands the body the accumulator at what the point before left (at
  anything before the first point) and takes it back at what this point leaves.
-/
import proofs.«143552_j60455959658594_2_alg».proof.Proof.KI.R1Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPreR1 (c : Dev nD) (t : Fin cfg1.N) : sProp 𝕄 :=
  iprop((datR1 V c).Φ t.castSucc ∗ (datR1 V c).owesAt () t.castSucc
    ∗ (∃ d, owns (c : Thread nD τ) (mR1_0 t) fullShare ((datR1 V c).before 0 t d))
    ∗ (∃ d, owns (c : Thread nD τ) (mR1_1 t) fullShare ((datR1 V c).before 1 t d))
    ∗ (∃ d, owns (c : Thread nD τ) (mR1_2 t) fullShare ((datR1 V c).before 2 t d))
    ∗ (∃ d, owns (c : Thread nD τ) (mR1_3 t) fullShare ((datR1 V c).before 3 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t)

set_option maxHeartbeats 4800000 in
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2]
  rw [show (datR1 V c).owesAt () t.succ = (datR1 V c).owesAt () t.castSucc from rfl]
  rw [show (datR1 V c).Φ t.succ = PhiR1 V c (t.val + 1) t.isLt from rfl, PhiR1_succ]
  have hN : t.val < 128 := lt_of_lt_of_eq t.isLt (show cfg1.N = 128 from N_1)
  rw [show (datR1 V c).leavesExact 0 t = owns (c : Thread nD τ) (mR1_0 t) fullShare ((datR1 V c).after 0 t) from by
    unfold Dat.leavesExact; rw [liveR1_0 t], afterR1_0]
  rw [show (datR1 V c).leavesExact 1 t = owns (c : Thread nD τ) (mR1_1 t) fullShare ((datR1 V c).after 1 t) from by
    unfold Dat.leavesExact; rw [liveR1_1 t], afterR1_1]
  rw [show (datR1 V c).leavesExact 2 t = owns (c : Thread nD τ) (mR1_2 t) fullShare ((datR1 V c).after 2 t) from by
    unfold Dat.leavesExact; rw [liveR1_2 t], afterR1_2]
  by_cases h0 : t.val % 8 = 0
  · have h7 : ¬t.val % 8 = 7 := by omega
    rw [Dat.leavesExact_idle (datR1 V c) 3 t (idleR1_3 t (fun h => h7 ((lastR1_iff t).mp h))) (noFlushR1_3 t (fun h => h7 ((lastR1_iff t).mp h)))]
    rw [stateR1_first V c t h0 h7]
    unfold accFirstR1; (try dsimp only)
    by_cases hz : t.val = 0
    · rw [PhiR1_castSucc V c t, PhiR1_zero V c _ _ hz, PhiA_R1]
      iintro ⟨⟨⟨HA, Hoth⟩, Hg⟩, Ho, ⟨%d0, H0⟩, ⟨%d1, H1⟩, ⟨%d2, H2⟩, ⟨%d3, H3⟩⟩
      iapply ((runR1_first c (grid1.coords t) _ _ _ _ _ _ _ _ _ _ ((firstR1_iff t).mpr h0) (fun h => h7 ((lastR1_iff t).mp h)) (blkR1 V c 0 t) (blkR1 V c 1 t) (blkR1 V c 2 t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR1_cover V c t h0 h7)
          iexact Hoth
        iexact Hg
      isplitl [Ho]; · iexact Ho
      isplitl [H0]; · iexact H0
      isplitl [H1]; · iexact H1
      isplitl [H2]; · iexact H2
      iexists _; iexact H3
    · rw [PhiR1_castSucc V c t, PhiR1_pos V c _ _ hz]
      iintro ⟨⟨⟨HA, Hoth⟩, Hg⟩, Ho, ⟨%d0, H0⟩, ⟨%d1, H1⟩, ⟨%d2, H2⟩, ⟨%d3, H3⟩⟩
      iapply ((runR1_first c (grid1.coords t) _ _ _ _ _ _ _ _ _ _ ((firstR1_iff t).mpr h0) (fun h => h7 ((lastR1_iff t).mp h)) (blkR1 V c 0 t) (blkR1 V c 1 t) (blkR1 V c 2 t)).2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR1_cover V c t h0 h7)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (datR1 V c).leavesExact 3 t = owns (c : Thread nD τ) (mR1_3 t) fullShare ((datR1 V c).after 3 t) from by
        unfold Dat.leavesExact; rw [liveR1_3 t ((lastR1_iff t).mpr h7)], afterR1_3]
      rw [stateR1_last V c t h0 h7]
      unfold outLastR1 accLastR1; (try dsimp only)
      rw [PhiR1_castSucc V c t, PhiR1_pos V c _ _ hz]
      iintro ⟨⟨⟨HA, Hoth⟩, Hg⟩, Ho, ⟨%d0, H0⟩, ⟨%d1, H1⟩, ⟨%d2, H2⟩, ⟨%d3, H3⟩⟩
      iapply ((runR1_last c (grid1.coords t) _ _ _ _ _ _ _ _ _ _ (fun h => h0 ((firstR1_iff t).mp h)) ((lastR1_iff t).mpr h7) (blkR1 V c 0 t) (blkR1 V c 1 t) (blkR1 V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%fo, H3⟩, ⟨%fa, HA⟩⟩
      isplitl [HA Hoth Hg]
      · isplitl [HA Hoth]
        · isplitl [HA]
          · unfold owns; iexists _; isplitr
            swap; · iexact HA
            ipureintro; exact View.read_writes_of_cover _ _ _ _ _ (accLastR1_cover V c t h0 h7 _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLastR1_cover V c t h0 h7 _)
    · rw [Dat.leavesExact_idle (datR1 V c) 3 t (idleR1_3 t (fun h => h7 ((lastR1_iff t).mp h))) (noFlushR1_3 t (fun h => h7 ((lastR1_iff t).mp h)))]
      rw [stateR1_mid V c t h0 h7]
      unfold accMidR1; (try dsimp only)
      rw [PhiR1_castSucc V c t, PhiR1_pos V c _ _ hz]
      iintro ⟨⟨⟨HA, Hoth⟩, Hg⟩, Ho, ⟨%d0, H0⟩, ⟨%d1, H1⟩, ⟨%d2, H2⟩, ⟨%d3, H3⟩⟩
      iapply ((runR1_mid c (grid1.coords t) _ _ _ _ _ _ _ _ _ _ (fun h => h0 ((firstR1_iff t).mp h)) (fun h => h7 ((lastR1_iff t).mp h)) (blkR1 V c 0 t) (blkR1 V c 1 t) (blkR1 V c 2 t) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accMidR1_cover V c t h0 h7 _)
          iexact Hoth
        iexact Hg
      isplitl [Ho]; · iexact Ho
      isplitl [H0]; · iexact H0
      isplitl [H1]; · iexact H1
      isplitl [H2]; · iexact H2
      iexists _; iexact H3

theorem body_obligationR1 (c : Dev nD) : BodyObligation (datR1 (F := F) V c) (defs₀ (F := F)) Variants.none () Set.univ := fun t => by
  rw [bigSep_W1, bigSep_W1]
  exact sound_bodyR1 V c t

/-- The class's invariant is the invariant before the first point. -/
theorem PhiR1_in (c : Dev nD) : Pipeline.ΦA spec1 c ⊢ (datR1 V c).Φ 0 := by
  rw [show (datR1 V c).Φ 0 = PhiR1 V c 0 (Nat.zero_le _) from rfl, PhiR1_zero V c 0 _ rfl]
  try exact Idealize.SL.BI.Entails.refl _

/-- After the last point the invariant gives the class's back: the accumulator's contents are forgotten. -/
theorem PhiR1_out (c : Dev nD) : (datR1 V c).Φ (Fin.last cfg1.N) ⊢ Pipeline.ΦA spec1 c := by
  rw [show (datR1 V c).Φ (Fin.last cfg1.N) = PhiR1 V c (Fin.last cfg1.N).val (Nat.le_of_lt_succ (Fin.last cfg1.N).isLt) from rfl,
    PhiR1_pos V c _ _ (by rw [Fin.val_last]; have : cfg1.N = 128 := N_1; omega), PhiA_R1]
  iintro ⟨⟨HA, Hoth⟩, Hg⟩
  isplitl [HA Hoth]
  · isplitl [HA]; · iexists _; iexact HA
    iexact Hoth
  iexact Hg

end Cert.KernelIdeal.Hand

end
-- ==== Proof.KI.R2Body.lean ====
/-
  Layer 3: the body obligation of its region.  At every point the three input windows hold their blocks; the two
  conditions on k select the case; the invariant hands the body the accumulator at what the point before left (at
  anything before the first point) and takes it back at what this point leaves.
-/
import proofs.«143552_j60455959658594_2_alg».proof.Proof.KI.R2Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPreR2 (c : Dev nD) (t : Fin cfg2.N) : sProp 𝕄 :=
  iprop((datR2 V c).Φ t.castSucc ∗ (datR2 V c).owesAt () t.castSucc
    ∗ (∃ d, owns (c : Thread nD τ) (mR2_0 t) fullShare ((datR2 V c).before 0 t d))
    ∗ (∃ d, owns (c : Thread nD τ) (mR2_1 t) fullShare ((datR2 V c).before 1 t d))
    ∗ (∃ d, owns (c : Thread nD τ) (mR2_2 t) fullShare ((datR2 V c).before 2 t d))
    ∗ (∃ d, owns (c : Thread nD τ) (mR2_3 t) fullShare ((datR2 V c).before 3 t d)))

def bodyPostR2 (c : Dev nD) (t : Fin cfg2.N) : sProp 𝕄 :=
  iprop((datR2 V c).Φ t.succ ∗ (datR2 V c).owesAt () t.succ
    ∗ (datR2 V c).leavesExact 0 t
    ∗ (datR2 V c).leavesExact 1 t
    ∗ (datR2 V c).leavesExact 2 t
    ∗ (datR2 V c).leavesExact 3 t)

set_option maxHeartbeats 4800000 in
theorem sound_bodyR2 (c : Dev nD) (t : Fin cfg2.N) :
    bodyPreR2 V c t ⊢ wp frame (wpE (defs₀ (F := F)) Variants.none c none) Set.univ (bodyAt2 t) (fun _ => bodyPostR2 V c t) := by
  unfold bodyPreR2 bodyPostR2 bodyAt2
  simp only [beforeR2_0, beforeR2_1, beforeR2_2]
  rw [show (datR2 V c).owesAt () t.succ = (datR2 V c).owesAt () t.castSucc from rfl]
  rw [show (datR2 V c).Φ t.succ = PhiR2 V c (t.val + 1) t.isLt from rfl, PhiR2_succ]
  have hN : t.val < 64 := lt_of_lt_of_eq t.isLt (show cfg2.N = 64 from N_2)
  rw [show (datR2 V c).leavesExact 0 t = owns (c : Thread nD τ) (mR2_0 t) fullShare ((datR2 V c).after 0 t) from by
    unfold Dat.leavesExact; rw [liveR2_0 t], afterR2_0]
  rw [show (datR2 V c).leavesExact 1 t = owns (c : Thread nD τ) (mR2_1 t) fullShare ((datR2 V c).after 1 t) from by
    unfold Dat.leavesExact; rw [liveR2_1 t], afterR2_1]
  rw [show (datR2 V c).leavesExact 2 t = owns (c : Thread nD τ) (mR2_2 t) fullShare ((datR2 V c).after 2 t) from by
    unfold Dat.leavesExact; rw [liveR2_2 t], afterR2_2]
  by_cases h0 : t.val % 8 = 0
  · have h7 : ¬t.val % 8 = 7 := by omega
    rw [Dat.leavesExact_idle (datR2 V c) 3 t (idleR2_3 t (fun h => h7 ((lastR2_iff t).mp h))) (noFlushR2_3 t (fun h => h7 ((lastR2_iff t).mp h)))]
    rw [stateR2_first V c t h0 h7]
    unfold accFirstR2; (try dsimp only)
    by_cases hz : t.val = 0
    · rw [PhiR2_castSucc V c t, PhiR2_zero V c _ _ hz, PhiA_R2]
      iintro ⟨⟨⟨HA, Hoth⟩, Hg⟩, Ho, ⟨%d0, H0⟩, ⟨%d1, H1⟩, ⟨%d2, H2⟩, ⟨%d3, H3⟩⟩
      iapply ((runR2_first c (grid2.coords t) _ _ _ _ _ _ _ _ _ _ ((firstR2_iff t).mpr h0) (fun h => h7 ((lastR2_iff t).mp h)) (blkR2 V c 0 t) (blkR2 V c 1 t) (blkR2 V c 2 t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR2_cover V c t h0 h7)
          iexact Hoth
        iexact Hg
      isplitl [Ho]; · iexact Ho
      isplitl [H0]; · iexact H0
      isplitl [H1]; · iexact H1
      isplitl [H2]; · iexact H2
      iexists _; iexact H3
    · rw [PhiR2_castSucc V c t, PhiR2_pos V c _ _ hz]
      iintro ⟨⟨⟨HA, Hoth⟩, Hg⟩, Ho, ⟨%d0, H0⟩, ⟨%d1, H1⟩, ⟨%d2, H2⟩, ⟨%d3, H3⟩⟩
      iapply ((runR2_first c (grid2.coords t) _ _ _ _ _ _ _ _ _ _ ((firstR2_iff t).mpr h0) (fun h => h7 ((lastR2_iff t).mp h)) (blkR2 V c 0 t) (blkR2 V c 1 t) (blkR2 V c 2 t)).2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accFirstR2_cover V c t h0 h7)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (datR2 V c).leavesExact 3 t = owns (c : Thread nD τ) (mR2_3 t) fullShare ((datR2 V c).after 3 t) from by
        unfold Dat.leavesExact; rw [liveR2_3 t ((lastR2_iff t).mpr h7)], afterR2_3]
      rw [stateR2_last V c t h0 h7]
      unfold outLastR2 accLastR2; (try dsimp only)
      rw [PhiR2_castSucc V c t, PhiR2_pos V c _ _ hz]
      iintro ⟨⟨⟨HA, Hoth⟩, Hg⟩, Ho, ⟨%d0, H0⟩, ⟨%d1, H1⟩, ⟨%d2, H2⟩, ⟨%d3, H3⟩⟩
      iapply ((runR2_last c (grid2.coords t) _ _ _ _ _ _ _ _ _ _ (fun h => h0 ((firstR2_iff t).mp h)) ((lastR2_iff t).mpr h7) (blkR2 V c 0 t) (blkR2 V c 1 t) (blkR2 V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%fo, H3⟩, ⟨%fa, HA⟩⟩
      isplitl [HA Hoth Hg]
      · isplitl [HA Hoth]
        · isplitl [HA]
          · unfold owns; iexists _; isplitr
            swap; · iexact HA
            ipureintro; exact View.read_writes_of_cover _ _ _ _ _ (accLastR2_cover V c t h0 h7 _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLastR2_cover V c t h0 h7 _)
    · rw [Dat.leavesExact_idle (datR2 V c) 3 t (idleR2_3 t (fun h => h7 ((lastR2_iff t).mp h))) (noFlushR2_3 t (fun h => h7 ((lastR2_iff t).mp h)))]
      rw [stateR2_mid V c t h0 h7]
      unfold accMidR2; (try dsimp only)
      rw [PhiR2_castSucc V c t, PhiR2_pos V c _ _ hz]
      iintro ⟨⟨⟨HA, Hoth⟩, Hg⟩, Ho, ⟨%d0, H0⟩, ⟨%d1, H1⟩, ⟨%d2, H2⟩, ⟨%d3, H3⟩⟩
      iapply ((runR2_mid c (grid2.coords t) _ _ _ _ _ _ _ _ _ _ (fun h => h0 ((firstR2_iff t).mp h)) (fun h => h7 ((lastR2_iff t).mp h)) (blkR2 V c 0 t) (blkR2 V c 1 t) (blkR2 V c 2 t) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%fa, HA⟩⟩
      isplitl [HA Hoth Hg]
      · isplitl [HA Hoth]
        · isplitl [HA]
          · unfold owns; iexists _; isplitr
            swap; · iexact HA
            ipureintro; exact View.read_writes_of_cover _ _ _ _ _ (accMidR2_cover V c t h0 h7 _)
          iexact Hoth
        iexact Hg
      isplitl [Ho]; · iexact Ho
      isplitl [H0]; · iexact H0
      isplitl [H1]; · iexact H1
      isplitl [H2]; · iexact H2
      iexists _; iexact H3

theorem body_obligationR2 (c : Dev nD) : BodyObligation (datR2 (F := F) V c) (defs₀ (F := F)) Variants.none () Set.univ := fun t => by
  rw [bigSep_W2, bigSep_W2]
  exact sound_bodyR2 V c t

/-- The class's invariant is the invariant before the first point. -/
theorem PhiR2_in (c : Dev nD) : Pipeline.ΦA spec2 c ⊢ (datR2 V c).Φ 0 := by
  rw [show (datR2 V c).Φ 0 = PhiR2 V c 0 (Nat.zero_le _) from rfl, PhiR2_zero V c 0 _ rfl]
  try exact Idealize.SL.BI.Entails.refl _

/-- After the last point the invariant gives the class's back: the accumulator's contents are forgotten. -/
theorem PhiR2_out (c : Dev nD) : (datR2 V c).Φ (Fin.last cfg2.N) ⊢ Pipeline.ΦA spec2 c := by
  rw [show (datR2 V c).Φ (Fin.last cfg2.N) = PhiR2 V c (Fin.last cfg2.N).val (Nat.le_of_lt_succ (Fin.last cfg2.N).isLt) from rfl,
    PhiR2_pos V c _ _ (by rw [Fin.val_last]; have : cfg2.N = 64 := N_2; omega), PhiA_R2]
  iintro ⟨⟨HA, Hoth⟩, Hg⟩
  isplitl [HA Hoth]
  · isplitl [HA]; · iexists _; iexact HA
    iexact Hoth
  iexact Hg

end Cert.KernelIdeal.Hand

end
-- ==== Proof.KI.Chain.lean ====
/-
  The whole program from launch to return: host operations, layer 1's region, host operations, layer 2's region,
  host operations (the padding of the last layer's weights and bias), layer 3's region, the final slice.
  The contents of every unscoped buffer are followed from one item to the next: a stretch of host operations
  applies its operations' functions; a region leaves its output array at what its write-backs folded and touches
  nothing else.  The run ends with every unscoped buffer at the last of these contents.
-/
import proofs.«143552_j60455959658594_2_alg».proof.Proof.KI.Vals
import proofs.«143552_j60455959658594_2_alg».proof.Proof.KI.R0Body
import proofs.«143552_j60455959658594_2_alg».proof.Proof.KI.R1Body
import proofs.«143552_j60455959658594_2_alg».proof.Proof.KI.R2Body
import proofs.«143552_j60455959658594_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (HostSeg RegionSeg Seg)

variable (m : (ℓ : Loc nD τ sig) → Buf (Elt F) ℓ)

/-! ## The proof data of the three regions, and what rides beside the buffers -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => datR0 (U1 m) c
  | ⟨1, _⟩ => fun c => datR1 (U3 m) c
  | ⟨2, _⟩ => fun c => datR2 (U9 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Layer 1's region between the buffer contents before it and after it: its arrays are split out of the unscoped
    buffers on entry and put back, the output's at what the write-backs left, on exit; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationR0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec0 c : sProp 𝕄) from by
      unfold Pipeline.ΦA
      iintro ⟨Hp, -, Hr⟩
      isplitl [Hr]; · iexact Hr
      iexact Hp).trans (PhiR0_in (U1 m) c)
  hout c := by
    rw [Pipeline.ownSems0_none]
    exact (PhiR0_out (U1 m) c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (fun b => W2 m c b) ((pdats m 0 c).arrAt · cfg0.N) (arrAt_R0 m c) (rest_R0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region between the buffer contents before it and after it: its arrays are split out of the unscoped
    buffers on entry and put back, the output's at what the write-backs left, on exit; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationR1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (PhiR1_in (U3 m) c)
  hout c := by
    rw [Pipeline.ownSems0_none]
    exact (PhiR1_out (U3 m) c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (fun b => W4 m c b) ((pdats m 1 c).arrAt · cfg1.N) (arrAt_R1 m c) (rest_R1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's region between the buffer contents before it and after it: its arrays are split out of the unscoped
    buffers on entry and put back, the output's at what the write-backs left, on exit; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligationR2 (U9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (U9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec2 c : sProp 𝕄) from by
      unfold Pipeline.ΦA
      iintro ⟨Hp, -, Hr⟩
      isplitl [Hr]; · iexact Hr
      iexact Hp).trans (PhiR2_in (U9 m) c)
  hout c := by
    rw [Pipeline.ownSems0_none]
    exact (PhiR2_out (U9 m) c).trans (show (Pipeline.ΦA spec2 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U9 m c) (fun b => W10 m c b) ((pdats m 2 c).arrAt · cfg2.N) (arrAt_R2 m c) (rest_R2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .region (reg2 m),
    .host (hseg hostOps3 hostOps3_sub hostOps3_fresh (W10 m)) ]

theorem main_run (c : Dev nD) : main (F := F) c = Pipeline.Seg.run (segs m) := (main_chain c).trans (by chain_rfl)

abbrev Tend (c : Dev nD) : sProp 𝕄 := iprop(StableHlo.held (c : Thread nD τ) (Pipeline.ucRefs τ sig) (W11 m c) ∗ ∃ r, prngReg c r)

set_option backward.isDefEq.respectTransparency.types false in
/-- Every weakly fair execution of the program terminates, nothing faulting, with every unscoped buffer of every core
    at the last contents of the chain above. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ R c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-! ## The arguments are never written -/

/-- A buffer that no stretch of host operations writes and that is no array of any region's windows holds at the end what
    it held at launch. -/
theorem W11_kept (c : Dev nD) (r : Ref sig .tc)
    (h0 : r ∉ hostOps0_W) (h1 : r ∉ hostOps1_W) (h2 : r ∉ hostOps2_W) (h21 : r ∉ hostOps2_1_W) (h22 : r ∉ hostOps2_2_W)
    (h23 : r ∉ hostOps2_3_W) (h24 : r ∉ hostOps2_4_W) (h3 : r ∉ hostOps3_W)
    (a0 : ∀ w, Pipeline.arrRef spec0 w ≠ r) (a1 : ∀ w, Pipeline.arrRef spec1 w ≠ r) (a2 : ∀ w, Pipeline.arrRef spec2 w ≠ r) :
    W11 m c (Proc.devRef .tc r) = m ((c : Thread nD τ).loc r) :=
  calc W11 m c (Proc.devRef .tc r)
    _ = W10 m c (Proc.devRef .tc r) := StableHlo.after_of_writes_sub hostOps3 _ hostOps3_writes h3
    _ = W9 m c (Proc.devRef .tc r) := W10_of_ne m c r a2
    _ = W8 m c (Proc.devRef .tc r) := StableHlo.after_of_writes_sub hostOps2_4 _ hostOps2_4_writes h24
    _ = W7 m c (Proc.devRef .tc r) := StableHlo.after_of_writes_sub hostOps2_3 _ hostOps2_3_writes h23
    _ = W6 m c (Proc.devRef .tc r) := StableHlo.after_of_writes_sub hostOps2_2 _ hostOps2_2_writes h22
    _ = W5 m c (Proc.devRef .tc r) := StableHlo.after_of_writes_sub hostOps2_1 _ hostOps2_1_writes h21
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

theorem W11_arg0 (c : Dev nD) : W11 m c (Proc.devRef .tc main_arg0) = m ((c : Thread nD τ).loc main_arg0) :=
  W11_kept m c main_arg0 (by decide) (by decide) (by decide) (by decide) (by decide) (by decide) (by decide) (by decide) (by decide) (by decide) (by decide)
theorem W11_arg1 (c : Dev nD) : W11 m c (Proc.devRef .tc main_arg1) = m ((c : Thread nD τ).loc main_arg1) :=
  W11_kept m c main_arg1 (by decide) (by decide) (by decide) (by decide) (by decide) (by decide) (by decide) (by decide) (by decide) (by decide) (by decide)
theorem W11_arg2 (c : Dev nD) : W11 m c (Proc.devRef .tc main_arg2) = m ((c : Thread nD τ).loc main_arg2) :=
  W11_kept m c main_arg2 (by decide) (by decide) (by decide) (by decide) (by decide) (by decide) (by decide) (by decide) (by decide) (by decide) (by decide)
theorem W11_arg3 (c : Dev nD) : W11 m c (Proc.devRef .tc main_arg3) = m ((c : Thread nD τ).loc main_arg3) :=
  W11_kept m c main_arg3 (by decide) (by decide) (by decide) (by decide) (by decide) (by decide) (by decide) (by decide) (by decide) (by decide) (by decide)
theorem W11_arg4 (c : Dev nD) : W11 m c (Proc.devRef .tc main_arg4) = m ((c : Thread nD τ).loc main_arg4) :=
  W11_kept m c main_arg4 (by decide) (by decide) (by decide) (by decide) (by decide) (by decide) (by decide) (by decide) (by decide) (by decide) (by decide)
theorem W11_arg5 (c : Dev nD) : W11 m c (Proc.devRef .tc main_arg5) = m ((c : Thread nD τ).loc main_arg5) :=
  W11_kept m c main_arg5 (by decide) (by decide) (by decide) (by decide) (by decide) (by decide) (by decide) (by decide) (by decide) (by decide) (by decide)
theorem W11_arg6 (c : Dev nD) : W11 m c (Proc.devRef .tc main_arg6) = m ((c : Thread nD τ).loc main_arg6) :=
  W11_kept m c main_arg6 (by decide) (by decide) (by decide) (by decide) (by decide) (by decide) (by decide) (by decide) (by decide) (by decide) (by decide)

/-- The run, read at the seven arguments: each ends as launched. -/
theorem run_frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W11_arg0 m c), (h c _ (mem_uc main_arg1 (by decide))).trans (W11_arg1 m c),
      (h c _ (mem_uc main_arg2 (by decide))).trans (W11_arg2 m c), (h c _ (mem_uc main_arg3 (by decide))).trans (W11_arg3 m c),
      (h c _ (mem_uc main_arg4 (by decide))).trans (W11_arg4 m c), (h c _ (mem_uc main_arg5 (by decide))).trans (W11_arg5 m c),
      (h c _ (mem_uc main_arg6 (by decide))).trans (W11_arg6 m c)⟩) (run_all m ρ)

end Cert.KernelIdeal.Hand

end
-- ==== Proof.KI.Layers.lean ====
/-
  One layer of the network as a function of the three arrays its region reads: the activations X [8192, 4096], the
  weights Wt [N, 4096] (one row per output feature) and the bias laid out as a row [1, N].
    binarized layer (N = 4096):  (r, n) |-> sign ( sum_k X(r, k) * Wt(n, k) + b(0, n) )
    plain layer     (N = 1024):  (r, n) |->        sum_k X(r, k) * Wt(n, k) + b(0, n)
-/
import proofs.«143552_j60455959658594_2_alg».proof.KernelIdeal
import Idealize.ShloMosaic.PureOps.Ideal
import Idealize.ShloMosaic.Lib.ValueIdx

noncomputable section

namespace Cert.KernelIdeal.Hand

open Idealize.ShloMosaic Idealize.ShloMosaic.ValueIdx Cert.KernelIdeal

def layerSign (X : S8192x4096.Idx → EReal) (Wt : S4096x4096.Idx → EReal) (Bv : S1x4096.Idx → EReal) : S8192x4096.Idx → EReal :=
  fun i => Ideal.sign ((∑ k : Fin 4096, X (ix2 (i 0) k) * Wt (ix2 (i 1) k)) + Bv (ix2 (0 : Fin 1) (i 1)))

def layerPlain (X : S8192x4096.Idx → EReal) (Wt : S1024x4096.Idx → EReal) (Bv : S1x1024.Idx → EReal) : S8192x1024.Idx → EReal :=
  fun i => (∑ k : Fin 4096, X (ix2 (i 0) k) * Wt (ix2 (i 1) k)) + Bv (ix2 (0 : Fin 1) (i 1))

end Cert.KernelIdeal.Hand

end
-- ==== Proof.Spec.lean ====
/-
  The network as one function of its seven arrays, at the exact (extended-real) reading.
  x : [8192, 4096], w1, w2 : [4096, 4096], b1, b2 : [4096], w3 : [1000, 4096], b3 : [1000].
    a1(r, n)  = sign ( sum_k sign x(r, k) * sign w1(n, k) + b1(n) )
    a2(r, n)  = sign ( sum_k a1(r, k)     * sign w2(n, k) + b2(n) )
    out(r, n) =        sum_k a2(r, k)     * w3(n, k)      + b3(n)          (n < 1000)
  `sign` is the three-valued sign of an extended real (-1 below zero, 0 at zero, 1 above).  Every sum is over
  Fin 4096 in the order of the index; the extended reals' addition is commutative and associative, so any
  blocking of a sum is the same number.
-/
import Idealize.ShloMosaic.PureOps.Ideal
import Idealize.ShloMosaic.Lib.ValueIdx

noncomputable section

namespace Cert.Spec

open Idealize.ShloMosaic Idealize.ShloMosaic.ValueIdx

abbrev Sx : Shape := ⟨2, ![8192, 4096]⟩
abbrev Sw : Shape := ⟨2, ![4096, 4096]⟩
abbrev Sb : Shape := ⟨1, ![4096]⟩
abbrev Sw3 : Shape := ⟨2, ![1000, 4096]⟩
abbrev Sb3 : Shape := ⟨1, ![1000]⟩
abbrev Sh : Shape := ⟨2, ![8192, 4096]⟩
abbrev So : Shape := ⟨2, ![8192, 1000]⟩

/-- The binarized inputs and weights. -/
def sx (x : Sx.Idx → EReal) (r : Fin 8192) (k : Fin 4096) : EReal := Ideal.sign (x (ix2 r k))
def sw (w : Sw.Idx → EReal) (n : Fin 4096) (k : Fin 4096) : EReal := Ideal.sign (w (ix2 n k))

/-- One binarized layer: the sign of a row of activations against a row of binarized weights, plus the bias. -/
def act (a : Fin 8192 → Fin 4096 → EReal) (w : Sw.Idx → EReal) (b : Sb.Idx → EReal) (r : Fin 8192) (n : Fin 4096) : EReal :=
  Ideal.sign ((∑ k : Fin 4096, a r k * sw w n k) + b (ix1 n))

def a1 (x : Sx.Idx → EReal) (w1 : Sw.Idx → EReal) (b1 : Sb.Idx → EReal) : Fin 8192 → Fin 4096 → EReal :=
  act (sx x) w1 b1
def a2 (x : Sx.Idx → EReal) (w1 : Sw.Idx → EReal) (b1 : Sb.Idx → EReal) (w2 : Sw.Idx → EReal) (b2 : Sb.Idx → EReal) :
    Fin 8192 → Fin 4096 → EReal :=
  act (a1 x w1 b1) w2 b2

/-- The network's result. -/
def G (x : Sx.Idx → EReal) (w1 : Sw.Idx → EReal) (b1 : Sb.Idx → EReal) (w2 : Sw.Idx → EReal) (b2 : Sb.Idx → EReal)
    (w3 : Sw3.Idx → EReal) (b3 : Sb3.Idx → EReal) : So.Idx → EReal :=
  fun i => (∑ k : Fin 4096, a2 x w1 b1 w2 b2 (i 0) k * w3 (ix2 (i 1) k)) + b3 (ix1 (i 1))

/-- The sign of a sign is that sign. -/
theorem sign_sign (z : EReal) : Ideal.sign (Ideal.sign z) = Ideal.sign z := by
  have hneg : Ideal.sign (-1 : EReal) = -1 := by
    have e : (-1 : EReal) = ((-1 : ℝ) : EReal) := by simp
    rw [e, Ideal.sign_coe]; simp
  have hone : Ideal.sign (1 : EReal) = 1 := by
    have e : (1 : EReal) = ((1 : ℝ) : EReal) := by simp
    rw [e, Ideal.sign_coe]; simp
  have hzero : Ideal.sign (0 : EReal) = 0 := by
    have e : (0 : EReal) = ((0 : ℝ) : EReal) := by simp
    rw [e, Ideal.sign_coe]; simp
  induction z using EReal.rec with
  | bot => rw [Ideal.sign_bot]; exact hneg
  | top => rw [Ideal.sign_top]; exact hone
  | coe r =>
    rw [Ideal.sign_coe]
    rcases lt_trichotomy r 0 with h | h | h
    · rw [sign_neg h]; simpa using hneg
    · subst h; simpa using hzero
    · rw [sign_pos h]; simpa using hone

end Cert.Spec

end
-- ==== Proof.KI.Final.lean ====
/-
  The network's result is the specification, given what each layer's region leaves in its output array.
  The result buffer is columns 0..999 of layer 3's output array [8192, 1024].  Layer 3 reads layer 2's output, the
  weights [1000, 4096] padded with 24 zero rows to [1024, 4096] and the bias [1000] padded to [1024] and laid out as
  a row; a column n < 1000 of its output depends only on row n of the padded weights and entry n of the padded bias,
  which are the unpadded ones, so the padding is never read.  Layer 2 reads layer 1's output, the signs of the second
  weights and the second bias as a row; layer 1 reads the signs of the input and of the first weights and the first
  bias as a row.  A change of float format is the identity on the extended reals, and a buffer that a stretch of host
  operations does not write (and a region does not stage) keeps its contents, so each array a layer reads is a
  function of the launched arrays, and the three layers compose to the specification entry by entry.
-/
import proofs.«143552_j60455959658594_2_alg».proof.Proof.KI.Vals
import proofs.«143552_j60455959658594_2_alg».proof.Proof.KI.Layers
import proofs.«143552_j60455959658594_2_alg».proof.Proof.Spec
import proofs.«143552_j60455959658594_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-! ## What each host stretch leaves in the buffers it writes, from any contents before it -/

section Host
variable (V : Valuation τ sig (Elt Ideal))

theorem hostOps0_v1 :
    (StableHlo.after (hostOps0 (F := Ideal)) V (Proc.devRef .tc main_v1) : S8192x4096.Idx → EReal)
      = fun i => Ideal.sign ((V (Proc.devRef .tc main_arg0) : S8192x4096.Idx → EReal) i) := by
  after_results; rfl

theorem hostOps0_v3 :
    (StableHlo.after (hostOps0 (F := Ideal)) V (Proc.devRef .tc main_v3) : S4096x4096.Idx → EReal)
      = fun i => Ideal.sign ((V (Proc.devRef .tc main_arg1) : S4096x4096.Idx → EReal) i) := by
  after_results; rfl

theorem hostOps0_v5 :
    (StableHlo.after (hostOps0 (F := Ideal)) V (Proc.devRef .tc main_v5) : S4096x4096.Idx → EReal)
      = fun i => Ideal.sign ((V (Proc.devRef .tc main_arg3) : S4096x4096.Idx → EReal) i) := by
  after_results; rfl

theorem hostOps0_v6 (n : Fin 4096) :
    (StableHlo.after (hostOps0 (F := Ideal)) V (Proc.devRef .tc main_v6) : S1x4096.Idx → EReal) (ix2 (0 : Fin 1) n)
      = (V (Proc.devRef .tc main_arg2) : S4096.Idx → EReal) (ix1 n) := by
  after_results
  exact shapeCast_a_1a_apply _ _ (0 : Fin 1) n

theorem hostOps1_v8 (n : Fin 4096) :
    (StableHlo.after (hostOps1 (F := Ideal)) V (Proc.devRef .tc main_v8) : S1x4096.Idx → EReal) (ix2 (0 : Fin 1) n)
      = (V (Proc.devRef .tc main_arg4) : S4096.Idx → EReal) (ix1 n) := by
  after_results
  exact shapeCast_a_1a_apply _ _ (0 : Fin 1) n

theorem hostOps2_1_v10 (n : Fin 1000) (n' : Fin 1024) (hn : n'.val = n.val) (k : Fin 4096) :
    (StableHlo.after (hostOps2_1 (F := Ideal)) V (Proc.devRef .tc main_v10) : S1024x4096.Idx → EReal) (ix2 n' k)
      = (V (Proc.devRef .tc main_arg5) : S1000x4096.Idx → EReal) (ix2 n k) := by
  after_results
  simp only [StableHlo.TRef.toBuf, StableHlo.TRef.ofBuf, cast_eq]
  exact pad_apply_of_inside ![0, 0] ![24, 0] ![0, 0] _ _ pads_S1000x4096_S1024x4096_0240_000 h_S_ (ix2 n' k) (ix2 n k) (fun a => by
    match a with
    | ⟨0, _⟩ => show n'.val = 0 + n.val * (0 + 1); omega
    | ⟨1, _⟩ => show k.val = 0 + k.val * (0 + 1); omega)

theorem hostOps2_2_v11 :
    (StableHlo.after (hostOps2_2 (F := Ideal)) V (Proc.devRef .tc main_v11) : S1024x4096.Idx → EReal)
      = (V (Proc.devRef .tc main_v10) : S1024x4096.Idx → EReal) := by
  after_results; rfl

theorem hostOps2_3_v12 (n : Fin 1000) (n' : Fin 1024) (hn : n'.val = n.val) :
    (StableHlo.after (hostOps2_3 (F := Ideal)) V (Proc.devRef .tc main_v12) : S1024.Idx → EReal) (ix1 n')
      = (V (Proc.devRef .tc main_arg6) : S1000.Idx → EReal) (ix1 n) := by
  after_results
  simp only [StableHlo.TRef.toBuf, StableHlo.TRef.ofBuf, cast_eq]
  exact pad_apply_of_inside ![0] ![24] ![0] _ _ pads_S1000_S1024_0240 h_S_ (ix1 n') (ix1 n) (fun a => by
    match a with
    | ⟨0, _⟩ => show n'.val = 0 + n.val * (0 + 1); omega)

theorem hostOps2_4_v13 (n' : Fin 1024) :
    (StableHlo.after (hostOps2_4 (F := Ideal)) V (Proc.devRef .tc main_v13) : S1x1024.Idx → EReal) (ix2 (0 : Fin 1) n')
      = (V (Proc.devRef .tc main_v12) : S1024.Idx → EReal) (ix1 n') := by
  after_results
  exact shapeCast_a_1a_apply _ _ (0 : Fin 1) n'

theorem hostOps3_v15 (r : Fin 8192) (n : Fin 1000) (n' : Fin 1024) (hn : n'.val = n.val) :
    (StableHlo.after (hostOps3 (F := Ideal)) V (Proc.devRef .tc main_v15) : S8192x1000.Idx → EReal) (ix2 r n)
      = (V (Proc.devRef .tc main_v14) : S8192x1024.Idx → EReal) (ix2 r n') := by
  after_results
  exact slice2_axis1_apply 0 _ _ r n n' (by omega)

end Host

/-! ## A layer of the kernel against a layer of the specification -/

section Math

/-- A binarized layer whose activations are `a`, whose weights are the signs of `w` and whose bias row is `b`
    is the specification's layer over `a`, `w`, `b`. -/
theorem layerSign_eq_act (a : Fin 8192 → Fin 4096 → EReal) (w : Cert.Spec.Sw.Idx → EReal) (b : Cert.Spec.Sb.Idx → EReal)
    (X : S8192x4096.Idx → EReal) (Wt : S4096x4096.Idx → EReal) (Bv : S1x4096.Idx → EReal)
    (hX : ∀ (r : Fin 8192) (k : Fin 4096), X (ix2 r k) = a r k)
    (hW : ∀ (n k : Fin 4096), Wt (ix2 n k) = Ideal.sign (w (ix2 n k)))
    (hB : ∀ n : Fin 4096, Bv (ix2 (0 : Fin 1) n) = b (ix1 n)) (r : Fin 8192) (n : Fin 4096) :
    layerSign X Wt Bv (ix2 r n) = Cert.Spec.act a w b r n := by
  unfold layerSign Cert.Spec.act Cert.Spec.sw
  show Ideal.sign ((∑ k : Fin 4096, X (ix2 r k) * Wt (ix2 n k)) + Bv (ix2 (0 : Fin 1) n)) = _
  rw [hB n]
  refine congrArg (fun z => Ideal.sign (z + b (ix1 n))) ?_
  exact Finset.sum_congr rfl fun k _ => by rw [hX r k, hW n k]

/-- The last layer, read at a column below 1000, is the specification's result: its weights' and bias's rows below
    1000 are the unpadded ones. -/
theorem layerPlain_eq_G (a : Fin 8192 → Fin 4096 → EReal) (w3 : Cert.Spec.Sw3.Idx → EReal) (b3 : Cert.Spec.Sb3.Idx → EReal)
    (X : S8192x4096.Idx → EReal) (Wt : S1024x4096.Idx → EReal) (Bv : S1x1024.Idx → EReal)
    (hX : ∀ (r : Fin 8192) (k : Fin 4096), X (ix2 r k) = a r k)
    (hW : ∀ (n : Fin 1000) (n' : Fin 1024) (k : Fin 4096), n'.val = n.val → Wt (ix2 n' k) = w3 (ix2 n k))
    (hB : ∀ (n : Fin 1000) (n' : Fin 1024), n'.val = n.val → Bv (ix2 (0 : Fin 1) n') = b3 (ix1 n))
    (r : Fin 8192) (n : Fin 1000) (n' : Fin 1024) (hn : n'.val = n.val) :
    layerPlain X Wt Bv (ix2 r n') = (∑ k : Fin 4096, a r k * w3 (ix2 n k)) + b3 (ix1 n) := by
  unfold layerPlain
  show (∑ k : Fin 4096, X (ix2 r k) * Wt (ix2 n' k)) + Bv (ix2 (0 : Fin 1) n') = _
  rw [hB n n' hn]
  refine congrArg (fun z => z + b3 (ix1 n)) ?_
  exact Finset.sum_congr rfl fun k _ => by rw [hX r k, hW n n' k hn]

end Math

/-! ## The chain of buffer contents, walked from the result back to the launch memory -/

section Chain
variable (m : (ℓ : Loc nD τ sig) → Buf (Elt Ideal) ℓ) (c : Dev nD)

/-- The network's seven arrays as launched. -/
abbrev inX : Cert.Spec.Sx.Idx → EReal := m ((c.tc : Thread nD τ).loc main_arg0)
abbrev inW1 : Cert.Spec.Sw.Idx → EReal := m ((c.tc : Thread nD τ).loc main_arg1)
abbrev inB1 : Cert.Spec.Sb.Idx → EReal := m ((c.tc : Thread nD τ).loc main_arg2)
abbrev inW2 : Cert.Spec.Sw.Idx → EReal := m ((c.tc : Thread nD τ).loc main_arg3)
abbrev inB2 : Cert.Spec.Sb.Idx → EReal := m ((c.tc : Thread nD τ).loc main_arg4)
abbrev inW3 : Cert.Spec.Sw3.Idx → EReal := m ((c.tc : Thread nD τ).loc main_arg5)
abbrev inB3 : Cert.Spec.Sb3.Idx → EReal := m ((c.tc : Thread nD τ).loc main_arg6)

/-! ### A stretch leaves alone every buffer it does not write -/

theorem W1_keep (r : Ref sig .tc) (h : r ∉ hostOps0_W) : W1 m c (Proc.devRef .tc r) = W0 m c (Proc.devRef .tc r) :=
  StableHlo.after_of_writes_sub hostOps0 _ hostOps0_writes h
theorem W3_keep (r : Ref sig .tc) (h : r ∉ hostOps1_W) : W3 m c (Proc.devRef .tc r) = W2 m c (Proc.devRef .tc r) :=
  StableHlo.after_of_writes_sub hostOps1 _ hostOps1_writes h
theorem W5_keep (r : Ref sig .tc) (h : r ∉ hostOps2_W) : W5 m c (Proc.devRef .tc r) = W4 m c (Proc.devRef .tc r) :=
  StableHlo.after_of_writes_sub hostOps2 _ hostOps2_writes h
theorem W6_keep (r : Ref sig .tc) (h : r ∉ hostOps2_1_W) : W6 m c (Proc.devRef .tc r) = W5 m c (Proc.devRef .tc r) :=
  StableHlo.after_of_writes_sub hostOps2_1 _ hostOps2_1_writes h
theorem W7_keep (r : Ref sig .tc) (h : r ∉ hostOps2_2_W) : W7 m c (Proc.devRef .tc r) = W6 m c (Proc.devRef .tc r) :=
  StableHlo.after_of_writes_sub hostOps2_2 _ hostOps2_2_writes h
theorem W8_keep (r : Ref sig .tc) (h : r ∉ hostOps2_3_W) : W8 m c (Proc.devRef .tc r) = W7 m c (Proc.devRef .tc r) :=
  StableHlo.after_of_writes_sub hostOps2_3 _ hostOps2_3_writes h
theorem W9_keep (r : Ref sig .tc) (h : r ∉ hostOps2_4_W) : W9 m c (Proc.devRef .tc r) = W8 m c (Proc.devRef .tc r) :=
  StableHlo.after_of_writes_sub hostOps2_4 _ hostOps2_4_writes h

/-- A buffer that the first two stretches do not write and the first two layers do not stage holds, after layer 2,
    what it was launched with. -/
theorem W4_launch (r : Ref sig .tc) (h0 : r ∉ hostOps0_W) (hs0 : ∀ w, Pipeline.arrRef spec0 w ≠ r)
    (h1 : r ∉ hostOps1_W) (hs1 : ∀ w, Pipeline.arrRef spec1 w ≠ r) :
    W4 m c (Proc.devRef .tc r) = W0 m c (Proc.devRef .tc r) :=
  (W4_of_ne m c r hs1).trans <| (W3_keep m c r h1).trans <| (W2_of_ne m c r hs0).trans (W1_keep m c r h0)

/-! ### Layer 1 -/

theorem U1_v1 (r : Fin 8192) (k : Fin 4096) :
    (U1 m c main_v1 : S8192x4096.Idx → EReal) (ix2 r k) = Cert.Spec.sx (inX m c) r k :=
  congrFun (hostOps0_v1 (W0 m c)) (ix2 r k)
theorem U1_v3 (n k : Fin 4096) :
    (U1 m c main_v3 : S4096x4096.Idx → EReal) (ix2 n k) = Ideal.sign (inW1 m c (ix2 n k)) :=
  congrFun (hostOps0_v3 (W0 m c)) (ix2 n k)
theorem U1_v6 (n : Fin 4096) :
    (U1 m c main_v6 : S1x4096.Idx → EReal) (ix2 (0 : Fin 1) n) = inB1 m c (ix1 n) :=
  hostOps0_v6 (W0 m c) n

section L1
variable (h0 : ∀ V : (c : Dev nD) → (b : Ref sig .tc) → Buf (Elt Ideal) ((c : Thread nD τ).loc b), (datR0 (F := Ideal) V c).arrAt 3 cfg0.N = layerSign (V c (Pipeline.arrRef spec0 0)) (V c (Pipeline.arrRef spec0 1)) (V c (Pipeline.arrRef spec0 2)))
include h0

/-- Layer 1's output array is the specification's first hidden layer. -/
theorem W2_v7 (r : Fin 8192) (n : Fin 4096) :
    (W2 m c (Proc.devRef .tc main_v7) : S8192x4096.Idx → EReal) (ix2 r n)
      = Cert.Spec.a1 (inX m c) (inW1 m c) (inB1 m c) r n := by
  have e : (W2 m c (Proc.devRef .tc main_v7) : S8192x4096.Idx → EReal)
      = layerSign (U1 m c main_v1) (U1 m c main_v3) (U1 m c main_v6) := (W2_arr m c 3).trans (h0 (U1 m))
  rw [e]
  exact layerSign_eq_act _ _ _ _ _ _ (U1_v1 m c) (U1_v3 m c) (U1_v6 m c) r n

/-! ### Layer 2 -/

theorem U3_v7 (r : Fin 8192) (k : Fin 4096) :
    (U3 m c main_v7 : S8192x4096.Idx → EReal) (ix2 r k) = Cert.Spec.a1 (inX m c) (inW1 m c) (inB1 m c) r k :=
  (congrFun (W3_keep m c main_v7 (by decide)) (ix2 r k)).trans (W2_v7 m c h0 r k)
end L1

theorem U3_v5 (n k : Fin 4096) :
    (U3 m c main_v5 : S4096x4096.Idx → EReal) (ix2 n k) = Ideal.sign (inW2 m c (ix2 n k)) :=
  (congrFun ((W3_keep m c main_v5 (by decide)).trans (W2_of_ne m c main_v5 (by decide))) (ix2 n k)).trans
    (congrFun (hostOps0_v5 (W0 m c)) (ix2 n k))
theorem U3_v8 (n : Fin 4096) :
    (U3 m c main_v8 : S1x4096.Idx → EReal) (ix2 (0 : Fin 1) n) = inB2 m c (ix1 n) :=
  (hostOps1_v8 (W2 m c) n).trans
    (congrFun ((W2_of_ne m c main_arg4 (by decide)).trans (W1_keep m c main_arg4 (by decide))) (ix1 n))

section L2
variable (h0 : ∀ V : (c : Dev nD) → (b : Ref sig .tc) → Buf (Elt Ideal) ((c : Thread nD τ).loc b), (datR0 (F := Ideal) V c).arrAt 3 cfg0.N = layerSign (V c (Pipeline.arrRef spec0 0)) (V c (Pipeline.arrRef spec0 1)) (V c (Pipeline.arrRef spec0 2)))
  (h1 : ∀ V : (c : Dev nD) → (b : Ref sig .tc) → Buf (Elt Ideal) ((c : Thread nD τ).loc b), (datR1 (F := Ideal) V c).arrAt 3 cfg1.N = layerSign (V c (Pipeline.arrRef spec1 0)) (V c (Pipeline.arrRef spec1 1)) (V c (Pipeline.arrRef spec1 2)))
include h0 h1

/-- Layer 2's output array is the specification's second hidden layer. -/
theorem W4_v9 (r : Fin 8192) (n : Fin 4096) :
    (W4 m c (Proc.devRef .tc main_v9) : S8192x4096.Idx → EReal) (ix2 r n)
      = Cert.Spec.a2 (inX m c) (inW1 m c) (inB1 m c) (inW2 m c) (inB2 m c) r n := by
  have e : (W4 m c (Proc.devRef .tc main_v9) : S8192x4096.Idx → EReal)
      = layerSign (U3 m c main_v7) (U3 m c main_v5) (U3 m c main_v8) := (W4_arr m c 3).trans (h1 (U3 m))
  rw [e]
  exact layerSign_eq_act _ _ _ _ _ _ (U3_v7 m c h0) (U3_v5 m c) (U3_v8 m c) r n

/-! ### Layer 3 -/

theorem U9_v9 (r : Fin 8192) (k : Fin 4096) :
    (U9 m c main_v9 : S8192x4096.Idx → EReal) (ix2 r k)
      = Cert.Spec.a2 (inX m c) (inW1 m c) (inB1 m c) (inW2 m c) (inB2 m c) r k :=
  (congrFun ((W9_keep m c main_v9 (by decide)).trans <| (W8_keep m c main_v9 (by decide)).trans <|
    (W7_keep m c main_v9 (by decide)).trans <| (W6_keep m c main_v9 (by decide)).trans
      (W5_keep m c main_v9 (by decide))) (ix2 r k)).trans (W4_v9 m c h0 h1 r k)
end L2

/-- The padded weights of layer 3, at a row below 1000, are the launched weights. -/
theorem U9_v11 (n : Fin 1000) (n' : Fin 1024) (hn : n'.val = n.val) (k : Fin 4096) :
    (U9 m c main_v11 : S1024x4096.Idx → EReal) (ix2 n' k) = inW3 m c (ix2 n k) :=
  (congrFun ((W9_keep m c main_v11 (by decide)).trans <| (W8_keep m c main_v11 (by decide)).trans
    (hostOps2_2_v11 (W6 m c))) (ix2 n' k)).trans <|
  (hostOps2_1_v10 (W5 m c) n n' hn k).trans
    (congrFun ((W5_keep m c main_arg5 (by decide)).trans
      (W4_launch m c main_arg5 (by decide) (by decide) (by decide) (by decide))) (ix2 n k))

/-- The padded bias row of layer 3, at a column below 1000, is the launched bias. -/
theorem U9_v13 (n : Fin 1000) (n' : Fin 1024) (hn : n'.val = n.val) :
    (U9 m c main_v13 : S1x1024.Idx → EReal) (ix2 (0 : Fin 1) n') = inB3 m c (ix1 n) :=
  (hostOps2_4_v13 (W8 m c) n').trans <| (hostOps2_3_v12 (W7 m c) n n' hn).trans
    (congrFun ((W7_keep m c main_arg6 (by decide)).trans <| (W6_keep m c main_arg6 (by decide)).trans <|
      (W5_keep m c main_arg6 (by decide)).trans
        (W4_launch m c main_arg6 (by decide) (by decide) (by decide) (by decide))) (ix1 n))

end Chain

/-! ## The result -/

theorem result_value (m : (ℓ : Loc nD τ sig) → Buf (Elt Ideal) ℓ) (c : Dev nD)
    (h0 : ∀ V : (c : Dev nD) → (b : Ref sig .tc) → Buf (Elt Ideal) ((c : Thread nD τ).loc b), (datR0 (F := Ideal) V c).arrAt 3 cfg0.N = layerSign (V c (Pipeline.arrRef spec0 0)) (V c (Pipeline.arrRef spec0 1)) (V c (Pipeline.arrRef spec0 2)))
    (h1 : ∀ V : (c : Dev nD) → (b : Ref sig .tc) → Buf (Elt Ideal) ((c : Thread nD τ).loc b), (datR1 (F := Ideal) V c).arrAt 3 cfg1.N = layerSign (V c (Pipeline.arrRef spec1 0)) (V c (Pipeline.arrRef spec1 1)) (V c (Pipeline.arrRef spec1 2)))
    (h2 : ∀ V : (c : Dev nD) → (b : Ref sig .tc) → Buf (Elt Ideal) ((c : Thread nD τ).loc b), (datR2 (F := Ideal) V c).arrAt 3 cfg2.N = layerPlain (V c (Pipeline.arrRef spec2 0)) (V c (Pipeline.arrRef spec2 1)) (V c (Pipeline.arrRef spec2 2))) :
    W11 (F := Ideal) m c (Proc.devRef .tc main_v15)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show (W11 (F := Ideal) m c (Proc.devRef .tc main_v15) : Cert.Spec.So.Idx → EReal) = _
  funext i
  obtain ⟨r, n, rfl⟩ : ∃ (r : Fin 8192) (n : Fin 1000), i = ix2 r n := ⟨i 0, i 1, eq_ix2 i⟩
  have hlt : n.val < 1024 := by have := n.isLt; omega
  refine (hostOps3_v15 (W10 m c) r n ⟨n.val, hlt⟩ rfl).trans ?_
  have e : (W10 m c (Proc.devRef .tc main_v14) : S8192x1024.Idx → EReal)
      = layerPlain (U9 m c main_v9) (U9 m c main_v11) (U9 m c main_v13) := (W10_arr m c 3).trans (h2 (U9 m))
  rw [e]
  exact layerPlain_eq_G _ _ _ _ _ _ (U9_v9 m c h0 h1)
    (fun n n' k hn => U9_v11 m c n n' hn k) (U9_v13 m c) r n ⟨n.val, hlt⟩ rfl

end Cert.KernelIdeal.Hand

end
-- ==== Proof.KI.R0Pieces.lean ====
/-
  Layer 1, one point of the grid: what each case of the body leaves, as arithmetic on the point's blocks.
  The accumulator's one covering store holds the accumulator it loaded plus the product of the activation block
  with the transposed weight block; when k = 0 the accumulator loaded is the zero block stored just before, and
  when k = 7 the output block is the three-valued sign of that new accumulator plus the bias row.
  Every load and store goes through the whole staging buffer (the rectangle at zero offsets of the buffer's own
  extents), so a load reads the contents and the last covering store leaves its payload.
-/
import proofs.«143552_j60455959658594_2_alg».proof.Proof.KI.R0Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a two-axis rectangle, however they are spelt. -/
theorem hzR0 : (![0, 0] : Fin 2 → Nat) = fun _ => 0 := funext fun a => by fin_cases a <;> rfl

/-- k = 0: the accumulator is cleared, read back, and the block product added to it. -/
theorem accFirstR0_eq (c : Dev nD) (t : Fin cfg0.N) (h0 : t.val % 8 = 0) (h7 : ¬t.val % 8 = 7) :
    accFirstR0 V c t h0 h7 = k0_pay2 k0_pay1 (blkR0 V c 0 t) (blkR0 V c 1 t) := by
  unfold accFirstR0
  rw [View.read_writes_eq_canon _ _ _ (accFirstR0_cover V c t h0 h7)]
  unfold runR0_first
  dsimp only
  sl_unfold_words
  rw [View.canon_cons_unit_zero (S := S2048x1024) hzR0, View.readCov_unit_zero (S := S2048x1024) _ hzR0]
  simp only [View.readAt_eq_ld, (hR0_0 t).read_unread, (hR0_1 t).read_unread,
    View.ld_unit_zero (S := S2048x512) hzR0, View.ld_unit_zero (S := S1024x512) hzR0]

/-- 0 < k < 7: the block product is added to what the point before left. -/
theorem accMidR0_eq (c : Dev nD) (t : Fin cfg0.N) (h0 : ¬t.val % 8 = 0) (h7 : ¬t.val % 8 = 7) (acc : Vec F S2048x1024 .f32) :
    accMidR0 V c t h0 h7 acc = k0_pay2 acc (blkR0 V c 0 t) (blkR0 V c 1 t) := by
  unfold accMidR0
  rw [View.read_writes_eq_canon _ _ _ (accMidR0_cover V c t h0 h7 acc)]
  unfold runR0_mid
  dsimp only
  sl_unfold_words
  rw [View.canon_unit_zero (S := S2048x1024) hzR0]
  simp only [View.readAt_eq_ld, (hR0_0 t).read_unread, (hR0_1 t).read_unread,
    (Memref.isWhole_whole cc0_scratch0).read_unread,
    View.ld_unit_zero (S := S2048x512) hzR0, View.ld_unit_zero (S := S1024x512) hzR0,
    View.ld_unit_zero (S := S2048x1024) hzR0]

/-- k = 7, the accumulator: the last block product is added as at every other step. -/
theorem accLastR0_eq (c : Dev nD) (t : Fin cfg0.N) (h0 : ¬t.val % 8 = 0) (h7 : t.val % 8 = 7) (acc : Vec F S2048x1024 .f32) :
    accLastR0 V c t h0 h7 acc = k0_pay2 acc (blkR0 V c 0 t) (blkR0 V c 1 t) := by
  unfold accLastR0
  rw [View.read_writes_eq_canon _ _ _ (accLastR0_cover V c t h0 h7 acc)]
  unfold runR0_last
  dsimp only
  sl_unfold_words
  rw [View.canon_unit_zero (S := S2048x1024) hzR0]
  simp only [View.readAt_eq_ld, (hR0_0 t).read_unread, (hR0_1 t).read_unread,
    (Memref.isWhole_whole cc0_scratch0).read_unread,
    View.ld_unit_zero (S := S2048x512) hzR0, View.ld_unit_zero (S := S1024x512) hzR0,
    View.ld_unit_zero (S := S2048x1024) hzR0]

/-- k = 7, the output block: the new accumulator is read back, the bias row added, the sign taken. -/
theorem outLastR0_eq (c : Dev nD) (t : Fin cfg0.N) (h0 : ¬t.val % 8 = 0) (h7 : t.val % 8 = 7) (acc : Vec F S2048x1024 .f32) :
    outLastR0 V c t h0 h7 acc = k0_pay3 (k0_pay2 acc (blkR0 V c 0 t) (blkR0 V c 1 t)) (blkR0 V c 2 t) := by
  unfold outLastR0
  rw [View.read_writes_eq_canon _ _ _ (outLastR0_cover V c t h0 h7 acc)]
  unfold runR0_last
  dsimp only
  sl_unfold_words
  rw [View.canon_unit_zero (S := S2048x1024) hzR0, View.readCov_unit_zero (S := S2048x1024) _ hzR0]
  simp only [View.readAt_eq_ld, (hR0_0 t).read_unread, (hR0_1 t).read_unread, (hR0_2 t).read_unread,
    (Memref.isWhole_whole cc0_scratch0).read_unread,
    View.ld_unit_zero (S := S2048x512) hzR0, View.ld_unit_zero (S := S1024x512) hzR0,
    View.ld_unit_zero (S := S1x1024) hzR0, View.ld_unit_zero (S := S2048x1024) hzR0]

end Cert.KernelIdeal.Hand

end
-- ==== Proof.KI.R0Blocks.lean ====
/-
  Layer 1: where each window's block sits in its array.  At the point of position t in the grid's order the
  activation block is rows 2048 (t / 32) .. and columns 512 (t % 8) .. of the activations, the weight block rows
  1024 (t / 8 % 4) .. and the same columns of the weights, the bias block columns 1024 (t / 8 % 4) .. of the bias
  row, and the output block rows 2048 (t / 32) .., columns 1024 (t / 8 % 4) .. of the result.
-/
import proofs.«143552_j60455959658594_2_alg».proof.Proof.KI.R0Data
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The block index of each window at a point, from the point's position in the grid's order

A point at position t = 32 i + 8 j + k has row block i = t / 32, column block j = t / 8 % 4 and contraction step
k = t % 8.  Each fact is decided once over the 128 points. -/

theorem idxR0_0 : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
theorem idxR0_1 : ∀ t : Fin cfg0.N, win0_1.index t (0 : Fin 2) = t.val / 8 % 4 ∧ win0_1.index t (1 : Fin 2) = t.val % 8 :=
  (by decide +kernel : ∀ t : Fin grid0.N, win0_1.index t (0 : Fin 2) = t.val / 8 % 4 ∧ win0_1.index t (1 : Fin 2) = t.val % 8)
theorem idxR0_2 : ∀ t : Fin cfg0.N, win0_2.index t (0 : Fin 2) = 0 ∧ win0_2.index t (1 : Fin 2) = t.val / 8 % 4 :=
  (by decide +kernel : ∀ t : Fin grid0.N, win0_2.index t (0 : Fin 2) = 0 ∧ win0_2.index t (1 : Fin 2) = t.val / 8 % 4)
theorem idxR0_3 : ∀ t : Fin cfg0.N, win0_3.index t (0 : Fin 2) = t.val / 32 ∧ win0_3.index t (1 : Fin 2) = t.val / 8 % 4 :=
  (by decide +kernel : ∀ t : Fin grid0.N, win0_3.index t (0 : Fin 2) = t.val / 32 ∧ win0_3.index t (1 : Fin 2) = t.val / 8 % 4)

/-! ## The blocks as parts of their arrays

An element of a window's block sits in the array, on each axis, at the block index times the block's extent plus
its own coordinate. -/

/-- The activation block: rows 2048 i .., columns 512 k .. of the activations. -/
theorem blkR0_0_apply (c : Dev nD) (t : Fin cfg0.N) (y : S2048x512.Idx) (k : S8192x4096.Idx)
    (hk0 : (k 0).val = 2048 * (t.val / 32) + (y 0).val) (hk1 : (k 1).val = 512 * (t.val % 8) + (y 1).val) :
    (blkR0 V c 0 t : Vec F S2048x512 .bf16) y = (V c (Pipeline.arrRef spec0 0) : Vec F S8192x4096 .bf16) k := by
  unfold blkR0
  rw [View.read_apply]
  show V c (Pipeline.arrRef spec0 0) _ = V c (Pipeline.arrRef spec0 0) _
  congr 1
  funext a
  apply Fin.ext
  match a with
  | ⟨0, _⟩ => show win0_0.index t 0 * 2048 + 1 * (y 0).val = (k 0).val; rw [(idxR0_0 t).1, hk0]; omega
  | ⟨1, _⟩ => show win0_0.index t 1 * 512 + 1 * (y 1).val = (k 1).val; rw [(idxR0_0 t).2, hk1]; omega

/-- The weight block: rows 1024 j .., columns 512 k .. of the weights. -/
theorem blkR0_1_apply (c : Dev nD) (t : Fin cfg0.N) (y : S1024x512.Idx) (k : S4096x4096.Idx)
    (hk0 : (k 0).val = 1024 * (t.val / 8 % 4) + (y 0).val) (hk1 : (k 1).val = 512 * (t.val % 8) + (y 1).val) :
    (blkR0 V c 1 t : Vec F S1024x512 .bf16) y = (V c (Pipeline.arrRef spec0 1) : Vec F S4096x4096 .bf16) k := by
  unfold blkR0
  rw [View.read_apply]
  show V c (Pipeline.arrRef spec0 1) _ = V c (Pipeline.arrRef spec0 1) _
  congr 1
  funext a
  apply Fin.ext
  match a with
  | ⟨0, _⟩ => show win0_1.index t 0 * 1024 + 1 * (y 0).val = (k 0).val; rw [(idxR0_1 t).1, hk0]; omega
  | ⟨1, _⟩ => show win0_1.index t 1 * 512 + 1 * (y 1).val = (k 1).val; rw [(idxR0_1 t).2, hk1]; omega

/-- The bias block: columns 1024 j .. of the bias row. -/
theorem blkR0_2_apply (c : Dev nD) (t : Fin cfg0.N) (y : S1x1024.Idx) (k : S1x4096.Idx)
    (hk0 : (k 0).val = (y 0).val) (hk1 : (k 1).val = 1024 * (t.val / 8 % 4) + (y 1).val) :
    (blkR0 V c 2 t : Vec F S1x1024 .f32) y = (V c (Pipeline.arrRef spec0 2) : Vec F S1x4096 .f32) k := by
  unfold blkR0
  rw [View.read_apply]
  show V c (Pipeline.arrRef spec0 2) _ = V c (Pipeline.arrRef spec0 2) _
  congr 1
  funext a
  apply Fin.ext
  match a with
  | ⟨0, _⟩ => show win0_2.index t 0 * 1 + 1 * (y 0).val = (k 0).val; rw [(idxR0_2 t).1, hk0]; omega
  | ⟨1, _⟩ => show win0_2.index t 1 * 1024 + 1 * (y 1).val = (k 1).val; rw [(idxR0_2 t).2, hk1]; omega

end Cert.KernelIdeal.Hand

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.KI.Payloads.lean ====
/-
  The values the three kernels store, read at one element on the extended reals.

  Each kernel keeps a float accumulator block.  Its three stores write, in turn: the zero block; the accumulator
  plus the product of a block of activations with the TRANSPOSE of a block of weights (both operands are
  contracted along their last axis, so element (p, q) gains the sum over k of a(p, k) * w(q, k)); and, at the
  last step of the reduction, the accumulator plus the bias row, the row being repeated down the rows.  The two
  binarized layers then take the three-valued sign of that sum; the last layer stores the sum itself.

  The sign is spelt by the kernels as a choice between three values: where |v| > 0 the value is -1 or 1
  according as v < 0 or not, and elsewhere it is v itself (which is then 0).  On the extended reals this is the
  sign function: -1 at minus infinity and at the negative reals, 0 at 0, 1 at the positive reals and at plus
  infinity.  Same-shape reshapes are identities, and a change of float format does not move an extended real.
-/
import proofs.«143552_j60455959658594_2_alg».proof.Proof.Gen.KernelIdeal.Skeleton
import proofs.«143552_j60455959658594_2_alg».proof.Proof.LibMatmulNT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## The two words and the three-valued sign -/

/-- The word `0x3F800000` is the real number 1. -/
theorem w_one : Ideal.ofBits .f32 0x3F800000#32 = 1 := IdealRules.sign_bit.ideal_onePat .f32
/-- The word `0xBF800000` is the real number -1. -/
theorem w_negone : Ideal.ofBits .f32 0xBF800000#32 = -1 := IdealRules.sign_bit.ideal_negOnePat .f32

/-- The sign function vanishes at 0. -/
theorem sign_zero' : Ideal.sign (0 : EReal) = 0 := by
  show Ideal.sign ((0 : ℝ) : EReal) = 0
  rw [Ideal.sign_coe, sign_zero]
  simp

/-- The kernels' spelling of the sign: where `|v| > 0`, -1 below zero and 1 otherwise; elsewhere `v` itself.
    With `|v| = max v (-v)` this is the sign function at every extended real. -/
theorem ksign (v : EReal) :
    Scalar.select (Ideal.cmp .ogt (max v (-v)) 0) (Scalar.select (Ideal.cmp .olt v 0) (-1) 1) v = Ideal.sign v := by
  induction v using EReal.rec with
  | bot => simp [Scalar.select, Ideal.cmp]
  | top => simp [Scalar.select, Ideal.cmp]
  | coe r =>
    rcases lt_trichotomy r 0 with h | h | h
    · -- a negative real: its absolute value -r is positive, and the inner choice is -1
      have h2 : ((r : ℝ) : EReal) < 0 := by exact_mod_cast h
      have h1 : (0 : EReal) < max ((r : ℝ) : EReal) (-((r : ℝ) : EReal)) :=
        lt_max_of_lt_right (by rw [← EReal.coe_neg]; exact_mod_cast neg_pos.mpr h)
      simp [Scalar.select, Ideal.cmp, h1, h2, sign_neg h]
    · -- zero: its absolute value is not positive, so the value is kept, and the sign of 0 is 0
      subst h
      simp [Scalar.select, Ideal.cmp, sign_zero']
    · -- a positive real: its absolute value is positive, and the inner choice is 1
      have h2 : ¬ ((r : ℝ) : EReal) < 0 := not_lt.mpr (by exact_mod_cast h.le)
      have h1 : (0 : EReal) < max ((r : ℝ) : EReal) (-((r : ℝ) : EReal)) :=
        lt_max_of_lt_left (by exact_mod_cast h)
      simp [Scalar.select, Ideal.cmp, h1, h2, sign_pos h]

/-- The same at one element of a block of any shape, with the words read and the narrowing to the stored
    format dropped (it does not move an extended real). -/
theorem sign_chain_apply {s : Shape} (x : FVec Ideal s .f32) (h : FTy.bits .bf16 < FTy.bits .f32) (i : s.Idx) :
    (truncf .bf16 (select (cmpf .ogt (absf x) (broadcast s (Scalar.ofBits .f32 0x00000000#32 : Ideal .f32)))
        (select (cmpf .olt x (constant (F := Ideal) s .f32 0x00000000#32)) (constant (F := Ideal) s .f32 0xBF800000#32)
          (constant (F := Ideal) s .f32 0x3F800000#32)) x) h : FVec Ideal s .bf16) i
      = Ideal.sign (x i) := by
  show Scalar.select (Ideal.cmp .ogt (max (x i) (-(x i))) (Ideal.ofBits .f32 0x00000000#32))
        (Scalar.select (Ideal.cmp .olt (x i) (Ideal.ofBits .f32 0x00000000#32)) (Ideal.ofBits .f32 0xBF800000#32)
          (Ideal.ofBits .f32 0x3F800000#32)) (x i) = _
  rw [Ideal.ofBits_zero_f32, w_one, w_negone]
  exact ksign (x i)

/-! ## Kernel 0: a binarized layer on a 2048 x 1024 accumulator block -/

/-- Clearing the accumulator stores 0 everywhere. -/
theorem pay1_0 (p : Fin 2048) (q : Fin 1024) : k0_pay1 (F := Ideal) (ix2 p q) = 0 := by
  unfold k0_pay1
  rw [shapeCast_self]
  exact Ideal.ofBits_zero_f32

/-- One reduction step adds, at (p, q), the product of row p of the activations with row q of the weights. -/
theorem pay2_0 (acc : FVec Ideal S2048x1024 .f32) (a : FVec Ideal S2048x512 .bf16) (w : FVec Ideal S1024x512 .bf16)
    (p : Fin 2048) (q : Fin 1024) :
    k0_pay2 (F := Ideal) acc a w (ix2 p q) = acc (ix2 p q) + ∑ k : Fin 512, a (ix2 p k) * w (ix2 q k) := by
  unfold k0_pay2
  simp only [shapeCast_self]
  rw [addf_apply]
  exact congrArg (acc (ix2 p q) + ·)
    (Cert.LibMatmulNT.matmul_nt_apply (M := 2048) (N := 1024) (K := 512)
      dot_S2048x512_S1024x512_S2048x1024_1_1_0_0_n_n rfl rfl rfl rfl rfl rfl none a w p q)

/-- The last step stores the sign of the accumulator plus the bias of column q. -/
theorem pay3_0 (acc : FVec Ideal S2048x1024 .f32) (b : FVec Ideal S1x1024 .f32) (p : Fin 2048) (q : Fin 1024) :
    k0_pay3 (F := Ideal) acc b (ix2 p q) = Ideal.sign (acc (ix2 p q) + b (ix2 (0 : Fin 1) q)) := by
  unfold k0_pay3
  rw [shapeCast_self]
  refine (sign_chain_apply _ _ _).trans ?_
  rw [addf_apply]
  exact congrArg (fun t => Ideal.sign (acc (ix2 p q) + t)) (broadcastTo_1b_ab_apply b _ p q)

/-! ## Kernel 1: a binarized layer on a 2048 x 1024 accumulator block -/

/-- Clearing the accumulator stores 0 everywhere. -/
theorem pay1_1 (p : Fin 2048) (q : Fin 1024) : k1_pay1 (F := Ideal) (ix2 p q) = 0 := by
  unfold k1_pay1
  rw [shapeCast_self]
  exact Ideal.ofBits_zero_f32

/-- One reduction step adds, at (p, q), the product of row p of the activations with row q of the weights. -/
theorem pay2_1 (acc : FVec Ideal S2048x1024 .f32) (a : FVec Ideal S2048x512 .bf16) (w : FVec Ideal S1024x512 .bf16)
    (p : Fin 2048) (q : Fin 1024) :
    k1_pay2 (F := Ideal) acc a w (ix2 p q) = acc (ix2 p q) + ∑ k : Fin 512, a (ix2 p k) * w (ix2 q k) := by
  unfold k1_pay2
  simp only [shapeCast_self]
  rw [addf_apply]
  exact congrArg (acc (ix2 p q) + ·)
    (Cert.LibMatmulNT.matmul_nt_apply (M := 2048) (N := 1024) (K := 512)
      dot_S2048x512_S1024x512_S2048x1024_1_1_0_0_n_n rfl rfl rfl rfl rfl rfl none a w p q)

/-- The last step stores the sign of the accumulator plus the bias of column q. -/
theorem pay3_1 (acc : FVec Ideal S2048x1024 .f32) (b : FVec Ideal S1x1024 .f32) (p : Fin 2048) (q : Fin 1024) :
    k1_pay3 (F := Ideal) acc b (ix2 p q) = Ideal.sign (acc (ix2 p q) + b (ix2 (0 : Fin 1) q)) := by
  unfold k1_pay3
  rw [shapeCast_self]
  refine (sign_chain_apply _ _ _).trans ?_
  rw [addf_apply]
  exact congrArg (fun t => Ideal.sign (acc (ix2 p q) + t)) (broadcastTo_1b_ab_apply b _ p q)

/-! ## Kernel 2: the plain last layer on a 1024 x 1024 accumulator block -/

/-- Clearing the accumulator stores 0 everywhere. -/
theorem pay1_2 (p q : Fin 1024) : k2_pay1 (F := Ideal) (ix2 p q) = 0 := by
  unfold k2_pay1
  rw [shapeCast_self]
  exact Ideal.ofBits_zero_f32

/-- One reduction step adds, at (p, q), the product of row p of the activations with row q of the weights. -/
theorem pay2_2 (acc : FVec Ideal S1024x1024 .f32) (a w : FVec Ideal S1024x512 .bf16) (p q : Fin 1024) :
    k2_pay2 (F := Ideal) acc a w (ix2 p q) = acc (ix2 p q) + ∑ k : Fin 512, a (ix2 p k) * w (ix2 q k) := by
  unfold k2_pay2
  simp only [shapeCast_self]
  rw [addf_apply]
  exact congrArg (acc (ix2 p q) + ·)
    (Cert.LibMatmulNT.matmul_nt_apply (M := 1024) (N := 1024) (K := 512)
      dot_S1024x512_S1024x512_S1024x1024_1_1_0_0_n_n rfl rfl rfl rfl rfl rfl none a w p q)

/-- The last step stores the accumulator plus the bias of column q, with no sign taken. -/
theorem pay3_2 (acc : FVec Ideal S1024x1024 .f32) (b : FVec Ideal S1x1024 .f32) (p q : Fin 1024) :
    k2_pay3 (F := Ideal) acc b (ix2 p q) = acc (ix2 p q) + b (ix2 (0 : Fin 1) q) := by
  unfold k2_pay3
  rw [shapeCast_self, addf_apply]
  exact congrArg (acc (ix2 p q) + ·) (broadcastTo_1b_ab_apply b _ p q)

end Cert.KernelIdeal.Pay

end
-- ==== Proof.KI.R0Accum.lean ====
/-
  Layer 1 on the extended reals: what the accumulator holds after each point of the grid.
  A point at position t = 32 i + 8 j + k adds, to the entry (p, q) of the accumulator block, the product of row
  2048 i + p of the activations with row 1024 j + q of the weights over the 512 columns 512 k ..; the accumulator
  starts from zero at k = 0.  So after the point it holds the sum of the contributions of contraction blocks
  0 .. k (by induction on the position; addition of extended reals needs no finiteness here: the sums are only
  ever extended by one more term on the right), and at k = 7 the eight contributions together are the whole
  contraction over the 4096 columns.
-/
import proofs.«143552_j60455959658594_2_alg».proof.Proof.KI.R0Pieces
import proofs.«143552_j60455959658594_2_alg».proof.Proof.KI.R0Blocks
import proofs.«143552_j60455959658594_2_alg».proof.Proof.KI.Payloads
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## Sums over the contraction axis, block by block -/

/-- A sum over m n consecutive naturals is the sum over the m blocks of the n-term block sums. -/
theorem sumBlocksR0 (m n : ℕ) (g : ℕ → EReal) :
    ∑ k : Fin (m * n), g k.val = ∑ a : Fin m, ∑ b : Fin n, g (n * a.val + b.val) := by
  rw [← Equiv.sum_comp finProdFinEquiv (fun k : Fin (m * n) => g k.val), Fintype.sum_prod_type]
  refine Finset.sum_congr rfl fun a _ => Finset.sum_congr rfl fun b _ => ?_
  show g (b.val + n * a.val) = g (n * a.val + b.val)
  rw [Nat.add_comm]

/-- A two-axis array read at natural coordinates (0 outside the array: never consulted). -/
def natAtR0 {A B : ℕ} (X : (⟨2, ![A, B]⟩ : Shape).Idx → EReal) (r n : ℕ) : EReal :=
  if h : r < A ∧ n < B then X (ix2 ⟨r, h.1⟩ ⟨n, h.2⟩) else 0

theorem natAtR0_eq {A B : ℕ} (X : (⟨2, ![A, B]⟩ : Shape).Idx → EReal) (a : Fin A) (b : Fin B) :
    natAtR0 X a.val b.val = X (ix2 a b) := by
  unfold natAtR0; rw [dif_pos ⟨a.isLt, b.isLt⟩]

/-- What contraction block kb (512 columns) adds to the entry at row r of the activations and row n of the weights. -/
def termR0 (X : S8192x4096.Idx → EReal) (W : S4096x4096.Idx → EReal) (r n kb : ℕ) : EReal :=
  ∑ kk : Fin 512, natAtR0 X r (512 * kb + kk.val) * natAtR0 W n (512 * kb + kk.val)

/-- The eight block contributions together are the whole contraction over 4096 columns. -/
theorem regroupR0 (X : S8192x4096.Idx → EReal) (W : S4096x4096.Idx → EReal) (a : Fin 8192) (b : Fin 4096) :
    ∑ kb ∈ Finset.range 8, termR0 X W a.val b.val kb = ∑ k : Fin 4096, X (ix2 a k) * W (ix2 b k) := by
  rw [Finset.sum_range]
  unfold termR0
  have key : ∀ k : Fin 4096, X (ix2 a k) * W (ix2 b k) = natAtR0 X a.val k.val * natAtR0 W b.val k.val := fun k => by
    rw [natAtR0_eq, natAtR0_eq]
  rw [Finset.sum_congr rfl fun k _ => key k]
  exact (sumBlocksR0 8 512 fun j => natAtR0 X a.val j * natAtR0 W b.val j).symm

/-! ## The three arrays the region reads -/

abbrev xR0 (c : Dev nD) : S8192x4096.Idx → EReal := V c (Pipeline.arrRef spec0 0)
abbrev wR0 (c : Dev nD) : S4096x4096.Idx → EReal := V c (Pipeline.arrRef spec0 1)
abbrev bR0 (c : Dev nD) : S1x4096.Idx → EReal := V c (Pipeline.arrRef spec0 2)

theorem ltR0 (t : Fin cfg0.N) : t.val < 128 := lt_of_lt_of_eq t.isLt N_0

/-- An element of the activation block, as an element of the activations. -/
theorem blkR0_0_nat (c : Dev nD) (t : Fin cfg0.N) (p : Fin 2048) (kk : Fin 512) :
    (blkR0 V c 0 t : Vec Ideal S2048x512 .bf16) (ix2 p kk) = natAtR0 (xR0 V c) (2048 * (t.val / 32) + p.val) (512 * (t.val % 8) + kk.val) := by
  have ht := ltR0 t
  have hp := p.isLt
  have hk := kk.isLt
  unfold natAtR0
  rw [dif_pos ⟨by omega, by omega⟩]
  exact blkR0_0_apply V c t (ix2 p kk) _ rfl rfl

/-- An element of the weight block, as an element of the weights. -/
theorem blkR0_1_nat (c : Dev nD) (t : Fin cfg0.N) (q : Fin 1024) (kk : Fin 512) :
    (blkR0 V c 1 t : Vec Ideal S1024x512 .bf16) (ix2 q kk) = natAtR0 (wR0 V c) (1024 * (t.val / 8 % 4) + q.val) (512 * (t.val % 8) + kk.val) := by
  have ht := ltR0 t
  have hq := q.isLt
  have hk := kk.isLt
  unfold natAtR0
  rw [dif_pos ⟨by omega, by omega⟩]
  exact blkR0_1_apply V c t (ix2 q kk) _ rfl rfl

/-! ## One step of the accumulation -/

/-- The components of an equation between a pair and a pair of named parts. -/
theorem sndR0_of_eq {α β : Type} {s : α × β} {a : α} {b : β} (e : s = (a, b)) : s.2 = b := by rw [e]
theorem fstR0_of_eq {α β : Type} {s : α × β} {a : α} {b : β} (e : s = (a, b)) : s.1 = a := by rw [e]

/-- A step adds the point's block contribution to the entry. -/
theorem stepR0 (c : Dev nD) (t : Fin cfg0.N) (acc : FVec Ideal S2048x1024 .f32) (p : Fin 2048) (q : Fin 1024) :
    k0_pay2 (F := Ideal) acc (blkR0 V c 0 t) (blkR0 V c 1 t) (ix2 p q)
      = acc (ix2 p q) + termR0 (xR0 V c) (wR0 V c) (2048 * (t.val / 32) + p.val) (1024 * (t.val / 8 % 4) + q.val) (t.val % 8) := by
  refine (Pay.pay2_0 acc (blkR0 V c 0 t) (blkR0 V c 1 t) p q).trans ?_
  unfold termR0
  exact congrArg (acc (ix2 p q) + ·) (Finset.sum_congr rfl fun kk _ => by rw [blkR0_0_nat V c t p kk, blkR0_1_nat V c t q kk])

/-- At k = 0 the accumulator starts from the block contribution alone. -/
theorem accR0_first (c : Dev nD) (t : Fin cfg0.N) (h0 : t.val % 8 = 0) (p : Fin 2048) (q : Fin 1024) :
    (stateR0 V c t.val t.isLt).2 (ix2 p q)
      = termR0 (xR0 V c) (wR0 V c) (2048 * (t.val / 32) + p.val) (1024 * (t.val / 8 % 4) + q.val) (t.val % 8) := by
  have h7 : ¬t.val % 8 = 7 := by omega
  rw [sndR0_of_eq (stateR0_first V c t h0 h7), accFirstR0_eq]
  refine (stepR0 V c t k0_pay1 p q).trans ?_
  rw [Pay.pay1_0, zero_add]

/-- At k > 0 the accumulator is what the point before left plus the block contribution. -/
theorem accR0_next (c : Dev nD) (t : Fin cfg0.N) (h0 : ¬t.val % 8 = 0) (p : Fin 2048) (q : Fin 1024) :
    (stateR0 V c t.val t.isLt).2 (ix2 p q)
      = (stateR0 V c (t.val - 1) (Nat.lt_of_le_of_lt (Nat.sub_le _ _) t.isLt)).2 (ix2 p q)
        + termR0 (xR0 V c) (wR0 V c) (2048 * (t.val / 32) + p.val) (1024 * (t.val / 8 % 4) + q.val) (t.val % 8) := by
  by_cases h7 : t.val % 8 = 7
  · rw [sndR0_of_eq (stateR0_last V c t h0 h7), accLastR0_eq]
    exact stepR0 V c t _ p q
  · rw [sndR0_of_eq (stateR0_mid V c t h0 h7), accMidR0_eq]
    exact stepR0 V c t _ p q

/-- After the point at position t the accumulator holds the contributions of contraction blocks 0 .. t % 8:
    by induction on the position. -/
theorem accR0_sum_aux (c : Dev nD) : ∀ (n : ℕ) (t : Fin cfg0.N), t.val = n → ∀ (p : Fin 2048) (q : Fin 1024),
    (stateR0 V c t.val t.isLt).2 (ix2 p q)
      = ∑ kb ∈ Finset.range (t.val % 8 + 1), termR0 (xR0 V c) (wR0 V c) (2048 * (t.val / 32) + p.val) (1024 * (t.val / 8 % 4) + q.val) kb := by
  intro n
  induction n with
  | zero =>
    intro t ht p q
    have h0 : t.val % 8 = 0 := by omega
    rw [accR0_first V c t h0 p q, h0, Finset.sum_range_one]
  | succ m ih =>
    intro t ht p q
    by_cases h0 : t.val % 8 = 0
    · rw [accR0_first V c t h0 p q, h0, Finset.sum_range_one]
    · have hlt : t.val - 1 < cfg0.N := Nat.lt_of_le_of_lt (Nat.sub_le _ _) t.isLt
      have hprev : (stateR0 V c (t.val - 1) hlt).2 (ix2 p q)
          = ∑ kb ∈ Finset.range ((t.val - 1) % 8 + 1), termR0 (xR0 V c) (wR0 V c) (2048 * ((t.val - 1) / 32) + p.val) (1024 * ((t.val - 1) / 8 % 4) + q.val) kb :=
        ih ⟨t.val - 1, hlt⟩ (by show t.val - 1 = m; omega) p q
      have e1 : (t.val - 1) / 32 = t.val / 32 := by omega
      have e2 : (t.val - 1) / 8 % 4 = t.val / 8 % 4 := by omega
      have e3 : (t.val - 1) % 8 + 1 = t.val % 8 := by omega
      rw [e1, e2, e3] at hprev
      rw [accR0_next V c t h0 p q, hprev, Finset.sum_range_succ]

theorem accR0_sum (c : Dev nD) (t : Fin cfg0.N) (p : Fin 2048) (q : Fin 1024) :
    (stateR0 V c t.val t.isLt).2 (ix2 p q)
      = ∑ kb ∈ Finset.range (t.val % 8 + 1), termR0 (xR0 V c) (wR0 V c) (2048 * (t.val / 32) + p.val) (1024 * (t.val / 8 % 4) + q.val) kb :=
  accR0_sum_aux V c t.val t rfl p q

/-! ## The output block at k = 7 -/

/-- At k = 7 the output block is the sign of the new accumulator plus the bias row. -/
theorem outR0_state (c : Dev nD) (t : Fin cfg0.N) (h0 : ¬t.val % 8 = 0) (h7 : t.val % 8 = 7) :
    (stateR0 V c t.val t.isLt).1 = k0_pay3 (stateR0 V c t.val t.isLt).2 (blkR0 V c 2 t) := by
  rw [fstR0_of_eq (stateR0_last V c t h0 h7), sndR0_of_eq (stateR0_last V c t h0 h7), outLastR0_eq, accLastR0_eq]

end Cert.KernelIdeal.Hand

end
-- ==== Proof.KI.R0Value.lean ====
/-
  Layer 1 on the extended reals: the value of its result array after the region.
  The point at position t with t % 8 = 7 writes back the block of rows 2048 (t / 32) .. and columns
  1024 (t / 8 % 4) .. of the result; its entry (p, q) is the sign of the finished accumulator plus the bias of the
  column, that is the binarized layer at (2048 (t / 32) + p, 1024 (t / 8 % 4) + q).  Every index (r, n) of the
  [8192, 4096] result lies in the block of the point 32 (r / 2048) + 8 (n / 1024) + 7, so the array ends holding
  the binarized layer of the three arrays the region reads.
-/
import proofs.«143552_j60455959658594_2_alg».proof.Proof.KI.R0Data
import proofs.«143552_j60455959658594_2_alg».proof.Proof.KI.R0Accum
import proofs.«143552_j60455959658594_2_alg».proof.Proof.KI.Layers
import proofs.«143552_j60455959658594_2_alg».proof.Proof.KI.Payloads
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The output block at k = 7 -/

/-- An element of the output block at k = 7 is the layer's value at the array index it is written to. -/
theorem outR0_apply (c : Dev nD) (t : Fin cfg0.N) (h7 : t.val % 8 = 7) (y : S2048x1024.Idx) (i : S8192x4096.Idx)
    (hi0 : (i 0).val = 2048 * (t.val / 32) + (y 0).val) (hi1 : (i 1).val = 1024 * (t.val / 8 % 4) + (y 1).val) :
    (stateR0 V c t.val t.isLt).1 y = layerSign (xR0 V c) (wR0 V c) (bR0 V c) i := by
  have h0 : ¬t.val % 8 = 0 := by omega
  obtain ⟨p, q, rfl⟩ : ∃ (p : Fin 2048) (q : Fin 1024), y = ix2 p q := ⟨y 0, y 1, eq_ix2 y⟩
  obtain ⟨a, b, rfl⟩ : ∃ (a : Fin 8192) (b : Fin 4096), i = ix2 a b := ⟨i 0, i 1, eq_ix2 i⟩
  have ha : a.val = 2048 * (t.val / 32) + p.val := hi0
  have hb : b.val = 1024 * (t.val / 8 % 4) + q.val := hi1
  rw [outR0_state V c t h0 h7]
  refine (Pay.pay3_0 _ _ p q).trans ?_
  show _ = Ideal.sign ((∑ k : Fin 4096, xR0 V c (ix2 a k) * wR0 V c (ix2 b k)) + bR0 V c (ix2 (0 : Fin 1) b))
  rw [accR0_sum V c t p q, h7, ← ha, ← hb, regroupR0]
  exact congrArg (fun z => Ideal.sign ((∑ k : Fin 4096, xR0 V c (ix2 a k) * wR0 V c (ix2 b k)) + z))
    (blkR0_2_apply V c t (ix2 (0 : Fin 1) q) (ix2 (0 : Fin 1) b) rfl hb)

/-- What a point with k = 7 writes back is the layer's value read through the point's block. -/
theorem flushedR0_eq (c : Dev nD) (t : Fin cfg0.N) (hf : (cfg0.win 3).flush t = true) :
    (datR0 (F := Ideal) V c).flushed 3 t
      = ((cfg0.win 3).blk t).view.read (Elt Ideal) (layerSign (xR0 V c) (wR0 V c) (bR0 V c)) := by
  have h7 : t.val % 8 = 7 := (flush0_3 t).mp hf
  show (cfg0.win 3).cut (grid0.coords t) ((datR0 V c).after 3 t) = _
  rw [afterR0_3]
  funext y
  rw [View.read_apply]
  show (stateR0 V c t.val t.isLt).1 ((cfg0.win 3).xinj (grid0.coords t) y)
    = layerSign (xR0 V c) (wR0 V c) (bR0 V c) (((cfg0.win 3).blk t).view.emb y)
  refine outR0_apply V c t h7 _ _ ?_ ?_
  · show win0_3.index t 0 * 2048 + 1 * (y 0).val = 2048 * (t.val / 32) + (y 0).val
    rw [(idxR0_3 t).1]; omega
  · show win0_3.index t 1 * 1024 + 1 * (y 1).val = 1024 * (t.val / 8 % 4) + (y 1).val
    rw [(idxR0_3 t).2]; omega

/-! ## The whole array -/

/-- Layer 1's result array after the region: the binarized layer of the three arrays the region reads. -/
theorem arrAt_R0_value (V : (c : Dev nD) → (b : Ref sig .tc) → Buf (Elt Ideal) ((c : Thread nD τ).loc b)) (c : Dev nD) :
    (datR0 (F := Ideal) V c).arrAt 3 cfg0.N = layerSign (V c (Pipeline.arrRef spec0 0)) (V c (Pipeline.arrRef spec0 1)) (V c (Pipeline.arrRef spec0 2)) :=
  (datR0 (F := Ideal) V c).arrAt_eq_of_cover 3 (layerSign (xR0 V c) (wR0 V c) (bR0 V c)) (flushedR0_eq V c) fun i => by
    have hr : (i 0 : ℕ) < 8192 := (i 0).isLt
    have hn : (i 1 : ℕ) < 4096 := (i 1).isLt
    obtain ⟨t, ht⟩ : ∃ t : Fin cfg0.N, t.val = 32 * ((i 0 : ℕ) / 2048) + 8 * ((i 1 : ℕ) / 1024) + 7 :=
      ⟨⟨32 * ((i 0 : ℕ) / 2048) + 8 * ((i 1 : ℕ) / 1024) + 7, by rw [show cfg0.N = 128 from N_0]; omega⟩, rfl⟩
    refine ⟨t, (flush0_3 t).mpr (by omega), ?_⟩
    show i ∈ ((View.whole main_v7).slice (win0_3.rect t)).set
    rw [View.set_slice_whole, Rect.mem_set_unit]
    intro a
    match a with
    | ⟨0, _⟩ =>
      show win0_3.index t 0 * 2048 ≤ (i 0 : ℕ) ∧ (i 0 : ℕ) < win0_3.index t 0 * 2048 + 2048
      rw [(idxR0_3 t).1]; omega
    | ⟨1, _⟩ =>
      show win0_3.index t 1 * 1024 ≤ (i 1 : ℕ) ∧ (i 1 : ℕ) < win0_3.index t 1 * 1024 + 1024
      rw [(idxR0_3 t).2]; omega

end Cert.KernelIdeal.Hand

end
-- ==== Proof.KI.R1Pieces.lean ====
/-
  Layer 2, one point of the grid: what each case of the body leaves, as arithmetic on the point's blocks.
  The accumulator's one covering store holds the accumulator it loaded plus the product of the activation block
  with the transposed weight block; when k = 0 the accumulator loaded is the zero block stored just before, and
  when k = 7 the output block is the three-valued sign of that new accumulator plus the bias row.
  Every load and store goes through the whole staging buffer (the rectangle at zero offsets of the buffer's own
  extents), so a load reads the contents and the last covering store leaves its payload.
-/
import proofs.«143552_j60455959658594_2_alg».proof.Proof.KI.R1Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a two-axis rectangle, however they are spelt. -/
theorem hzR1 : (![0, 0] : Fin 2 → Nat) = fun _ => 0 := funext fun a => by fin_cases a <;> rfl

/-- k = 0: the accumulator is cleared, read back, and the block product added to it. -/
theorem accFirstR1_eq (c : Dev nD) (t : Fin cfg1.N) (h0 : t.val % 8 = 0) (h7 : ¬t.val % 8 = 7) :
    accFirstR1 V c t h0 h7 = k1_pay2 k1_pay1 (blkR1 V c 0 t) (blkR1 V c 1 t) := by
  unfold accFirstR1
  rw [View.read_writes_eq_canon _ _ _ (accFirstR1_cover V c t h0 h7)]
  unfold runR1_first
  dsimp only
  sl_unfold_words
  rw [View.canon_cons_unit_zero (S := S2048x1024) hzR1, View.readCov_unit_zero (S := S2048x1024) _ hzR1]
  simp only [View.readAt_eq_ld, (hR1_0 t).read_unread, (hR1_1 t).read_unread,
    View.ld_unit_zero (S := S2048x512) hzR1, View.ld_unit_zero (S := S1024x512) hzR1]

/-- 0 < k < 7: the block product is added to what the point before left. -/
theorem accMidR1_eq (c : Dev nD) (t : Fin cfg1.N) (h0 : ¬t.val % 8 = 0) (h7 : ¬t.val % 8 = 7) (acc : Vec F S2048x1024 .f32) :
    accMidR1 V c t h0 h7 acc = k1_pay2 acc (blkR1 V c 0 t) (blkR1 V c 1 t) := by
  unfold accMidR1
  rw [View.read_writes_eq_canon _ _ _ (accMidR1_cover V c t h0 h7 acc)]
  unfold runR1_mid
  dsimp only
  sl_unfold_words
  rw [View.canon_unit_zero (S := S2048x1024) hzR1]
  simp only [View.readAt_eq_ld, (hR1_0 t).read_unread, (hR1_1 t).read_unread,
    (Memref.isWhole_whole cc1_scratch0).read_unread,
    View.ld_unit_zero (S := S2048x512) hzR1, View.ld_unit_zero (S := S1024x512) hzR1,
    View.ld_unit_zero (S := S2048x1024) hzR1]

/-- k = 7, the accumulator: the last block product is added as at every other step. -/
theorem accLastR1_eq (c : Dev nD) (t : Fin cfg1.N) (h0 : ¬t.val % 8 = 0) (h7 : t.val % 8 = 7) (acc : Vec F S2048x1024 .f32) :
    accLastR1 V c t h0 h7 acc = k1_pay2 acc (blkR1 V c 0 t) (blkR1 V c 1 t) := by
  unfold accLastR1
  rw [View.read_writes_eq_canon _ _ _ (accLastR1_cover V c t h0 h7 acc)]
  unfold runR1_last
  dsimp only
  sl_unfold_words
  rw [View.canon_unit_zero (S := S2048x1024) hzR1]
  simp only [View.readAt_eq_ld, (hR1_0 t).read_unread, (hR1_1 t).read_unread,
    (Memref.isWhole_whole cc1_scratch0).read_unread,
    View.ld_unit_zero (S := S2048x512) hzR1, View.ld_unit_zero (S := S1024x512) hzR1,
    View.ld_unit_zero (S := S2048x1024) hzR1]

/-- k = 7, the output block: the new accumulator is read back, the bias row added, the sign taken. -/
theorem outLastR1_eq (c : Dev nD) (t : Fin cfg1.N) (h0 : ¬t.val % 8 = 0) (h7 : t.val % 8 = 7) (acc : Vec F S2048x1024 .f32) :
    outLastR1 V c t h0 h7 acc = k1_pay3 (k1_pay2 acc (blkR1 V c 0 t) (blkR1 V c 1 t)) (blkR1 V c 2 t) := by
  unfold outLastR1
  rw [View.read_writes_eq_canon _ _ _ (outLastR1_cover V c t h0 h7 acc)]
  unfold runR1_last
  dsimp only
  sl_unfold_words
  rw [View.canon_unit_zero (S := S2048x1024) hzR1, View.readCov_unit_zero (S := S2048x1024) _ hzR1]
  simp only [View.readAt_eq_ld, (hR1_0 t).read_unread, (hR1_1 t).read_unread, (hR1_2 t).read_unread,
    (Memref.isWhole_whole cc1_scratch0).read_unread,
    View.ld_unit_zero (S := S2048x512) hzR1, View.ld_unit_zero (S := S1024x512) hzR1,
    View.ld_unit_zero (S := S1x1024) hzR1, View.ld_unit_zero (S := S2048x1024) hzR1]

end Cert.KernelIdeal.Hand

end
-- ==== Proof.KI.R1Blocks.lean ====
/-
  Layer 2: where each window's block sits in its array.  At the point of position t in the grid's order the
  activation block is rows 2048 (t / 32) .. and columns 512 (t % 8) .. of the activations, the weight block rows
  1024 (t / 8 % 4) .. and the same columns of the weights, the bias block columns 1024 (t / 8 % 4) .. of the bias
  row, and the output block rows 2048 (t / 32) .., columns 1024 (t / 8 % 4) .. of the result.
-/
import proofs.«143552_j60455959658594_2_alg».proof.Proof.KI.R1Data
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The block index of each window at a point, from the point's position in the grid's order

A point at position t = 32 i + 8 j + k has row block i = t / 32, column block j = t / 8 % 4 and contraction step
k = t % 8.  Each fact is decided once over the 128 points. -/

theorem idxR1_0 : ∀ t : Fin cfg1.N, win1_0.index t (0 : Fin 2) = t.val / 32 ∧ win1_0.index t (1 : Fin 2) = t.val % 8 :=
  (by decide +kernel : ∀ t : Fin grid1.N, win1_0.index t (0 : Fin 2) = t.val / 32 ∧ win1_0.index t (1 : Fin 2) = t.val % 8)
theorem idxR1_1 : ∀ t : Fin cfg1.N, win1_1.index t (0 : Fin 2) = t.val / 8 % 4 ∧ win1_1.index t (1 : Fin 2) = t.val % 8 :=
  (by decide +kernel : ∀ t : Fin grid1.N, win1_1.index t (0 : Fin 2) = t.val / 8 % 4 ∧ win1_1.index t (1 : Fin 2) = t.val % 8)
theorem idxR1_2 : ∀ t : Fin cfg1.N, win1_2.index t (0 : Fin 2) = 0 ∧ win1_2.index t (1 : Fin 2) = t.val / 8 % 4 :=
  (by decide +kernel : ∀ t : Fin grid1.N, win1_2.index t (0 : Fin 2) = 0 ∧ win1_2.index t (1 : Fin 2) = t.val / 8 % 4)
theorem idxR1_3 : ∀ t : Fin cfg1.N, win1_3.index t (0 : Fin 2) = t.val / 32 ∧ win1_3.index t (1 : Fin 2) = t.val / 8 % 4 :=
  (by decide +kernel : ∀ t : Fin grid1.N, win1_3.index t (0 : Fin 2) = t.val / 32 ∧ win1_3.index t (1 : Fin 2) = t.val / 8 % 4)

/-! ## The blocks as parts of their arrays

An element of a window's block sits in the array, on each axis, at the block index times the block's extent plus
its own coordinate. -/

/-- The activation block: rows 2048 i .., columns 512 k .. of the activations. -/
theorem blkR1_0_apply (c : Dev nD) (t : Fin cfg1.N) (y : S2048x512.Idx) (k : S8192x4096.Idx)
    (hk0 : (k 0).val = 2048 * (t.val / 32) + (y 0).val) (hk1 : (k 1).val = 512 * (t.val % 8) + (y 1).val) :
    (blkR1 V c 0 t : Vec F S2048x512 .bf16) y = (V c (Pipeline.arrRef spec1 0) : Vec F S8192x4096 .bf16) k := by
  unfold blkR1
  rw [View.read_apply]
  show V c (Pipeline.arrRef spec1 0) _ = V c (Pipeline.arrRef spec1 0) _
  congr 1
  funext a
  apply Fin.ext
  match a with
  | ⟨0, _⟩ => show win1_0.index t 0 * 2048 + 1 * (y 0).val = (k 0).val; rw [(idxR1_0 t).1, hk0]; omega
  | ⟨1, _⟩ => show win1_0.index t 1 * 512 + 1 * (y 1).val = (k 1).val; rw [(idxR1_0 t).2, hk1]; omega

/-- The weight block: rows 1024 j .., columns 512 k .. of the weights. -/
theorem blkR1_1_apply (c : Dev nD) (t : Fin cfg1.N) (y : S1024x512.Idx) (k : S4096x4096.Idx)
    (hk0 : (k 0).val = 1024 * (t.val / 8 % 4) + (y 0).val) (hk1 : (k 1).val = 512 * (t.val % 8) + (y 1).val) :
    (blkR1 V c 1 t : Vec F S1024x512 .bf16) y = (V c (Pipeline.arrRef spec1 1) : Vec F S4096x4096 .bf16) k := by
  unfold blkR1
  rw [View.read_apply]
  show V c (Pipeline.arrRef spec1 1) _ = V c (Pipeline.arrRef spec1 1) _
  congr 1
  funext a
  apply Fin.ext
  match a with
  | ⟨0, _⟩ => show win1_1.index t 0 * 1024 + 1 * (y 0).val = (k 0).val; rw [(idxR1_1 t).1, hk0]; omega
  | ⟨1, _⟩ => show win1_1.index t 1 * 512 + 1 * (y 1).val = (k 1).val; rw [(idxR1_1 t).2, hk1]; omega

/-- The bias block: columns 1024 j .. of the bias row. -/
theorem blkR1_2_apply (c : Dev nD) (t : Fin cfg1.N) (y : S1x1024.Idx) (k : S1x4096.Idx)
    (hk0 : (k 0).val = (y 0).val) (hk1 : (k 1).val = 1024 * (t.val / 8 % 4) + (y 1).val) :
    (blkR1 V c 2 t : Vec F S1x1024 .f32) y = (V c (Pipeline.arrRef spec1 2) : Vec F S1x4096 .f32) k := by
  unfold blkR1
  rw [View.read_apply]
  show V c (Pipeline.arrRef spec1 2) _ = V c (Pipeline.arrRef spec1 2) _
  congr 1
  funext a
  apply Fin.ext
  match a with
  | ⟨0, _⟩ => show win1_2.index t 0 * 1 + 1 * (y 0).val = (k 0).val; rw [(idxR1_2 t).1, hk0]; omega
  | ⟨1, _⟩ => show win1_2.index t 1 * 1024 + 1 * (y 1).val = (k 1).val; rw [(idxR1_2 t).2, hk1]; omega

end Cert.KernelIdeal.Hand

end
-- ==== Proof.KI.R1Accum.lean ====
/-
  Layer 2 on the extended reals: what the accumulator holds after each point of the grid.
  A point at position t = 32 i + 8 j + k adds, to the entry (p, q) of the accumulator block, the product of row
  2048 i + p of the activations with row 1024 j + q of the weights over the 512 columns 512 k ..; the accumulator
  starts from zero at k = 0.  So after the point it holds the sum of the contributions of contraction blocks
  0 .. k (by induction on the position; addition of extended reals needs no finiteness here: the sums are only
  ever extended by one more term on the right), and at k = 7 the eight contributions together are the whole
  contraction over the 4096 columns.
-/
import proofs.«143552_j60455959658594_2_alg».proof.Proof.KI.R1Pieces
import proofs.«143552_j60455959658594_2_alg».proof.Proof.KI.R1Blocks
import proofs.«143552_j60455959658594_2_alg».proof.Proof.KI.Payloads
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## Sums over the contraction axis, block by block -/

/-- A sum over m n consecutive naturals is the sum over the m blocks of the n-term block sums. -/
theorem sumBlocksR1 (m n : ℕ) (g : ℕ → EReal) :
    ∑ k : Fin (m * n), g k.val = ∑ a : Fin m, ∑ b : Fin n, g (n * a.val + b.val) := by
  rw [← Equiv.sum_comp finProdFinEquiv (fun k : Fin (m * n) => g k.val), Fintype.sum_prod_type]
  refine Finset.sum_congr rfl fun a _ => Finset.sum_congr rfl fun b _ => ?_
  show g (b.val + n * a.val) = g (n * a.val + b.val)
  rw [Nat.add_comm]

/-- A two-axis array read at natural coordinates (0 outside the array: never consulted). -/
def natAtR1 {A B : ℕ} (X : (⟨2, ![A, B]⟩ : Shape).Idx → EReal) (r n : ℕ) : EReal :=
  if h : r < A ∧ n < B then X (ix2 ⟨r, h.1⟩ ⟨n, h.2⟩) else 0

theorem natAtR1_eq {A B : ℕ} (X : (⟨2, ![A, B]⟩ : Shape).Idx → EReal) (a : Fin A) (b : Fin B) :
    natAtR1 X a.val b.val = X (ix2 a b) := by
  unfold natAtR1; rw [dif_pos ⟨a.isLt, b.isLt⟩]

/-- What contraction block kb (512 columns) adds to the entry at row r of the activations and row n of the weights. -/
def termR1 (X : S8192x4096.Idx → EReal) (W : S4096x4096.Idx → EReal) (r n kb : ℕ) : EReal :=
  ∑ kk : Fin 512, natAtR1 X r (512 * kb + kk.val) * natAtR1 W n (512 * kb + kk.val)

/-- The eight block contributions together are the whole contraction over 4096 columns. -/
theorem regroupR1 (X : S8192x4096.Idx → EReal) (W : S4096x4096.Idx → EReal) (a : Fin 8192) (b : Fin 4096) :
    ∑ kb ∈ Finset.range 8, termR1 X W a.val b.val kb = ∑ k : Fin 4096, X (ix2 a k) * W (ix2 b k) := by
  rw [Finset.sum_range]
  unfold termR1
  have key : ∀ k : Fin 4096, X (ix2 a k) * W (ix2 b k) = natAtR1 X a.val k.val * natAtR1 W b.val k.val := fun k => by
    rw [natAtR1_eq, natAtR1_eq]
  rw [Finset.sum_congr rfl fun k _ => key k]
  exact (sumBlocksR1 8 512 fun j => natAtR1 X a.val j * natAtR1 W b.val j).symm

/-! ## The three arrays the region reads -/

abbrev xR1 (c : Dev nD) : S8192x4096.Idx → EReal := V c (Pipeline.arrRef spec1 0)
abbrev wR1 (c : Dev nD) : S4096x4096.Idx → EReal := V c (Pipeline.arrRef spec1 1)
abbrev bR1 (c : Dev nD) : S1x4096.Idx → EReal := V c (Pipeline.arrRef spec1 2)

theorem ltR1 (t : Fin cfg1.N) : t.val < 128 := lt_of_lt_of_eq t.isLt N_1

/-- An element of the activation block, as an element of the activations. -/
theorem blkR1_0_nat (c : Dev nD) (t : Fin cfg1.N) (p : Fin 2048) (kk : Fin 512) :
    (blkR1 V c 0 t : Vec Ideal S2048x512 .bf16) (ix2 p kk) = natAtR1 (xR1 V c) (2048 * (t.val / 32) + p.val) (512 * (t.val % 8) + kk.val) := by
  have ht := ltR1 t
  have hp := p.isLt
  have hk := kk.isLt
  unfold natAtR1
  rw [dif_pos ⟨by omega, by omega⟩]
  exact blkR1_0_apply V c t (ix2 p kk) _ rfl rfl

/-- An element of the weight block, as an element of the weights. -/
theorem blkR1_1_nat (c : Dev nD) (t : Fin cfg1.N) (q : Fin 1024) (kk : Fin 512) :
    (blkR1 V c 1 t : Vec Ideal S1024x512 .bf16) (ix2 q kk) = natAtR1 (wR1 V c) (1024 * (t.val / 8 % 4) + q.val) (512 * (t.val % 8) + kk.val) := by
  have ht := ltR1 t
  have hq := q.isLt
  have hk := kk.isLt
  unfold natAtR1
  rw [dif_pos ⟨by omega, by omega⟩]
  exact blkR1_1_apply V c t (ix2 q kk) _ rfl rfl

/-! ## One step of the accumulation -/

/-- The components of an equation between a pair and a pair of named parts. -/
theorem sndR1_of_eq {α β : Type} {s : α × β} {a : α} {b : β} (e : s = (a, b)) : s.2 = b := by rw [e]
theorem fstR1_of_eq {α β : Type} {s : α × β} {a : α} {b : β} (e : s = (a, b)) : s.1 = a := by rw [e]

/-- A step adds the point's block contribution to the entry. -/
theorem stepR1 (c : Dev nD) (t : Fin cfg1.N) (acc : FVec Ideal S2048x1024 .f32) (p : Fin 2048) (q : Fin 1024) :
    k1_pay2 (F := Ideal) acc (blkR1 V c 0 t) (blkR1 V c 1 t) (ix2 p q)
      = acc (ix2 p q) + termR1 (xR1 V c) (wR1 V c) (2048 * (t.val / 32) + p.val) (1024 * (t.val / 8 % 4) + q.val) (t.val % 8) := by
  refine (Pay.pay2_1 acc (blkR1 V c 0 t) (blkR1 V c 1 t) p q).trans ?_
  unfold termR1
  exact congrArg (acc (ix2 p q) + ·) (Finset.sum_congr rfl fun kk _ => by rw [blkR1_0_nat V c t p kk, blkR1_1_nat V c t q kk])

/-- At k = 0 the accumulator starts from the block contribution alone. -/
theorem accR1_first (c : Dev nD) (t : Fin cfg1.N) (h0 : t.val % 8 = 0) (p : Fin 2048) (q : Fin 1024) :
    (stateR1 V c t.val t.isLt).2 (ix2 p q)
      = termR1 (xR1 V c) (wR1 V c) (2048 * (t.val / 32) + p.val) (1024 * (t.val / 8 % 4) + q.val) (t.val % 8) := by
  have h7 : ¬t.val % 8 = 7 := by omega
  rw [sndR1_of_eq (stateR1_first V c t h0 h7), accFirstR1_eq]
  refine (stepR1 V c t k1_pay1 p q).trans ?_
  rw [Pay.pay1_1, zero_add]

/-- At k > 0 the accumulator is what the point before left plus the block contribution. -/
theorem accR1_next (c : Dev nD) (t : Fin cfg1.N) (h0 : ¬t.val % 8 = 0) (p : Fin 2048) (q : Fin 1024) :
    (stateR1 V c t.val t.isLt).2 (ix2 p q)
      = (stateR1 V c (t.val - 1) (Nat.lt_of_le_of_lt (Nat.sub_le _ _) t.isLt)).2 (ix2 p q)
        + termR1 (xR1 V c) (wR1 V c) (2048 * (t.val / 32) + p.val) (1024 * (t.val / 8 % 4) + q.val) (t.val % 8) := by
  by_cases h7 : t.val % 8 = 7
  · rw [sndR1_of_eq (stateR1_last V c t h0 h7), accLastR1_eq]
    exact stepR1 V c t _ p q
  · rw [sndR1_of_eq (stateR1_mid V c t h0 h7), accMidR1_eq]
    exact stepR1 V c t _ p q

/-- After the point at position t the accumulator holds the contributions of contraction blocks 0 .. t % 8:
    by induction on the position. -/
theorem accR1_sum_aux (c : Dev nD) : ∀ (n : ℕ) (t : Fin cfg1.N), t.val = n → ∀ (p : Fin 2048) (q : Fin 1024),
    (stateR1 V c t.val t.isLt).2 (ix2 p q)
      = ∑ kb ∈ Finset.range (t.val % 8 + 1), termR1 (xR1 V c) (wR1 V c) (2048 * (t.val / 32) + p.val) (1024 * (t.val / 8 % 4) + q.val) kb := by
  intro n
  induction n with
  | zero =>
    intro t ht p q
    have h0 : t.val % 8 = 0 := by omega
    rw [accR1_first V c t h0 p q, h0, Finset.sum_range_one]
  | succ m ih =>
    intro t ht p q
    by_cases h0 : t.val % 8 = 0
    · rw [accR1_first V c t h0 p q, h0, Finset.sum_range_one]
    · have hlt : t.val - 1 < cfg1.N := Nat.lt_of_le_of_lt (Nat.sub_le _ _) t.isLt
      have hprev : (stateR1 V c (t.val - 1) hlt).2 (ix2 p q)
          = ∑ kb ∈ Finset.range ((t.val - 1) % 8 + 1), termR1 (xR1 V c) (wR1 V c) (2048 * ((t.val - 1) / 32) + p.val) (1024 * ((t.val - 1) / 8 % 4) + q.val) kb :=
        ih ⟨t.val - 1, hlt⟩ (by show t.val - 1 = m; omega) p q
      have e1 : (t.val - 1) / 32 = t.val / 32 := by omega
      have e2 : (t.val - 1) / 8 % 4 = t.val / 8 % 4 := by omega
      have e3 : (t.val - 1) % 8 + 1 = t.val % 8 := by omega
      rw [e1, e2, e3] at hprev
      rw [accR1_next V c t h0 p q, hprev, Finset.sum_range_succ]

theorem accR1_sum (c : Dev nD) (t : Fin cfg1.N) (p : Fin 2048) (q : Fin 1024) :
    (stateR1 V c t.val t.isLt).2 (ix2 p q)
      = ∑ kb ∈ Finset.range (t.val % 8 + 1), termR1 (xR1 V c) (wR1 V c) (2048 * (t.val / 32) + p.val) (1024 * (t.val / 8 % 4) + q.val) kb :=
  accR1_sum_aux V c t.val t rfl p q

/-! ## The output block at k = 7 -/

/-- At k = 7 the output block is the sign of the new accumulator plus the bias row. -/
theorem outR1_state (c : Dev nD) (t : Fin cfg1.N) (h0 : ¬t.val % 8 = 0) (h7 : t.val % 8 = 7) :
    (stateR1 V c t.val t.isLt).1 = k1_pay3 (stateR1 V c t.val t.isLt).2 (blkR1 V c 2 t) := by
  rw [fstR1_of_eq (stateR1_last V c t h0 h7), sndR1_of_eq (stateR1_last V c t h0 h7), outLastR1_eq, accLastR1_eq]

end Cert.KernelIdeal.Hand

end
-- ==== Proof.KI.R1Value.lean ====
/-
  Layer 2 on the extended reals: the value of its result array after the region.
  The point at position t with t % 8 = 7 writes back the block of rows 2048 (t / 32) .. and columns
  1024 (t / 8 % 4) .. of the result; its entry (p, q) is the sign of the finished accumulator plus the bias of the
  column, that is the binarized layer at (2048 (t / 32) + p, 1024 (t / 8 % 4) + q).  Every index (r, n) of the
  [8192, 4096] result lies in the block of the point 32 (r / 2048) + 8 (n / 1024) + 7, so the array ends holding
  the binarized layer of the three arrays the region reads.
-/
import proofs.«143552_j60455959658594_2_alg».proof.Proof.KI.R1Data
import proofs.«143552_j60455959658594_2_alg».proof.Proof.KI.R1Accum
import proofs.«143552_j60455959658594_2_alg».proof.Proof.KI.Layers
import proofs.«143552_j60455959658594_2_alg».proof.Proof.KI.Payloads
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The output block at k = 7 -/

/-- An element of the output block at k = 7 is the layer's value at the array index it is written to. -/
theorem outR1_apply (c : Dev nD) (t : Fin cfg1.N) (h7 : t.val % 8 = 7) (y : S2048x1024.Idx) (i : S8192x4096.Idx)
    (hi0 : (i 0).val = 2048 * (t.val / 32) + (y 0).val) (hi1 : (i 1).val = 1024 * (t.val / 8 % 4) + (y 1).val) :
    (stateR1 V c t.val t.isLt).1 y = layerSign (xR1 V c) (wR1 V c) (bR1 V c) i := by
  have h0 : ¬t.val % 8 = 0 := by omega
  obtain ⟨p, q, rfl⟩ : ∃ (p : Fin 2048) (q : Fin 1024), y = ix2 p q := ⟨y 0, y 1, eq_ix2 y⟩
  obtain ⟨a, b, rfl⟩ : ∃ (a : Fin 8192) (b : Fin 4096), i = ix2 a b := ⟨i 0, i 1, eq_ix2 i⟩
  have ha : a.val = 2048 * (t.val / 32) + p.val := hi0
  have hb : b.val = 1024 * (t.val / 8 % 4) + q.val := hi1
  rw [outR1_state V c t h0 h7]
  refine (Pay.pay3_1 _ _ p q).trans ?_
  show _ = Ideal.sign ((∑ k : Fin 4096, xR1 V c (ix2 a k) * wR1 V c (ix2 b k)) + bR1 V c (ix2 (0 : Fin 1) b))
  rw [accR1_sum V c t p q, h7, ← ha, ← hb, regroupR1]
  exact congrArg (fun z => Ideal.sign ((∑ k : Fin 4096, xR1 V c (ix2 a k) * wR1 V c (ix2 b k)) + z))
    (blkR1_2_apply V c t (ix2 (0 : Fin 1) q) (ix2 (0 : Fin 1) b) rfl hb)

/-- What a point with k = 7 writes back is the layer's value read through the point's block. -/
theorem flushedR1_eq (c : Dev nD) (t : Fin cfg1.N) (hf : (cfg1.win 3).flush t = true) :
    (datR1 (F := Ideal) V c).flushed 3 t
      = ((cfg1.win 3).blk t).view.read (Elt Ideal) (layerSign (xR1 V c) (wR1 V c) (bR1 V c)) := by
  have h7 : t.val % 8 = 7 := (flush1_3 t).mp hf
  show (cfg1.win 3).cut (grid1.coords t) ((datR1 V c).after 3 t) = _
  rw [afterR1_3]
  funext y
  rw [View.read_apply]
  show (stateR1 V c t.val t.isLt).1 ((cfg1.win 3).xinj (grid1.coords t) y)
    = layerSign (xR1 V c) (wR1 V c) (bR1 V c) (((cfg1.win 3).blk t).view.emb y)
  refine outR1_apply V c t h7 _ _ ?_ ?_
  · show win1_3.index t 0 * 2048 + 1 * (y 0).val = 2048 * (t.val / 32) + (y 0).val
    rw [(idxR1_3 t).1]; omega
  · show win1_3.index t 1 * 1024 + 1 * (y 1).val = 1024 * (t.val / 8 % 4) + (y 1).val
    rw [(idxR1_3 t).2]; omega

/-! ## The whole array -/

/-- Layer 2's result array after the region: the binarized layer of the three arrays the region reads. -/
theorem arrAt_R1_value (V : (c : Dev nD) → (b : Ref sig .tc) → Buf (Elt Ideal) ((c : Thread nD τ).loc b)) (c : Dev nD) :
    (datR1 (F := Ideal) V c).arrAt 3 cfg1.N = layerSign (V c (Pipeline.arrRef spec1 0)) (V c (Pipeline.arrRef spec1 1)) (V c (Pipeline.arrRef spec1 2)) :=
  (datR1 (F := Ideal) V c).arrAt_eq_of_cover 3 (layerSign (xR1 V c) (wR1 V c) (bR1 V c)) (flushedR1_eq V c) fun i => by
    have hr : (i 0 : ℕ) < 8192 := (i 0).isLt
    have hn : (i 1 : ℕ) < 4096 := (i 1).isLt
    obtain ⟨t, ht⟩ : ∃ t : Fin cfg1.N, t.val = 32 * ((i 0 : ℕ) / 2048) + 8 * ((i 1 : ℕ) / 1024) + 7 :=
      ⟨⟨32 * ((i 0 : ℕ) / 2048) + 8 * ((i 1 : ℕ) / 1024) + 7, by rw [show cfg1.N = 128 from N_1]; omega⟩, rfl⟩
    refine ⟨t, (flush1_3 t).mpr (by omega), ?_⟩
    show i ∈ ((View.whole main_v9).slice (win1_3.rect t)).set
    rw [View.set_slice_whole, Rect.mem_set_unit]
    intro a
    match a with
    | ⟨0, _⟩ =>
      show win1_3.index t 0 * 2048 ≤ (i 0 : ℕ) ∧ (i 0 : ℕ) < win1_3.index t 0 * 2048 + 2048
      rw [(idxR1_3 t).1]; omega
    | ⟨1, _⟩ =>
      show win1_3.index t 1 * 1024 ≤ (i 1 : ℕ) ∧ (i 1 : ℕ) < win1_3.index t 1 * 1024 + 1024
      rw [(idxR1_3 t).2]; omega

end Cert.KernelIdeal.Hand

end
-- ==== Proof.KI.R2Pieces.lean ====
/-
  Layer 3, one point of the grid: what each case of the body leaves, as arithmetic on the point's blocks.
  The accumulator's one covering store holds the accumulator it loaded plus the product of the activation block
  with the transposed weight block; when k = 0 the accumulator loaded is the zero block stored just before, and
  when k = 7 the output block is the three-valued sign of that new accumulator plus the bias row.
  Every load and store goes through the whole staging buffer (the rectangle at zero offsets of the buffer's own
  extents), so a load reads the contents and the last covering store leaves its payload.
-/
import proofs.«143552_j60455959658594_2_alg».proof.Proof.KI.R2Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a two-axis rectangle, however they are spelt. -/
theorem hzR2 : (![0, 0] : Fin 2 → Nat) = fun _ => 0 := funext fun a => by fin_cases a <;> rfl

/-- k = 0: the accumulator is cleared, read back, and the block product added to it. -/
theorem accFirstR2_eq (c : Dev nD) (t : Fin cfg2.N) (h0 : t.val % 8 = 0) (h7 : ¬t.val % 8 = 7) :
    accFirstR2 V c t h0 h7 = k2_pay2 k2_pay1 (blkR2 V c 0 t) (blkR2 V c 1 t) := by
  unfold accFirstR2
  rw [View.read_writes_eq_canon _ _ _ (accFirstR2_cover V c t h0 h7)]
  unfold runR2_first
  dsimp only
  sl_unfold_words
  rw [View.canon_cons_unit_zero (S := S1024x1024) hzR2, View.readCov_unit_zero (S := S1024x1024) _ hzR2]
  simp only [View.readAt_eq_ld, (hR2_0 t).read_unread, (hR2_1 t).read_unread,
    View.ld_unit_zero (S := S1024x512) hzR2, View.ld_unit_zero (S := S1024x512) hzR2]

/-- 0 < k < 7: the block product is added to what the point before left. -/
theorem accMidR2_eq (c : Dev nD) (t : Fin cfg2.N) (h0 : ¬t.val % 8 = 0) (h7 : ¬t.val % 8 = 7) (acc : Vec F S1024x1024 .f32) :
    accMidR2 V c t h0 h7 acc = k2_pay2 acc (blkR2 V c 0 t) (blkR2 V c 1 t) := by
  unfold accMidR2
  rw [View.read_writes_eq_canon _ _ _ (accMidR2_cover V c t h0 h7 acc)]
  unfold runR2_mid
  dsimp only
  sl_unfold_words
  rw [View.canon_unit_zero (S := S1024x1024) hzR2]
  simp only [View.readAt_eq_ld, (hR2_0 t).read_unread, (hR2_1 t).read_unread,
    (Memref.isWhole_whole cc2_scratch0).read_unread,
    View.ld_unit_zero (S := S1024x512) hzR2, View.ld_unit_zero (S := S1024x512) hzR2,
    View.ld_unit_zero (S := S1024x1024) hzR2]

/-- k = 7, the accumulator: the last block product is added as at every other step. -/
theorem accLastR2_eq (c : Dev nD) (t : Fin cfg2.N) (h0 : ¬t.val % 8 = 0) (h7 : t.val % 8 = 7) (acc : Vec F S1024x1024 .f32) :
    accLastR2 V c t h0 h7 acc = k2_pay2 acc (blkR2 V c 0 t) (blkR2 V c 1 t) := by
  unfold accLastR2
  rw [View.read_writes_eq_canon _ _ _ (accLastR2_cover V c t h0 h7 acc)]
  unfold runR2_last
  dsimp only
  sl_unfold_words
  rw [View.canon_unit_zero (S := S1024x1024) hzR2]
  simp only [View.readAt_eq_ld, (hR2_0 t).read_unread, (hR2_1 t).read_unread,
    (Memref.isWhole_whole cc2_scratch0).read_unread,
    View.ld_unit_zero (S := S1024x512) hzR2, View.ld_unit_zero (S := S1024x512) hzR2,
    View.ld_unit_zero (S := S1024x1024) hzR2]

/-- k = 7, the output block: the new accumulator is read back, the bias row added, the sign taken. -/
theorem outLastR2_eq (c : Dev nD) (t : Fin cfg2.N) (h0 : ¬t.val % 8 = 0) (h7 : t.val % 8 = 7) (acc : Vec F S1024x1024 .f32) :
    outLastR2 V c t h0 h7 acc = k2_pay3 (k2_pay2 acc (blkR2 V c 0 t) (blkR2 V c 1 t)) (blkR2 V c 2 t) := by
  unfold outLastR2
  rw [View.read_writes_eq_canon _ _ _ (outLastR2_cover V c t h0 h7 acc)]
  unfold runR2_last
  dsimp only
  sl_unfold_words
  rw [View.canon_unit_zero (S := S1024x1024) hzR2, View.readCov_unit_zero (S := S1024x1024) _ hzR2]
  simp only [View.readAt_eq_ld, (hR2_0 t).read_unread, (hR2_1 t).read_unread, (hR2_2 t).read_unread,
    (Memref.isWhole_whole cc2_scratch0).read_unread,
    View.ld_unit_zero (S := S1024x512) hzR2, View.ld_unit_zero (S := S1024x512) hzR2,
    View.ld_unit_zero (S := S1x1024) hzR2, View.ld_unit_zero (S := S1024x1024) hzR2]

end Cert.KernelIdeal.Hand

end
-- ==== Proof.KI.R2Blocks.lean ====
/-
  Layer 3: where each window's block sits in its array.  At the point of position t = 8 i + k in the grid's order the
  activation block is rows 1024 (t / 8) .. and columns 512 (t % 8) .. of the activations, the weight block all 1024
  rows and the same columns of the padded weights, the bias block the whole bias row, and the output block rows
  1024 (t / 8) .. and all 1024 columns of the padded result.
-/
import proofs.«143552_j60455959658594_2_alg».proof.Proof.KI.R2Data
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The block index of each window at a point, from the point's position in the grid's order

A point at position t = 32 i + 8 j + k has row block i = t / 32, column block j = t / 8 % 4 and contraction step
k = t % 8.  Each fact is decided once over the 64 points. -/

theorem idxR2_0 : ∀ t : Fin cfg2.N, win2_0.index t (0 : Fin 2) = t.val / 8 ∧ win2_0.index t (1 : Fin 2) = t.val % 8 :=
  (by decide +kernel : ∀ t : Fin grid2.N, win2_0.index t (0 : Fin 2) = t.val / 8 ∧ win2_0.index t (1 : Fin 2) = t.val % 8)
theorem idxR2_1 : ∀ t : Fin cfg2.N, win2_1.index t (0 : Fin 2) = 0 ∧ win2_1.index t (1 : Fin 2) = t.val % 8 :=
  (by decide +kernel : ∀ t : Fin grid2.N, win2_1.index t (0 : Fin 2) = 0 ∧ win2_1.index t (1 : Fin 2) = t.val % 8)
theorem idxR2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idxR2_3 : ∀ t : Fin cfg2.N, win2_3.index t (0 : Fin 2) = t.val / 8 ∧ win2_3.index t (1 : Fin 2) = 0 :=
  (by decide +kernel : ∀ t : Fin grid2.N, win2_3.index t (0 : Fin 2) = t.val / 8 ∧ win2_3.index t (1 : Fin 2) = 0)

/-! ## The blocks as parts of their arrays

An element of a window's block sits in the array, on each axis, at the block index times the block's extent plus
its own coordinate. -/

/-- The activation block: rows 1024 i .., columns 512 k .. of the activations. -/
theorem blkR2_0_apply (c : Dev nD) (t : Fin cfg2.N) (y : S1024x512.Idx) (k : S8192x4096.Idx)
    (hk0 : (k 0).val = 1024 * (t.val / 8) + (y 0).val) (hk1 : (k 1).val = 512 * (t.val % 8) + (y 1).val) :
    (blkR2 V c 0 t : Vec F S1024x512 .bf16) y = (V c (Pipeline.arrRef spec2 0) : Vec F S8192x4096 .bf16) k := by
  unfold blkR2
  rw [View.read_apply]
  show V c (Pipeline.arrRef spec2 0) _ = V c (Pipeline.arrRef spec2 0) _
  congr 1
  funext a
  apply Fin.ext
  match a with
  | ⟨0, _⟩ => show win2_0.index t 0 * 1024 + 1 * (y 0).val = (k 0).val; rw [(idxR2_0 t).1, hk0]; omega
  | ⟨1, _⟩ => show win2_0.index t 1 * 512 + 1 * (y 1).val = (k 1).val; rw [(idxR2_0 t).2, hk1]; omega

/-- The weight block: rows 1024 j .., columns 512 k .. of the weights. -/
theorem blkR2_1_apply (c : Dev nD) (t : Fin cfg2.N) (y : S1024x512.Idx) (k : S1024x4096.Idx)
    (hk0 : (k 0).val = 1024 * (0) + (y 0).val) (hk1 : (k 1).val = 512 * (t.val % 8) + (y 1).val) :
    (blkR2 V c 1 t : Vec F S1024x512 .bf16) y = (V c (Pipeline.arrRef spec2 1) : Vec F S1024x4096 .bf16) k := by
  unfold blkR2
  rw [View.read_apply]
  show V c (Pipeline.arrRef spec2 1) _ = V c (Pipeline.arrRef spec2 1) _
  congr 1
  funext a
  apply Fin.ext
  match a with
  | ⟨0, _⟩ => show win2_1.index t 0 * 1024 + 1 * (y 0).val = (k 0).val; rw [(idxR2_1 t).1, hk0]; omega
  | ⟨1, _⟩ => show win2_1.index t 1 * 512 + 1 * (y 1).val = (k 1).val; rw [(idxR2_1 t).2, hk1]; omega

/-- The bias block: columns 1024 j .. of the bias row. -/
theorem blkR2_2_apply (c : Dev nD) (t : Fin cfg2.N) (y : S1x1024.Idx) (k : S1x1024.Idx)
    (hk0 : (k 0).val = (y 0).val) (hk1 : (k 1).val = 1024 * (0) + (y 1).val) :
    (blkR2 V c 2 t : Vec F S1x1024 .f32) y = (V c (Pipeline.arrRef spec2 2) : Vec F S1x1024 .f32) k := by
  unfold blkR2
  rw [View.read_apply]
  show V c (Pipeline.arrRef spec2 2) _ = V c (Pipeline.arrRef spec2 2) _
  congr 1
  funext a
  apply Fin.ext
  match a with
  | ⟨0, _⟩ => show win2_2.index t 0 * 1 + 1 * (y 0).val = (k 0).val; rw [(idxR2_2 t).1, hk0]; omega
  | ⟨1, _⟩ => show win2_2.index t 1 * 1024 + 1 * (y 1).val = (k 1).val; rw [(idxR2_2 t).2, hk1]; omega

end Cert.KernelIdeal.Hand

end
-- ==== Proof.KI.R2Accum.lean ====
/-
  Layer 3 on the extended reals: what the accumulator holds after each point of the grid.
  A point at position t = 32 i + 8 j + k adds, to the entry (p, q) of the accumulator block, the product of row
  1024 i + p of the activations with row 1024 j + q of the weights over the 512 columns 512 k ..; the accumulator
  starts from zero at k = 0.  So after the point it holds the sum of the contributions of contraction blocks
  0 .. k (by induction on the position; addition of extended reals needs no finiteness here: the sums are only
  ever extended by one more term on the right), and at k = 7 the eight contributions together are the whole
  contraction over the 4096 columns.
-/
import proofs.«143552_j60455959658594_2_alg».proof.Proof.KI.R2Pieces
import proofs.«143552_j60455959658594_2_alg».proof.Proof.KI.R2Blocks
import proofs.«143552_j60455959658594_2_alg».proof.Proof.KI.Payloads
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## Sums over the contraction axis, block by block -/

/-- A sum over m n consecutive naturals is the sum over the m blocks of the n-term block sums. -/
theorem sumBlocksR2 (m n : ℕ) (g : ℕ → EReal) :
    ∑ k : Fin (m * n), g k.val = ∑ a : Fin m, ∑ b : Fin n, g (n * a.val + b.val) := by
  rw [← Equiv.sum_comp finProdFinEquiv (fun k : Fin (m * n) => g k.val), Fintype.sum_prod_type]
  refine Finset.sum_congr rfl fun a _ => Finset.sum_congr rfl fun b _ => ?_
  show g (b.val + n * a.val) = g (n * a.val + b.val)
  rw [Nat.add_comm]

/-- A two-axis array read at natural coordinates (0 outside the array: never consulted). -/
def natAtR2 {A B : ℕ} (X : (⟨2, ![A, B]⟩ : Shape).Idx → EReal) (r n : ℕ) : EReal :=
  if h : r < A ∧ n < B then X (ix2 ⟨r, h.1⟩ ⟨n, h.2⟩) else 0

theorem natAtR2_eq {A B : ℕ} (X : (⟨2, ![A, B]⟩ : Shape).Idx → EReal) (a : Fin A) (b : Fin B) :
    natAtR2 X a.val b.val = X (ix2 a b) := by
  unfold natAtR2; rw [dif_pos ⟨a.isLt, b.isLt⟩]

/-- What contraction block kb (512 columns) adds to the entry at row r of the activations and row n of the weights. -/
def termR2 (X : S8192x4096.Idx → EReal) (W : S1024x4096.Idx → EReal) (r n kb : ℕ) : EReal :=
  ∑ kk : Fin 512, natAtR2 X r (512 * kb + kk.val) * natAtR2 W n (512 * kb + kk.val)

/-- The eight block contributions together are the whole contraction over 4096 columns. -/
theorem regroupR2 (X : S8192x4096.Idx → EReal) (W : S1024x4096.Idx → EReal) (a : Fin 8192) (b : Fin 1024) :
    ∑ kb ∈ Finset.range 8, termR2 X W a.val b.val kb = ∑ k : Fin 4096, X (ix2 a k) * W (ix2 b k) := by
  rw [Finset.sum_range]
  unfold termR2
  have key : ∀ k : Fin 4096, X (ix2 a k) * W (ix2 b k) = natAtR2 X a.val k.val * natAtR2 W b.val k.val := fun k => by
    rw [natAtR2_eq, natAtR2_eq]
  rw [Finset.sum_congr rfl fun k _ => key k]
  exact (sumBlocksR2 8 512 fun j => natAtR2 X a.val j * natAtR2 W b.val j).symm

/-! ## The three arrays the region reads -/

abbrev xR2 (c : Dev nD) : S8192x4096.Idx → EReal := V c (Pipeline.arrRef spec2 0)
abbrev wR2 (c : Dev nD) : S1024x4096.Idx → EReal := V c (Pipeline.arrRef spec2 1)
abbrev bR2 (c : Dev nD) : S1x1024.Idx → EReal := V c (Pipeline.arrRef spec2 2)

theorem ltR2 (t : Fin cfg2.N) : t.val < 64 := lt_of_lt_of_eq t.isLt N_2

/-- An element of the activation block, as an element of the activations. -/
theorem blkR2_0_nat (c : Dev nD) (t : Fin cfg2.N) (p : Fin 1024) (kk : Fin 512) :
    (blkR2 V c 0 t : Vec Ideal S1024x512 .bf16) (ix2 p kk) = natAtR2 (xR2 V c) (1024 * (t.val / 8) + p.val) (512 * (t.val % 8) + kk.val) := by
  have ht := ltR2 t
  have hp := p.isLt
  have hk := kk.isLt
  unfold natAtR2
  rw [dif_pos ⟨by omega, by omega⟩]
  exact blkR2_0_apply V c t (ix2 p kk) _ rfl rfl

/-- An element of the weight block, as an element of the weights. -/
theorem blkR2_1_nat (c : Dev nD) (t : Fin cfg2.N) (q : Fin 1024) (kk : Fin 512) :
    (blkR2 V c 1 t : Vec Ideal S1024x512 .bf16) (ix2 q kk) = natAtR2 (wR2 V c) (1024 * (0) + q.val) (512 * (t.val % 8) + kk.val) := by
  have ht := ltR2 t
  have hq := q.isLt
  have hk := kk.isLt
  unfold natAtR2
  rw [dif_pos ⟨by omega, by omega⟩]
  exact blkR2_1_apply V c t (ix2 q kk) _ rfl rfl

/-! ## One step of the accumulation -/

/-- The components of an equation between a pair and a pair of named parts. -/
theorem sndR2_of_eq {α β : Type} {s : α × β} {a : α} {b : β} (e : s = (a, b)) : s.2 = b := by rw [e]
theorem fstR2_of_eq {α β : Type} {s : α × β} {a : α} {b : β} (e : s = (a, b)) : s.1 = a := by rw [e]

/-- A step adds the point's block contribution to the entry. -/
theorem stepR2 (c : Dev nD) (t : Fin cfg2.N) (acc : FVec Ideal S1024x1024 .f32) (p : Fin 1024) (q : Fin 1024) :
    k2_pay2 (F := Ideal) acc (blkR2 V c 0 t) (blkR2 V c 1 t) (ix2 p q)
      = acc (ix2 p q) + termR2 (xR2 V c) (wR2 V c) (1024 * (t.val / 8) + p.val) (1024 * (0) + q.val) (t.val % 8) := by
  refine (Pay.pay2_2 acc (blkR2 V c 0 t) (blkR2 V c 1 t) p q).trans ?_
  unfold termR2
  exact congrArg (acc (ix2 p q) + ·) (Finset.sum_congr rfl fun kk _ => by rw [blkR2_0_nat V c t p kk, blkR2_1_nat V c t q kk])

/-- At k = 0 the accumulator starts from the block contribution alone. -/
theorem accR2_first (c : Dev nD) (t : Fin cfg2.N) (h0 : t.val % 8 = 0) (p : Fin 1024) (q : Fin 1024) :
    (stateR2 V c t.val t.isLt).2 (ix2 p q)
      = termR2 (xR2 V c) (wR2 V c) (1024 * (t.val / 8) + p.val) (1024 * (0) + q.val) (t.val % 8) := by
  have h7 : ¬t.val % 8 = 7 := by omega
  rw [sndR2_of_eq (stateR2_first V c t h0 h7), accFirstR2_eq]
  refine (stepR2 V c t k2_pay1 p q).trans ?_
  rw [Pay.pay1_2, zero_add]

/-- At k > 0 the accumulator is what the point before left plus the block contribution. -/
theorem accR2_next (c : Dev nD) (t : Fin cfg2.N) (h0 : ¬t.val % 8 = 0) (p : Fin 1024) (q : Fin 1024) :
    (stateR2 V c t.val t.isLt).2 (ix2 p q)
      = (stateR2 V c (t.val - 1) (Nat.lt_of_le_of_lt (Nat.sub_le _ _) t.isLt)).2 (ix2 p q)
        + termR2 (xR2 V c) (wR2 V c) (1024 * (t.val / 8) + p.val) (1024 * (0) + q.val) (t.val % 8) := by
  by_cases h7 : t.val % 8 = 7
  · rw [sndR2_of_eq (stateR2_last V c t h0 h7), accLastR2_eq]
    exact stepR2 V c t _ p q
  · rw [sndR2_of_eq (stateR2_mid V c t h0 h7), accMidR2_eq]
    exact stepR2 V c t _ p q

/-- After the point at position t the accumulator holds the contributions of contraction blocks 0 .. t % 8:
    by induction on the position. -/
theorem accR2_sum_aux (c : Dev nD) : ∀ (n : ℕ) (t : Fin cfg2.N), t.val = n → ∀ (p : Fin 1024) (q : Fin 1024),
    (stateR2 V c t.val t.isLt).2 (ix2 p q)
      = ∑ kb ∈ Finset.range (t.val % 8 + 1), termR2 (xR2 V c) (wR2 V c) (1024 * (t.val / 8) + p.val) (1024 * (0) + q.val) kb := by
  intro n
  induction n with
  | zero =>
    intro t ht p q
    have h0 : t.val % 8 = 0 := by omega
    rw [accR2_first V c t h0 p q, h0, Finset.sum_range_one]
  | succ m ih =>
    intro t ht p q
    by_cases h0 : t.val % 8 = 0
    · rw [accR2_first V c t h0 p q, h0, Finset.sum_range_one]
    · have hlt : t.val - 1 < cfg2.N := Nat.lt_of_le_of_lt (Nat.sub_le _ _) t.isLt
      have hprev : (stateR2 V c (t.val - 1) hlt).2 (ix2 p q)
          = ∑ kb ∈ Finset.range ((t.val - 1) % 8 + 1), termR2 (xR2 V c) (wR2 V c) (1024 * ((t.val - 1) / 8) + p.val) (1024 * (0) + q.val) kb :=
        ih ⟨t.val - 1, hlt⟩ (by show t.val - 1 = m; omega) p q
      have e1 : (t.val - 1) / 8 = t.val / 8 := by omega
      have e3 : (t.val - 1) % 8 + 1 = t.val % 8 := by omega
      rw [e1, e3] at hprev
      rw [accR2_next V c t h0 p q, hprev, Finset.sum_range_succ]

theorem accR2_sum (c : Dev nD) (t : Fin cfg2.N) (p : Fin 1024) (q : Fin 1024) :
    (stateR2 V c t.val t.isLt).2 (ix2 p q)
      = ∑ kb ∈ Finset.range (t.val % 8 + 1), termR2 (xR2 V c) (wR2 V c) (1024 * (t.val / 8) + p.val) (1024 * (0) + q.val) kb :=
  accR2_sum_aux V c t.val t rfl p q

/-! ## The output block at k = 7 -/

/-- At k = 7 the output block is the sign of the new accumulator plus the bias row. -/
theorem outR2_state (c : Dev nD) (t : Fin cfg2.N) (h0 : ¬t.val % 8 = 0) (h7 : t.val % 8 = 7) :
    (stateR2 V c t.val t.isLt).1 = k2_pay3 (stateR2 V c t.val t.isLt).2 (blkR2 V c 2 t) := by
  rw [fstR2_of_eq (stateR2_last V c t h0 h7), sndR2_of_eq (stateR2_last V c t h0 h7), outLastR2_eq, accLastR2_eq]

end Cert.KernelIdeal.Hand

end
-- ==== Proof.KI.R2Value.lean ====
/-
  Layer 3 on the extended reals: the value of its result array after the region.
  The point at position t with t % 8 = 7 writes back the block of rows 1024 (t / 8) .. and all 1024 columns of the
  padded result; its entry (p, q) is the finished accumulator plus the bias of the column, that is the plain layer at
  (1024 (t / 8) + p, q).  Every index (r, n) of the [8192, 1024] result lies in the block of the point
  8 (r / 1024) + 7, so the array ends holding the plain layer of the three arrays the region reads.
-/
import proofs.«143552_j60455959658594_2_alg».proof.Proof.KI.R2Data
import proofs.«143552_j60455959658594_2_alg».proof.Proof.KI.R2Accum
import proofs.«143552_j60455959658594_2_alg».proof.Proof.KI.Layers
import proofs.«143552_j60455959658594_2_alg».proof.Proof.KI.Payloads
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The output block at k = 7 -/

/-- An element of the output block at k = 7 is the layer's value at the array index it is written to. -/
theorem outR2_apply (c : Dev nD) (t : Fin cfg2.N) (h7 : t.val % 8 = 7) (y : S1024x1024.Idx) (i : S8192x1024.Idx)
    (hi0 : (i 0).val = 1024 * (t.val / 8) + (y 0).val) (hi1 : (i 1).val = 1024 * (0) + (y 1).val) :
    (stateR2 V c t.val t.isLt).1 y = layerPlain (xR2 V c) (wR2 V c) (bR2 V c) i := by
  have h0 : ¬t.val % 8 = 0 := by omega
  obtain ⟨p, q, rfl⟩ : ∃ (p : Fin 1024) (q : Fin 1024), y = ix2 p q := ⟨y 0, y 1, eq_ix2 y⟩
  obtain ⟨a, b, rfl⟩ : ∃ (a : Fin 8192) (b : Fin 1024), i = ix2 a b := ⟨i 0, i 1, eq_ix2 i⟩
  have ha : a.val = 1024 * (t.val / 8) + p.val := hi0
  have hb : b.val = 1024 * (0) + q.val := hi1
  rw [outR2_state V c t h0 h7]
  refine (Pay.pay3_2 _ _ p q).trans ?_
  show _ = (∑ k : Fin 4096, xR2 V c (ix2 a k) * wR2 V c (ix2 b k)) + bR2 V c (ix2 (0 : Fin 1) b)
  rw [accR2_sum V c t p q, h7, ← ha, ← hb, regroupR2]
  exact congrArg (fun z => (∑ k : Fin 4096, xR2 V c (ix2 a k) * wR2 V c (ix2 b k)) + z)
    (blkR2_2_apply V c t (ix2 (0 : Fin 1) q) (ix2 (0 : Fin 1) b) rfl hb)

/-- What a point with k = 7 writes back is the layer's value read through the point's block. -/
theorem flushedR2_eq (c : Dev nD) (t : Fin cfg2.N) (hf : (cfg2.win 3).flush t = true) :
    (datR2 (F := Ideal) V c).flushed 3 t
      = ((cfg2.win 3).blk t).view.read (Elt Ideal) (layerPlain (xR2 V c) (wR2 V c) (bR2 V c)) := by
  have h7 : t.val % 8 = 7 := (flush2_3 t).mp hf
  show (cfg2.win 3).cut (grid2.coords t) ((datR2 V c).after 3 t) = _
  rw [afterR2_3]
  funext y
  rw [View.read_apply]
  show (stateR2 V c t.val t.isLt).1 ((cfg2.win 3).xinj (grid2.coords t) y)
    = layerPlain (xR2 V c) (wR2 V c) (bR2 V c) (((cfg2.win 3).blk t).view.emb y)
  refine outR2_apply V c t h7 _ _ ?_ ?_
  · show win2_3.index t 0 * 1024 + 1 * (y 0).val = 1024 * (t.val / 8) + (y 0).val
    rw [(idxR2_3 t).1]; omega
  · show win2_3.index t 1 * 1024 + 1 * (y 1).val = 1024 * (0) + (y 1).val
    rw [(idxR2_3 t).2]; omega

/-! ## The whole array -/

/-- Layer 3's result array after the region: the binarized layer of the three arrays the region reads. -/
theorem arrAt_R2_value (V : (c : Dev nD) → (b : Ref sig .tc) → Buf (Elt Ideal) ((c : Thread nD τ).loc b)) (c : Dev nD) :
    (datR2 (F := Ideal) V c).arrAt 3 cfg2.N = layerPlain (V c (Pipeline.arrRef spec2 0)) (V c (Pipeline.arrRef spec2 1)) (V c (Pipeline.arrRef spec2 2)) :=
  (datR2 (F := Ideal) V c).arrAt_eq_of_cover 3 (layerPlain (xR2 V c) (wR2 V c) (bR2 V c)) (flushedR2_eq V c) fun i => by
    have hr : (i 0 : ℕ) < 8192 := (i 0).isLt
    have hn : (i 1 : ℕ) < 1024 := (i 1).isLt
    obtain ⟨t, ht⟩ : ∃ t : Fin cfg2.N, t.val = 8 * ((i 0 : ℕ) / 1024) + 7 :=
      ⟨⟨8 * ((i 0 : ℕ) / 1024) + 7, by rw [show cfg2.N = 64 from N_2]; omega⟩, rfl⟩
    refine ⟨t, (flush2_3 t).mpr (by omega), ?_⟩
    show i ∈ ((View.whole main_v14).slice (win2_3.rect t)).set
    rw [View.set_slice_whole, Rect.mem_set_unit]
    intro a
    match a with
    | ⟨0, _⟩ =>
      show win2_3.index t 0 * 1024 ≤ (i 0 : ℕ) ∧ (i 0 : ℕ) < win2_3.index t 0 * 1024 + 1024
      rw [(idxR2_3 t).1]; omega
    | ⟨1, _⟩ =>
      show win2_3.index t 1 * 1024 ≤ (i 1 : ℕ) ∧ (i 1 : ℕ) < win2_3.index t 1 * 1024 + 1024
      rw [(idxR2_3 t).2]; omega

end Cert.KernelIdeal.Hand

end
-- ==== Proof.KI.Result.lean ====
/-
  The idealized kernel's run with its result named: every execution ends with the result array equal to the
  specification of the network applied to the seven argument arrays as launched, and the arguments unchanged.
  The last buffer contents of the chain are read at the result (the slice of layer 3's padded output, layer 3 over
  layer 2's output, layer 2 over layer 1's, each layer's array being the layer function of the arrays its region read)
  and at the arguments (never written).
-/
import proofs.«143552_j60455959658594_2_alg».proof.Proof.KI.Chain
import proofs.«143552_j60455959658594_2_alg».proof.Proof.KI.Final
import proofs.«143552_j60455959658594_2_alg».proof.Proof.KI.R0Value
import proofs.«143552_j60455959658594_2_alg».proof.Proof.KI.R1Value
import proofs.«143552_j60455959658594_2_alg».proof.Proof.KI.R2Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
          = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c =>
    ⟨(h c _ (mem_uc main_v15 (by decide))).trans
        (result_value m c (fun V => arrAt_R0_value V c) (fun V => arrAt_R1_value V c) (fun V => arrAt_R2_value V c)),
      (h c _ (mem_uc main_arg0 (by decide))).trans (W11_arg0 m c), (h c _ (mem_uc main_arg1 (by decide))).trans (W11_arg1 m c),
      (h c _ (mem_uc main_arg2 (by decide))).trans (W11_arg2 m c), (h c _ (mem_uc main_arg3 (by decide))).trans (W11_arg3 m c),
      (h c _ (mem_uc main_arg4 (by decide))).trans (W11_arg4 m c), (h c _ (mem_uc main_arg5 (by decide))).trans (W11_arg5 m c),
      (h c _ (mem_uc main_arg6 (by decide))).trans (W11_arg6 m c)⟩) (run_all (F := Ideal) m ρ)

end Cert.KernelIdeal.Hand

end
-- ==== Proof.RefIsG.lean ====
/-
  The reference network, read index by index, is the specification `Cert.Spec.G`.

  The reference computes, for a batch row r:
    h1(r, n) = sum_k sign x(r, k) * sign w1(n, k) + b1(n),      a1 = sign h1,
    h2(r, n) = sum_k sign (a1(r, k)) * sign w2(n, k) + b2(n),   a2 = sign h2,
    out(r, n) = sum_k a2(r, k) * w3(n, k) + b3(n).
  Each matrix product is taken against the TRANSPOSE of the (binarized) weight array, so entry (r, n) of a product
  reads row n of the weights; each bias is first laid out as a row [1, N] and then repeated down the batch axis, so
  entry (r, n) of the repeated array is entry n of the bias.  The second layer binarizes a1 once more before the
  product; a1 is already a sign, and the sign of a sign is that sign, so nothing changes.

  The lemmas below read one layer at a time at an index `ix2 r n` with literal-size coordinates, over arbitrary
  argument arrays; the sums stay symbolic throughout.
-/
import proofs.«143552_j60455959658594_2_alg».proof.Proof.Spec
import proofs.«143552_j60455959658594_2_alg».proof.Proof.Gen.ReferenceIdeal.Read

noncomputable section

namespace Cert.RefG

open Cert.ReferenceIdeal Cert.ReferenceIdeal.Read Idealize.ShloMosaic Idealize.ShloMosaic.ValueIdx Idealize.ShloMosaic.TcCoe Idealize.SL.Sem Idealize.ShloMosaic.StableHlo

/-! ## Where each stage reads its operands

Entry (r, n) of a product reads the left operand at (r, k) and the transposed right operand at (k, n), that is the
untransposed one at (n, k); entry (r, n) of a repeated bias reads the bias at n. -/

theorem lidx3 (r : Fin 8192) (n k : Fin 4096) : lidx_main_v3 (ix2 r n) k = ix2 r k :=
  funext fun a => match a with | ⟨0, _⟩ => rfl | ⟨1, _⟩ => rfl
theorem ridx3 (r : Fin 8192) (n k : Fin 4096) : idx_main_v2 (ridx_main_v3 (ix2 r n) k) = ix2 n k :=
  funext fun a => match a with | ⟨0, _⟩ => rfl | ⟨1, _⟩ => rfl
theorem bidx5 (r : Fin 8192) (n : Fin 4096) : idx_main_v4 (idx_main_v5 (ix2 r n)) = ix1 n :=
  funext fun a => match a with | ⟨0, _⟩ => rfl

theorem lidx11 (r : Fin 8192) (n k : Fin 4096) : lidx_main_v11 (ix2 r n) k = ix2 r k :=
  funext fun a => match a with | ⟨0, _⟩ => rfl | ⟨1, _⟩ => rfl
theorem ridx11 (r : Fin 8192) (n k : Fin 4096) : idx_main_v10 (ridx_main_v11 (ix2 r n) k) = ix2 n k :=
  funext fun a => match a with | ⟨0, _⟩ => rfl | ⟨1, _⟩ => rfl
theorem bidx13 (r : Fin 8192) (n : Fin 4096) : idx_main_v12 (idx_main_v13 (ix2 r n)) = ix1 n :=
  funext fun a => match a with | ⟨0, _⟩ => rfl

theorem lidx17 (r : Fin 8192) (n : Fin 1000) (k : Fin 4096) : lidx_main_v17 (ix2 r n) k = ix2 r k :=
  funext fun a => match a with | ⟨0, _⟩ => rfl | ⟨1, _⟩ => rfl
theorem ridx17 (r : Fin 8192) (n : Fin 1000) (k : Fin 4096) : idx_main_v16 (ridx_main_v17 (ix2 r n) k) = ix2 n k :=
  funext fun a => match a with | ⟨0, _⟩ => rfl | ⟨1, _⟩ => rfl
theorem bidx19 (r : Fin 8192) (n : Fin 1000) : idx_main_v18 (idx_main_v19 (ix2 r n)) = ix1 n :=
  funext fun a => match a with | ⟨0, _⟩ => rfl

/-! ## The first layer -/

/-- Before its sign, entry (r, n) of the first layer is the binarized row r of x against the binarized row n of w1,
    plus b1(n). -/
theorem h1_apply (x0 : (⟨S8192x4096, .f32⟩ : BufTy).Contents (Elt Ideal)) (x1 : (⟨S4096x4096, .f32⟩ : BufTy).Contents (Elt Ideal)) (x2 : (⟨S4096, .f32⟩ : BufTy).Contents (Elt Ideal)) (r : Fin 8192) (n : Fin 4096) :
    val_main_v6 (F := Ideal) x0 x1 x2 (ix2 r n)
      = (∑ k : Fin 4096, Cert.Spec.sx x0 r k * Cert.Spec.sw x1 n k) + x2 (ix1 n) := by
  rw [val_main_v6_apply, val_main_v3_apply, val_main_v5_apply, val_main_v4_apply, bidx5, Ideal.addf_def]
  refine congrArg₂ (· + ·) (Finset.sum_congr rfl fun k _ => ?_) rfl
  rw [val_main_v0_apply, val_main_v2_apply, val_main_v1_apply, lidx3, ridx3, Ideal.hostUnary_sign_def,
    Ideal.hostUnary_sign_def]
  rfl

/-- The first layer's activation, binarized a second time as the second layer does, is still a1. -/
theorem a1_apply (x0 : (⟨S8192x4096, .f32⟩ : BufTy).Contents (Elt Ideal)) (x1 : (⟨S4096x4096, .f32⟩ : BufTy).Contents (Elt Ideal)) (x2 : (⟨S4096, .f32⟩ : BufTy).Contents (Elt Ideal)) (r : Fin 8192) (n : Fin 4096) :
    val_main_v8 (F := Ideal) x0 x1 x2 (ix2 r n) = Cert.Spec.a1 x0 x1 x2 r n := by
  rw [val_main_v8_apply, val_main_v7_apply, h1_apply, Ideal.hostUnary_sign_def, Ideal.hostUnary_sign_def,
    Cert.Spec.sign_sign]
  rfl

/-! ## The second layer -/

theorem h2_apply (x0 : (⟨S8192x4096, .f32⟩ : BufTy).Contents (Elt Ideal)) (x1 : (⟨S4096x4096, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (r : Fin 8192) (n : Fin 4096) :
    val_main_v14 (F := Ideal) x0 x1 x2 x3 x4 (ix2 r n)
      = (∑ k : Fin 4096, Cert.Spec.a1 x0 x1 x2 r k * Cert.Spec.sw x3 n k) + x4 (ix1 n) := by
  rw [val_main_v14_apply, val_main_v11_apply, val_main_v13_apply, val_main_v12_apply, bidx13, Ideal.addf_def]
  refine congrArg₂ (· + ·) (Finset.sum_congr rfl fun k _ => ?_) rfl
  rw [lidx11, a1_apply, val_main_v10_apply, val_main_v9_apply, ridx11, Ideal.hostUnary_sign_def]
  rfl

theorem a2_apply (x0 : (⟨S8192x4096, .f32⟩ : BufTy).Contents (Elt Ideal)) (x1 : (⟨S4096x4096, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (r : Fin 8192) (n : Fin 4096) :
    val_main_v15 (F := Ideal) x0 x1 x2 x3 x4 (ix2 r n) = Cert.Spec.a2 x0 x1 x2 x3 x4 r n := by
  rw [val_main_v15_apply, h2_apply, Ideal.hostUnary_sign_def]
  rfl

/-! ## The last layer: a plain product against w3 (not binarized), plus b3 -/

theorem out_apply (x0 : (⟨S8192x4096, .f32⟩ : BufTy).Contents (Elt Ideal)) (x1 : (⟨S4096x4096, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (x5 : (⟨S1000x4096, .f32⟩ : BufTy).Contents (Elt Ideal)) (x6 : (⟨S1000, .f32⟩ : BufTy).Contents (Elt Ideal)) (r : Fin 8192) (n : Fin 1000) :
    val_main_v20 (F := Ideal) x0 x1 x2 x3 x4 x5 x6 (ix2 r n)
      = (∑ k : Fin 4096, Cert.Spec.a2 x0 x1 x2 x3 x4 r k * x5 (ix2 n k)) + x6 (ix1 n) := by
  rw [val_main_v20_apply, val_main_v17_apply, val_main_v19_apply, val_main_v18_apply, bidx19, Ideal.addf_def]
  refine congrArg₂ (· + ·) (Finset.sum_congr rfl fun k _ => ?_) rfl
  rw [lidx17, a2_apply, val_main_v16_apply, ridx17]

/-- The reference's last stage, as a whole array, is the specification. -/
theorem ref_eq (x0 : (⟨S8192x4096, .f32⟩ : BufTy).Contents (Elt Ideal)) (x1 : (⟨S4096x4096, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (x5 : (⟨S1000x4096, .f32⟩ : BufTy).Contents (Elt Ideal)) (x6 : (⟨S1000, .f32⟩ : BufTy).Contents (Elt Ideal)) :
    val_main_v20 (F := Ideal) x0 x1 x2 x3 x4 x5 x6 = Cert.Spec.G x0 x1 x2 x3 x4 x5 x6 := by
  funext i
  obtain ⟨r, n, rfl⟩ : ∃ (r : Fin 8192) (n : Fin 1000), i = ix2 r n := ⟨i 0, i 1, eq_ix2 i⟩
  exact out_apply x0 x1 x2 x3 x4 x5 x6 r n

/-! ## The run -/

/-- Every execution of the reference ends with its result array equal to the specification applied to the seven
    argument arrays as they were at the start, and the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v20)
          = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (Cert.ReferenceIdeal.defs (F := Ideal)) _ _).mono
    (fun _ h c => ⟨(h c).1.trans ((val_main_v20_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).trans
        (ref_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))), (h c).2⟩)
    (Cert.ReferenceIdeal.Value.run (F := Ideal) m ρ)

end Cert.RefG

end
-- ==== Proof.lean ====
/-
  A three-layer network with binarized activations and weights (a three-valued sign in front of the first two matrix
  products, a plain last layer), as three Pallas kernels against its jnp reference, over the extended reals.

  The kernel program: sign x, sign w1, sign w2 are formed on the host; layer 1 and layer 2 each run on a 4 x 4 x 8 grid,
  a point (i, j, k) adding the product of a [2048, 512] block of activations with a [1024, 512] block of weights to a
  float accumulator kept in scratch across the 8 steps of k, and at k = 7 writing sign(accumulator + bias); layer 3 pads
  its 1000 output features to 1024 with zero rows, runs on an 8 x 8 grid the same way without the sign, and the result
  is the first 1000 columns.  The reference computes the same three layers with whole matrix products (and takes the
  sign of layer 1's output twice, which changes nothing).

  The five claims:
  * the three frames: each program runs to the end on every fair schedule, faults nowhere and leaves its arguments as
    launched — for the two kernel programs by following the contents of every buffer through the host operations and the
    three regions (Proof/KB, Proof/KI: each region's body is run symbolically in its three cases k = 0, 0 < k < 7, k = 7,
    the accumulator's contents carried in the region's invariant), for the reference by its run;
  * the idealization's two rewrites (the sign bit read as a comparison with zero) are the rule's statement;
  * at the exact instance both programs end with the same result: the specification Cert.Spec.G of the seven arguments.
    Kernel side: each layer's output array is the layer function of the arrays its region read — the accumulator after
    step k holds the sum over the first k + 1 column blocks, a sum over 4096 columns is the sum of its 8 blocks of 512
    (addition of extended reals is commutative and associative; no finiteness is used) — and the host operations between
    the regions are read index by index.  Reference side: its run read stage by stage.
-/
import proofs.«143552_j60455959658594_2_alg».proof.Defs
import proofs.«143552_j60455959658594_2_alg».proof.Proof.Gen.Kernel
import proofs.«143552_j60455959658594_2_alg».proof.Proof.Gen.KernelIdeal
import proofs.«143552_j60455959658594_2_alg».proof.Proof.Gen.ReferenceIdeal
import proofs.«143552_j60455959658594_2_alg».proof.Proof.Gen.Pre_finite_inputs
import proofs.«143552_j60455959658594_2_alg».proof.Proof.Gen.ReferenceIdeal.Read
import proofs.«143552_j60455959658594_2_alg».proof.Proof.KB.Chain
import proofs.«143552_j60455959658594_2_alg».proof.Proof.KI.Result
import proofs.«143552_j60455959658594_2_alg».proof.Proof.RefIsG
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Hand.run_frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.run_frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two rewrites of the idealization, each the rule's own statement at the block's shape. -/
theorem preserves : Cert.preserves_Kernel_KernelIdeal :=
  ⟨IdealRules.sign_bit.statement _ .f32, IdealRules.sign_bit.statement _ .f32⟩

/-- Both idealized programs end at the specification of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Hand.run_value m ρ, ?_⟩
  refine (θ_run Cert.ReferenceIdeal.defs _ _).mono (fun _ h c => ⟨(h c).1.trans ?_, (h c).2⟩) (Cert.RefG.ref_run m' ρ')
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
